-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x300 : Shape := ⟨3, ![128, 512, 300]⟩
abbrev S128x512x1024 : Shape := ⟨3, ![128, 512, 1024]⟩
abbrev S300x256 : Shape := ⟨2, ![300, 256]⟩
abbrev S256 : Shape := ⟨1, ![256]⟩
abbrev S1024x256 : Shape := ⟨2, ![1024, 256]⟩
abbrev S_ : Shape := ⟨0, ![]⟩

class Facts : Prop where
  bcast_S_S128x512x300 : S_.BroadcastsInDim S128x512x300 (![] : Fin 0 → Fin S128x512x300.rank)
  reducesTo_S128x512x300_S_d0_1_2 : S128x512x300.ReducesTo [0, 1, 2] S_
  h_S_ : 0 < S_.numel
  bcast_S_S128x512x1024 : S_.BroadcastsInDim S128x512x1024 (![] : Fin 0 → Fin S128x512x1024.rank)
  reducesTo_S128x512x1024_S_d0_1_2 : S128x512x1024.ReducesTo [0, 1, 2] S_
  bcast_S_S300x256 : S_.BroadcastsInDim S300x256 (![] : Fin 0 → Fin S300x256.rank)
  reducesTo_S300x256_S_d0_1 : S300x256.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_

variable [Facts]

def fn_part1 {F : FTy → Type} [FloatOps F] (main_arg4 : FVec F S1024x256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S128x512x300 .f32) (main_arg1 : FVec F S128x512x1024 .f32) (main_arg2 : FVec F S300x256 .f32) (main_arg3 : FVec F S256 .f32) (main_arg4 : FVec F S1024x256 .f32) (main_arg5 : FVec F S256 .f32) : IVec S_ 1 :=
  let main_v0 : FVec F S128x512x300 .f32 := Host.absf main_arg0
  let main_cst : FVec F S_ .f32 := constant S_ .f32 0x7F800000#32
  let main_v1 : FVec F S128x512x300 .f32 := broadcastInDim S128x512x300 ![] bcast_S_S128x512x300 main_cst
  let main_v2 : IVec S128x512x300 1 := cmpf .olt main_v0 main_v1
  let main_c : IVec S_ 1 := constantI S_ 1 1#1
  let main_v3 : IVec S_ 1 := (fun x v => Host.reduce IntOp.andi x v reducesTo_S128x512x300_S_d0_1_2 h_S_) main_v2 main_c
  let main_v4 : FVec F S128x512x1024 .f32 := Host.absf main_arg1
  let main_cst_0 : FVec F S_ .f32 := constant S_ .f32 0x7F800000#32
  let main_v5 : FVec F S128x512x1024 .f32 := broadcastInDim S128x512x1024 ![] bcast_S_S128x512x1024 main_cst_0
  let main_v6 : IVec S128x512x1024 1 := cmpf .olt main_v4 main_v5
  let main_c_1 : IVec S_ 1 := constantI S_ 1 1#1
  let main_v7 : IVec S_ 1 := (fun x v => Host.reduce IntOp.andi x v reducesTo_S128x512x1024_S_d0_1_2 h_S_) main_v6 main_c_1
  let main_v8 : IVec S_ 1 := andi main_v3 main_v7
  let main_v9 : FVec F S300x256 .f32 := Host.absf main_arg2
  let main_cst_2 : FVec F S_ .f32 := constant S_ .f32 0x7F800000#32
  let main_v10 : FVec F S300x256 .f32 := broadcastInDim S300x256 ![] bcast_S_S300x256 main_cst_2
  let main_v11 : IVec S300x256 1 := cmpf .olt main_v9 main_v10
  let main_c_3 : IVec S_ 1 := constantI S_ 1 1#1
  let main_v12 : IVec S_ 1 := (fun x v => Host.reduce IntOp.andi x v reducesTo_S300x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S128x512x300 : Shape := ⟨3, ![128, 512, 300]⟩
abbrev S128x512x1024 : Shape := ⟨3, ![128, 512, 1024]⟩
abbrev S300x256 : Shape := ⟨2, ![300, 256]⟩
abbrev S256 : Shape := ⟨1, ![256]⟩
abbrev S1024x256 : Shape := ⟨2, ![1024, 256]⟩
abbrev S1x256 : Shape := ⟨2, ![1, 256]⟩
abbrev S128x512x256 : Shape := ⟨3, ![128, 512, 256]⟩
abbrev S8x512x300 : Shape := ⟨3, ![8, 512, 300]⟩
abbrev S8x512x256 : Shape := ⟨3, ![8, 512, 256]⟩
abbrev S4096x300 : Shape := ⟨2, ![4096, 300]⟩
abbrev S4096x256 : Shape := ⟨2, ![4096, 256]⟩
abbrev S4096 : Shape := ⟨1, ![4096]⟩
abbrev S4096x1 : Shape := ⟨2, ![4096, 1]⟩
abbrev S4x512x1024 : Shape := ⟨3, ![4, 512, 1024]⟩
abbrev S4x512x256 : Shape := ⟨3, ![4, 512, 256]⟩
abbrev S2048x1024 : Shape := ⟨2, ![2048, 1024]⟩
abbrev S2048x256 : Shape := ⟨2, ![2048, 256]⟩
abbrev S2048 : Shape := ⟨1, ![2048]⟩
abbrev S2048x1 : Shape := ⟨2, ![2048, 1]⟩
abbrev S128x512 : Shape := ⟨2, ![128, 512]⟩
abbrev S8x512 : Shape := ⟨2, ![8, 512]⟩
abbrev S8x512x512 : Shape := ⟨3, ![8, 512, 512]⟩
abbrev S8x512x1 : Shape := ⟨3, ![8, 512, 1]⟩
abbrev S8x1x512 : Shape := ⟨3, ![8, 1, 512]⟩
abbrev S_ : Shape := ⟨0, ![]⟩
abbrev S128 : Shape := ⟨1, ![128]⟩

abbrev nBuf : Space → Nat
  | .hbm => 23
  | .vmem => 20
  | .smem => 0
  | _ => 0

abbrev bufTy : (tb : Table) → Fin (tcTables nBuf tb) → BufTy
  | .hbm, ⟨0, _⟩ => ⟨S128x512x300, .f32⟩
  | .hbm, ⟨1, _⟩ => ⟨S128x512x1024, .f32⟩
  | .hbm, ⟨2, _⟩ => ⟨S300x256, .f32⟩
  | .hbm, ⟨3, _⟩ => ⟨S256, .f32⟩
  | .hbm, ⟨4, _⟩ => ⟨S1024x256, .f32⟩
  | .hbm, ⟨5, _⟩ => ⟨S256, .f32⟩
  | .hbm, ⟨6, _⟩ => ⟨S1x256, .f32⟩
  | .hbm, ⟨7, _⟩ => ⟨S1x256, .f32⟩
  | .hbm, ⟨8, _⟩ => ⟨S128x512x256, .bf16⟩
  | .hbm, ⟨9, _⟩ => ⟨S128x512x256, .bf16⟩
  | .hbm, ⟨10, _⟩ => ⟨S128x512, .f32⟩
  | .hbm, ⟨11, _⟩ => ⟨S128x512, .f32⟩
  | .hbm, ⟨12, _⟩ => ⟨S_, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S128, .f32⟩
  | .local _ .vmem, ⟨0, _⟩ => ⟨S8x512x300, .f32⟩
  | .local _ .vmem, ⟨1, _⟩ => ⟨S8x512x300, .f32⟩
  | .local _ .vmem, ⟨2, _⟩ => ⟨S300x256, .f32⟩
  | .local _ .vmem, ⟨3, _⟩ => ⟨S1x256, .f32⟩
  | .local _ .vmem, ⟨4, _⟩ => ⟨S8x512x256, .bf16⟩
  | .local _ .vmem, ⟨5, _⟩ => ⟨S8x512x256, .bf16⟩
  | .local _ .vmem, ⟨6, _⟩ => ⟨S4x512x1024, .f32⟩
  | .local _ .vmem, ⟨7, _⟩ => ⟨S4x512x1024, .f32⟩
  | .local _ .vmem, ⟨8, _⟩ => ⟨S1024x256, .f32⟩
  | .local _ .vmem, ⟨9, _⟩ => ⟨S1x256, .f32⟩
  | .local _ .vmem, ⟨10, _⟩ => ⟨S4x512x256, .bf16⟩
  | .local _ .vmem, ⟨11, _⟩ => ⟨S4x512x256, .bf16⟩
  | .local _ .vmem, ⟨12, _⟩ => ⟨S8x512x256, .bf16⟩
  | .local _ .vmem, ⟨13, _⟩ => ⟨S8x512x256, .bf16⟩
  | .local _ .vmem, ⟨14, _⟩ => ⟨S8x512x256, .bf16⟩
  | .local _ .vmem, ⟨15, _⟩ => ⟨S8x512x256, .bf16⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | _, _ => ⟨S128x512x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x512x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x512x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S256_S1x256 : S256.ShapeCasts S1x256
  inb_S8x512x300_S8x512x300_0_0_0 : ∀ a, (![0, 0, 0] : Fin 3 → Nat) a + S8x512x300.size a ≤ S8x512x300.size a
  h_S8x512x300 : 0 < S8x512x300.numel
  shapeCasts_S8x512x300_S4096x300 : S8x512x300.ShapeCasts S4096x300
  inb_S300x256_S300x256_0_0 : ∀ a, (![0, 0] : Fin 2 → Nat) a + S300x256.size a ≤ S300x256.size a
  h_S300x256 : 0 < S300x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bitsLt_bf16_f32 : FTy.bits .bf16 < FTy.bits .f32
  broadcasts_S1x256_S4096x256 : S1x256.Broadcasts S4096x256
  reduces_S4096x256_S4096 : S4096x256.Reduces [1] S4096
  shapeCasts_S4096_S4096x1 : S4096.ShapeCasts S4096x1
  broadcasts_S4096x1_S4096x256 : S4096x1.Broadcasts S4096x256
  shapeCasts_S4096x256_S8x512x256 : S4096x256.ShapeCasts S8x512x256
  inb_S8x512x256_S8x512x256_0_0_0 : ∀ a, (![0, 0, 0] : Fin 3 → Nat) a + S8x512x256.size a ≤ S8x512x256.size a
  h_S8x512x256 : 0 < S8x512x256.numel
  packedbf16_S8x512x256_S8x512x256_0_0_0 : (Rect.unit (s := S8x512x256) ![0, 0, 0] S8x512x256.size inb_S8x512x256_S8x512x256_0_0_0).PackedRows (EltTy.packing .bf16)
  inb_S4x512x1024_S4x512x1024_0_0_0 : ∀ a, (![0, 0, 0] : Fin 3 → Nat) a + S4x512x1024.size a ≤ S4x512x1024.size a
  h_S4x512x1024 : 0 < S4x512x1024.numel
  shapeCasts_S4x512x1024_S2048x1024 : S4x512x1024.ShapeCasts S2048x1024
  inb_S1024x256_S1024x256_0_0 : ∀ a, (![0, 0] : Fin 2 → Nat) a + S1024x256.size a ≤ S1024x256.size a
  h_S1024x256 : 0 < S1024x256.numel
  broadcasts_S1x256_S2048x256 : S1x256.Broadcasts S2048x256
  reduces_S2048x256_S2048 : S2048x256.Reduces [1] S2048
  shapeCasts_S2048_S2048x1 : S2048.ShapeCasts S2048x1
  broadcasts_S2048x1_S2048x256 : S2048x1.Broadcasts S2048x256
  shapeCasts_S2048x256_S4x512x256 : S2048x256.ShapeCasts S4x512x256
  inb_S4x512x256_S4x512x256_0_0_0 : ∀ a, (![0, 0, 0] : Fin 3 → Nat) a + S4x512x256.size a ≤ S4x512x256.size a
  h_S4x512x256 : 0 < S4x512x256.numel
  packedbf16_S4x512x256_S4x512x256_0_0_0 : (Rect.unit (s := S4x512x256) ![0, 0, 0] S4x512x256.size inb_S4x512x256_S4x512x256_0_0_0).PackedRows (EltTy.packing .bf16)
  shapeCasts_S8x512x256_S8x512x256 : S8x512x256.ShapeCasts S8x512x256
  reduces_S8x512x512_S8x512 : S8x512x512.Reduces [2] S8x512
  shapeCasts_S8x512_S8x512x1 : S8x512.ShapeCasts S8x512x1
  broadcasts_S8x512x1_S8x512x512 : S8x512x1.Broadcasts S8x512x512
  reduces_S8x512x256_S8x512 : S8x512x256.Reduces [2] S8x512
  inb_S8x512_S8x512_0_0 : ∀ a, (![0, 0] : Fin 2 → Nat) a + S8x512.size a ≤ S8x512.size a
  h_S8x512 : 0 < S8x512.numel
  reduces_S8x512x512_S8x512_2 : S8x512x512.Reduces [1] S8x512
  shapeCasts_S8x512_S8x1x512 : S8x512.ShapeCasts S8x1x512
  broadcasts_S8x1x512_S8x512x512 : S8x1x512.Broadcasts S8x512x512
  reducesTo_S128x512_S128_d1 : S128x512.ReducesTo [1] S128
  h_S_ : 0 < S_.numel
  bcast_S_S128 : S_.BroadcastsInDim S128 (![] : Fin 0 → Fin S128.rank)
  dot_S4096x300_S300x256_S4096x256_1_0_0_1_n_n_wf : DotDims.WF S4096x300 S300x256 S4096x256 [1] [0] [0] [1] [] []
  dot_S2048x1024_S1024x256_S2048x256_1_0_0_1_n_n_wf : DotDims.WF S2048x1024 S1024x256 S2048x256 [1] [0] [0] [1] [] []
  dot_S8x512x256_S8x512x256_S8x512x512_2_2_1_1_0_0_wf : DotDims.WF S8x512x256 S8x512x256 S8x512x512 [2] [2] [1] [1] [0] [0]
  dot_S8x512x512_S8x512x256_S8x512x256_2_1_1_2_0_0_wf : DotDims.WF S8x512x512 S8x512x256 S8x512x256 [2] [1] [1] [2] [0] [0]
  dot_S8x512x512_S8x512x256_S8x512x256_1_1_2_2_0_0_wf : DotDims.WF S8x512x512 S8x512x256 S8x512x256 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x300.size a ≤ S128x512x300.size a
  hwx0_0 : ∀ i : grid0.Coords, EltTy.bits .f32 = 32 ∨ (Rect.block (s := S128x512x300) S8x512x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x256.size a ≤ S300x256.size a
  hwx0_1 : ∀ i : grid0.Coords, EltTy.bits .f32 = 32 ∨ (Rect.block (s := S300x256) S300x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512x256.size a ≤ S128x512x256.size a
  hwx0_3 : ∀ i : grid0.Coords, EltTy.bits .bf16 = 32 ∨ (Rect.block (s := S128x512x256) S8x512x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x1024.size a ≤ S128x512x1024.size a
  hwx1_0 : ∀ i : grid1.Coords, EltTy.bits .f32 = 32 ∨ (Rect.block (s := S128x512x1024) S4x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S1024x256.size a
  hwx1_1 : ∀ i : grid1.Coords, EltTy.bits .f32 = 32 ∨ (Rect.block (s := S1024x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x512x256.size a ≤ S128x512x256.size a
  hwx1_3 : ∀ i : grid1.Coords, EltTy.bits .bf16 = 32 ∨ (Rect.block (s := S128x512x256) S4x512x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x512x256.size a ≤ S128x512x256.size a
  hwx2_0 : ∀ i : grid2.Coords, EltTy.bits .bf16 = 32 ∨ (Rect.block (s := S128x512x256) S8x512x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x512x256.size a ≤ S128x512x256.size a
  hwx2_1 : ∀ i : grid2.Coords, EltTy.bits .bf16 = 32 ∨ (Rect.block (s := S128x512x256) S8x512x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x512.size a ≤ S128x512.size a
  hwx2_2 : ∀ i : grid2.Coords, EltTy.bits .f32 = 32 ∨ (Rect.block (s := S128x512) S8x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x512.size a ≤ S128x512.size a
  hwx2_3 : ∀ i : grid2.Coords, EltTy.bits .f32 = 32 ∨ (Rect.block (s := S128x512) S8x512.size (cc2_transform_3 i) (hinb2_3 i)).WholeWords (EltTy.packing .f32)

variable [Facts₀]

def dot_S4096x300_S300x256_S4096x256_1_0_0_1_n_n : DotDims S4096x300 S300x256 S4096x256 where
  lhsContracting := [1]
  rhsContracting := [0]
  lhsNonContracting := [0]
  rhsNonContracting := [1]
  lhsBatch := []
  rhsBatch := []
  wf := dot_S4096x300_S300x256_S4096x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S8x512x256_S8x512x256_S8x512x512_2_2_1_1_0_0 : DotDims S8x512x256 S8x512x256 S8x512x512 where
  lhsContracting := [2]
  rhsContracting := [2]
  lhsNonContracting := [1]
  rhsNonContracting := [1]
  lhsBatch := [0]
  rhsBatch := [0]
  wf := dot_S8x512x256_S8x512x256_S8x512x512_2_2_1_1_0_0_wf
def dot_S8x512x512_S8x512x256_S8x512x256_2_1_1_2_0_0 : DotDims S8x512x512 S8x512x256 S8x512x256 where
  lhsContracting := [2]
  rhsContracting := [1]
  lhsNonContracting := [1]
  rhsNonContracting := [2]
  lhsBatch := [0]
  rhsBatch := [0]
  wf := dot_S8x512x512_S8x512x256_S8x512x256_2_1_1_2_0_0_wf
def dot_S8x512x512_S8x512x256_S8x512x256_1_1_2_2_0_0 : DotDims S8x512x512 S8x512x256 S8x512x256 where
  lhsContracting := [1]
  rhsContracting := [1]
  lhsNonContracting := [2]
  rhsNonContracting := [2]
  lhsBatch := [0]
  rhsBatch := [0]
  wf := dot_S8x512x512_S8x512x256_S8x512x256_1_1_2_2_0_0_wf

abbrev win0_0 : Pipeline.Window sig grid0 :=
  Pipeline.Window.ofSpec (Memref.whole main_arg0) S8x512x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S300x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S4x512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S8x512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S8x512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4_0) S8x512.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4_1) S8x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S128x512x300 : Shape := ⟨3, ![128, 512, 300]⟩
abbrev S128x512x1024 : Shape := ⟨3, ![128, 512, 1024]⟩
abbrev S300x256 : Shape := ⟨2, ![300, 256]⟩
abbrev S256 : Shape := ⟨1, ![256]⟩
abbrev S1024x256 : Shape := ⟨2, ![1024, 256]⟩
abbrev S128x512x256 : Shape := ⟨3, ![128, 512, 256]⟩
abbrev S1x1x256 : Shape := ⟨3, ![1, 1, 256]⟩
abbrev S_ : Shape := ⟨0, ![]⟩
abbrev S128x512 : Shape := ⟨2, ![128, 512]⟩
abbrev S128x512x1 : Shape := ⟨3, ![128, 512, 1]⟩
abbrev S128x512x512 : Shape := ⟨3, ![128, 512, 512]⟩
abbrev S128 : Shape := ⟨1, ![128]⟩
abbrev S128x1x512 : Shape := ⟨3, ![128, 1, 512]⟩

abbrev nBuf : Space → Nat
  | .hbm => 122
  | .vmem => 0
  | .smem => 0
  | _ => 0

abbrev bufTy : (tb : Table) → Fin (tcTables nBuf tb) → BufTy
  | .hbm, ⟨0, _⟩ => ⟨S128x512x300, .f32⟩
  | .hbm, ⟨1, _⟩ => ⟨S128x512x1024, .f32⟩
  | .hbm, ⟨2, _⟩ => ⟨S300x256, .f32⟩
  | .hbm, ⟨3, _⟩ => ⟨S256, .f32⟩
  | .hbm, ⟨4, _⟩ => ⟨S1024x256, .f32⟩
  | .hbm, ⟨5, _⟩ => ⟨S256, .f32⟩
  | .hbm, ⟨6, _⟩ => ⟨S128x512x256, .f32⟩
  | .hbm, ⟨7, _⟩ => ⟨S1x1x256, .f32⟩
  | .hbm, ⟨8, _⟩ => ⟨S128x512x256, .f32⟩
  | .hbm, ⟨9, _⟩ => ⟨S128x512x256, .f32⟩
  | .hbm, ⟨10, _⟩ => ⟨S128x512x256, .f32⟩
  | .hbm, ⟨11, _⟩ => ⟨S_, .f32⟩
  | .hbm, ⟨12, _⟩ => ⟨S128x512, .f32⟩
  | .hbm, ⟨13, _⟩ => ⟨S128x512x1, .f32⟩
  | .hbm, ⟨14, _⟩ => ⟨S128x512x1, .f32⟩
  | .hbm, ⟨15, _⟩ => ⟨S_, .f32⟩
  | .hbm, ⟨16, _⟩ => ⟨S128x512x1, .f32⟩
  | .hbm, ⟨17, _⟩ => ⟨S128x512x1, .f32⟩
  | .hbm, ⟨18, _⟩ => ⟨S128x512x256, .f32⟩
  | .hbm, ⟨19, _⟩ => ⟨S128x512x256, .f32⟩
  | .hbm, ⟨20, _⟩ => ⟨S128x512x256, .f32⟩
  | .hbm, ⟨21, _⟩ => ⟨S1x1x256, .f32⟩
  | .hbm, ⟨22, _⟩ => ⟨S128x512x256, .f32⟩
  | .hbm, ⟨23, _⟩ => ⟨S128x512x256, .f32⟩
  | .hbm, ⟨24, _⟩ => ⟨S128x512x256, .f32⟩
  | .hbm, ⟨25, _⟩ => ⟨S_, .f32⟩
  | .hbm, ⟨26, _⟩ => ⟨S128x512, .f32⟩
  | .hbm, ⟨27, _⟩ => ⟨S128x512x1, .f32⟩
  | .hbm, ⟨28, _⟩ => ⟨S128x512x1, .f32⟩
  | .hbm, ⟨29, _⟩ => ⟨S_, .f32⟩
  | .hbm, ⟨30, _⟩ => ⟨S128x512x1, .f32⟩
  | .hbm, ⟨31, _⟩ => ⟨S128x512x1, .f32⟩
  | .hbm, ⟨32, _⟩ => ⟨S128x512x256, .f32⟩
  | .hbm, ⟨33, _⟩ => ⟨S128x512x256, .f32⟩
  | .hbm, ⟨34, _⟩ => ⟨S128x512x512, .f32⟩
  | .hbm, ⟨35, _⟩ => ⟨S_, .f32⟩
  | .hbm, ⟨36, _⟩ => ⟨S_, .f32⟩
  | .hbm, ⟨37, _⟩ => ⟨S128x512x512, .f32⟩
  | .hbm, ⟨38, _⟩ => ⟨S128x512x512, .i1⟩
  | .hbm, ⟨39, _⟩ => ⟨S_, .f32⟩
  | .hbm, ⟨40, _⟩ => ⟨S128x512x512, .f32⟩
  | .hbm, ⟨41, _⟩ => ⟨S128x512x512, .f32⟩
  | .hbm, ⟨42, _⟩ => ⟨S128x512x512, .f32⟩
  | .hbm, ⟨43, _⟩ => ⟨S_, .f32⟩
  | .hbm, ⟨44, _⟩ => ⟨S128x512x512, .f32⟩
  | .hbm, ⟨45, _⟩ => ⟨S128x512x512, .f32⟩
  | .hbm, ⟨46, _⟩ => ⟨S_, .f32⟩
  | .hbm, ⟨47, _⟩ => ⟨S128x512, .f32⟩
  | .hbm, ⟨48, _⟩ => ⟨S_, .f32⟩
  | .hbm, ⟨49, _⟩ => ⟨S128x512, .f32⟩
  | .hbm, ⟨50, _⟩ => ⟨S128x512, .f32⟩
  | .hbm, ⟨51, _⟩ => ⟨S128x512x1, .f32⟩
  | .hbm, ⟨52, _⟩ => ⟨S128x512x512, .f32⟩
  | .hbm, ⟨53, _⟩ => ⟨S128x512x512, .f32⟩
  | .hbm, ⟨54, _⟩ => ⟨S128x512x512, .f32⟩
  | .hbm, ⟨55, _⟩ => ⟨S_, .f32⟩
  | .hbm, ⟨56, _⟩ => ⟨S128x512, .f32⟩
  | .hbm, ⟨57, _⟩ => ⟨S128x512x1, .f32⟩
  | .hbm, ⟨58, _⟩ => ⟨S128x512x512, .f32⟩
  | .hbm, ⟨59, _⟩ => ⟨S128x512x512, .f32⟩
  | .hbm, ⟨60, _⟩ => ⟨S128x512x256, .f32⟩
  | .hbm, ⟨61, _⟩ => ⟨S128x512x256, .f32⟩
  | .hbm, ⟨62, _⟩ => ⟨S_, .f32⟩
  | .hbm, ⟨63, _⟩ => ⟨S128x512, .f32⟩
  | .hbm, ⟨64, _⟩ => ⟨S128x512x256, .f32⟩
  | .hbm, ⟨65, _⟩ => ⟨S_, .f32⟩
  | .hbm, ⟨66, _⟩ => ⟨S128x512, .f32⟩
  | .hbm, ⟨67, _⟩ => ⟨S128x512, .f32⟩
  | .hbm, ⟨68, _⟩ => ⟨S128x512x256, .f32⟩
  | .hbm, ⟨69, _⟩ => ⟨S_, .f32⟩
  | .hbm, ⟨70, _⟩ => ⟨S128x512, .f32⟩
  | .hbm, ⟨71, _⟩ => ⟨S128x512, .f32⟩
  | .hbm, ⟨72, _⟩ => ⟨S128x512, .f32⟩
  | .hbm, ⟨73, _⟩ => ⟨S_, .f32⟩
  | .hbm, ⟨74, _⟩ => ⟨S128x512, .f32⟩
  | .hbm, ⟨75, _⟩ => ⟨S128x512, .f32⟩
  | .hbm, ⟨76, _⟩ => ⟨S128x512, .f32⟩
  | .hbm, ⟨77, _⟩ => ⟨S_, .f32⟩
  | .hbm, ⟨78, _⟩ => ⟨S128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S_, .f32⟩
  | .hbm, ⟨83, _⟩ => ⟨S128x512x512, .f32⟩
  | .hbm, ⟨84, _⟩ => ⟨S128x512x512, .f32⟩
  | .hbm, ⟨85, _⟩ => ⟨S_, .f32⟩
  | .hbm, ⟨86, _⟩ => ⟨S128x512, .f32⟩
  | .hbm, ⟨87, _⟩ => ⟨S_, .f32⟩
  | .hbm, ⟨88, _⟩ => ⟨S128x512, .f32⟩
  | .hbm, ⟨89, _⟩ => ⟨S128x512, .f32⟩
  | .hbm, ⟨90, _⟩ => ⟨S128x1x512, .f32⟩
  | .hbm, ⟨91, _⟩ => ⟨S128x512x512, .f32⟩
  | .hbm, ⟨92, _⟩ => ⟨S128x512x512, .f32⟩
  | .hbm, ⟨93, _⟩ => ⟨S128x512x512, .f32⟩
  | .hbm, ⟨94, _⟩ => ⟨S_, .f32⟩
  | .hbm, ⟨95, _⟩ => ⟨S128x512, .f32⟩
  | .hbm, ⟨96, _⟩ => ⟨S128x1x512, .f32⟩
  | .hbm, ⟨97, _⟩ => ⟨S128x512x512, .f32⟩
  | .hbm, ⟨98, _⟩ => ⟨S128x512x512, .f32⟩
  | .hbm, ⟨99, _⟩ => ⟨S128x512x256, .f32⟩
  | .hbm, ⟨100, _⟩ => ⟨S128x512x256, .f32⟩
  | .hbm, ⟨101, _⟩ => ⟨S_, .f32⟩
  | .hbm, ⟨102, _⟩ => ⟨S128x512, .f32⟩
  | .hbm, ⟨103, _⟩ => ⟨S128x512x256, .f32⟩
  | .hbm, ⟨104, _⟩ => ⟨S_, .f32⟩
  | .hbm, ⟨105, _⟩ => ⟨S128x512, .f32⟩
  | .hbm, ⟨106, _⟩ => ⟨S128x512, .f32⟩
  | .hbm, ⟨107, _⟩ => ⟨S128x512x256, .f32⟩
  | .hbm, ⟨108, _⟩ => ⟨S_, .f32⟩
  | .hbm, ⟨109, _⟩ => ⟨S128x512, .f32⟩
  | .hbm, ⟨110, _⟩ => ⟨S128x512, .f32⟩
  | .hbm, ⟨111, _⟩ => ⟨S128x512, .f32⟩
  | .hbm, ⟨112, _⟩ => ⟨S_, .f32⟩
  | .hbm, ⟨113, _⟩ => ⟨S128x512, .f32⟩
  | .hbm, ⟨114, _⟩ => ⟨S128x512, .f32⟩
  | .hbm, ⟨115, _⟩ => ⟨S128x512, .f32⟩
  | .hbm, ⟨116, _⟩ => ⟨S_, .f32⟩
  | .hbm, ⟨117, _⟩ => ⟨S128, .f32⟩
  | .hbm, ⟨118, _⟩ => ⟨S_, .f32⟩
  | .hbm, ⟨119, _⟩ => ⟨S128, .f32⟩
  | .hbm, ⟨120, _⟩ => ⟨S128, .f32⟩
  | .hbm, ⟨121, _⟩ => ⟨S128, .f32⟩
  | _, _ => ⟨S128x512x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_call1_v2 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_call2_cst : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v19 : Ref sig .tc := ⟨.hbm, 42, rfl⟩
abbrev main_cst_2 : Ref sig .tc := ⟨.hbm, 43, rfl⟩
abbrev main_v20 : Ref sig .tc := ⟨.hbm, 44, rfl⟩
abbrev main_v21 : Ref sig .tc := ⟨.hbm, 45, rfl⟩
abbrev main_cst_3 : Ref sig .tc := ⟨.hbm, 46, rfl⟩
abbrev main_v22 : Ref sig .tc := ⟨.hbm, 47, rfl⟩
abbrev main_cst_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_call3_v0 : Ref sig .tc := ⟨.hbm, 64, rfl⟩
abbrev main_call3_cst : Ref sig .tc := ⟨.hbm, 65, rfl⟩
abbrev main_call3_v1 : Ref sig .tc := ⟨.hbm, 66, rfl⟩
abbrev main_v36 : Ref sig .tc := ⟨.hbm, 67, rfl⟩
abbrev main_call4_v0 : Ref sig .tc := ⟨.hbm, 68, rfl⟩
abbrev main_call4_cst : Ref sig .tc := ⟨.hbm, 69, rfl⟩
abbrev main_call4_v1 : Ref sig .tc := ⟨.hbm, 70, rfl⟩
abbrev main_v37 : Ref sig .tc := ⟨.hbm, 71, rfl⟩
abbrev main_v38 : Ref sig .tc := ⟨.hbm, 72, rfl⟩
abbrev main_cst_7 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_8 : Ref sig .tc := ⟨.hbm, 77, rfl⟩
abbrev main_v42 : Ref sig .tc := ⟨.hbm, 78, rfl⟩
abbrev main_cst_9 : Ref sig .tc := ⟨.hbm, 79, rfl⟩
abbrev main_v43 : Ref sig .tc := ⟨.hbm, 80, rfl⟩
abbrev main_v44 : Ref sig .tc := ⟨.hbm, 81, rfl⟩
abbrev main_cst_10 : Ref sig .tc := ⟨.hbm, 82, rfl⟩
abbrev main_v45 : Ref sig .tc := ⟨.hbm, 83, rfl⟩
abbrev main_v46 : Ref sig .tc := ⟨.hbm, 84, rfl⟩
abbrev main_cst_11 : Ref sig .tc := ⟨.hbm, 85, rfl⟩
abbrev main_v47 : Ref sig .tc := ⟨.hbm, 86, rfl⟩
abbrev main_cst_12 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_13 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_14 : Ref sig .tc := ⟨.hbm, 101, rfl⟩
abbrev main_v60 : Ref sig .tc := ⟨.hbm, 102, rfl⟩
abbrev main_call5_v0 : Ref sig .tc := ⟨.hbm, 103, rfl⟩
abbrev main_call5_cst : Ref sig .tc := ⟨.hbm, 104, rfl⟩
abbrev main_call5_v1 : Ref sig .tc := ⟨.hbm, 105, rfl⟩
abbrev main_v61 : Ref sig .tc := ⟨.hbm, 106, rfl⟩
abbrev main_call6_v0 : Ref sig .tc := ⟨.hbm, 107, rfl⟩
abbrev main_call6_cst : Ref sig .tc := ⟨.hbm, 108, rfl⟩
abbrev main_call6_v1 : Ref sig .tc := ⟨.hbm, 109, rfl⟩
abbrev main_v62 : Ref sig .tc := ⟨.hbm, 110, rfl⟩
abbrev main_v63 : Ref sig .tc := ⟨.hbm, 111, rfl⟩
abbrev main_cst_15 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_16 : Ref sig .tc := ⟨.hbm, 116, rfl⟩
abbrev main_v67 : Ref sig .tc := ⟨.hbm, 117, rfl⟩
abbrev main_cst_17 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S128x512x256_0_1_2 : S1x1x256.BroadcastsInDim S128x512x256 (![0, 1, 2] : Fin 3 → Fin S128x512x256.rank)
  reducesTo_S128x512x256_S128x512_d2 : S128x512x256.ReducesTo [2] S128x512
  h_S_ : 0 < S_.numel
  bcast_S128x512_S128x512x1_0_1 : S128x512.BroadcastsInDim S128x512x1 (![0, 1] : Fin 2 → Fin S128x512x1.rank)
  bcast_S_S128x512x1 : S_.BroadcastsInDim S128x512x1 (![] : Fin 0 → Fin S128x512x1.rank)
  bcast_S128x512x1_S128x512x256_0_1_2 : S128x512x1.BroadcastsInDim S128x512x256 (![0, 1, 2] : Fin 3 → Fin S128x512x256.rank)
  bcast_S_S128x512x512 : S_.BroadcastsInDim S128x512x512 (![] : Fin 0 → Fin S128x512x512.rank)
  reducesTo_S128x512x512_S128x512_d2 : S128x512x512.ReducesTo [2] S128x512
  bcast_S_S128x512 : S_.BroadcastsInDim S128x512 (![] : Fin 0 → Fin S128x512.rank)
  bcast_S128x512x1_S128x512x512_0_1_2 : S128x512x1.BroadcastsInDim S128x512x512 (![0, 1, 2] : Fin 3 → Fin S128x512x512.rank)
  reducesTo_S128x512_S128_d1 : S128x512.ReducesTo [1] S128
  bcast_S_S128 : S_.BroadcastsInDim S128 (![] : Fin 0 → Fin S128.rank)
  reducesTo_S128x512x512_S128x512_d1 : S128x512x512.ReducesTo [1] S128x512
  bcast_S128x512_S128x1x512_0_2 : S128x512.BroadcastsInDim S128x1x512 (![0, 2] : Fin 2 → Fin S128x1x512.rank)
  bcast_S128x1x512_S128x512x512_0_1_2 : S128x1x512.BroadcastsInDim S128x512x512 (![0, 1, 2] : Fin 3 → Fin S128x512x512.rank)
  dot_S128x512x300_S300x256_S128x512x256_2_0_01_1_n_n_wf : DotDims.WF S128x512x300 S300x256 S128x512x256 [2] [0] [0, 1] [1] [] []
  dot_S128x512x1024_S1024x256_S128x512x256_2_0_01_1_n_n_wf : DotDims.WF S128x512x1024 S1024x256 S128x512x256 [2] [0] [0, 1] [1] [] []
  dot_S128x512x256_S128x512x256_S128x512x512_2_2_1_1_0_0_wf : DotDims.WF S128x512x256 S128x512x256 S128x512x512 [2] [2] [1] [1] [0] [0]
  dot_S128x512x512_S128x512x256_S128x512x256_2_1_1_2_0_0_wf : DotDims.WF S128x512x512 S128x512x256 S128x512x256 [2] [1] [1] [2] [0] [0]
  dot_S128x512x512_S128x512x256_S128x512x256_1_1_2_2_0_0_wf : DotDims.WF S128x512x512 S128x512x256 S128x512x256 [1] [1] [2] [2] [0] [0]

variable [Facts₀]

def dot_S128x512x300_S300x256_S128x512x256_2_0_01_1_n_n : DotDims S128x512x300 S300x256 S128x512x256 where
  lhsContracting := [2]
  rhsContracting := [0]
  lhsNonContracting := [0, 1]
  rhsNonContracting := [1]
  lhsBatch := []
  rhsBatch := []
  wf := dot_S128x512x300_S300x256_S128x512x256_2_0_01_1_n_n_wf
def dot_S128x512x1024_S1024x256_S128x512x256_2_0_01_1_n_n : DotDims S128x512x1024 S1024x256 S128x512x256 where
  lhsContracting := [2]
  rhsContracting := [0]
  lhsNonContracting := [0, 1]
  rhsNonContracting := [1]
  lhsBatch := []
  rhsBatch := []
  wf := dot_S128x512x1024_S1024x256_S128x512x256_2_0_01_1_n_n_wf
def dot_S128x512x256_S128x512x256_S128x512x512_2_2_1_1_0_0 : DotDims S128x512x256 S128x512x256 S128x512x512 where
  lhsContracting := [2]
  rhsContracting := [2]
  lhsNonContracting := [1]
  rhsNonContracting := [1]
  lhsBatch := [0]
  rhsBatch := [0]
  wf := dot_S128x512x256_S128x512x256_S128x512x512_2_2_1_1_0_0_wf
def dot_S128x512x512_S128x512x256_S128x512x256_2_1_1_2_0_0 : DotDims S128x512x512 S128x512x256 S128x512x256 where
  lhsContracting := [2]
  rhsContracting := [1]
  lhsNonContracting := [1]
  rhsNonContracting := [2]
  lhsBatch := [0]
  rhsBatch := [0]
  wf := dot_S128x512x512_S128x512x256_S128x512x256_2_1_1_2_0_0_wf
def dot_S128x512x512_S128x512x256_S128x512x256_1_1_2_2_0_0 : DotDims S128x512x512 S128x512x256 S128x512x256 where
  lhsContracting := [1]
  rhsContracting := [1]
  lhsNonContracting := [2]
  rhsNonContracting := [2]
  lhsBatch := [0]
  rhsBatch := [0]
  wf := dot_S128x512x512_S128x512x256_S128x512x256_1_1_2_2_0_0_wf

class Facts : Prop extends Facts₀ where

variable [Facts]
-- ==== Proof.KRun.lean ====
/-
  The kernel program's run with its result named.

  @main is five segments: two reshapes of the bias vectors, the three kernel regions, and the eleven host operations
  that take the two means and add them.  Every weakly fair execution terminates with each unscoped buffer at the
  last boundary's contents; read at the result buffer and at the six arguments this is the statement below.  The
  contents at the boundaries are the fold `W0 … W5` of the frame: the launch memory, then the reshapes, then each
  region's output arrays at what its write-backs leave, then the closing host operations.
-/
import proofs.«150999_j3109556323149_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents there and the six argument arrays as launched. -/
theorem run : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v11 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Named

end
-- ==== Proof.Spec.lean ====
/-
  The mathematics of both programs, as functions over the extended reals.

  Arrays are functions of their coordinates: a batch coordinate `n`, a word position `l`, an image region `r`,
  a feature `d`.  The number of batch rows `N` is a parameter: every definition below treats the batch rows
  independently, so the same definitions describe a whole array (`N = 128`) and a block of a few batch rows.

  * `lin x W b`      : the projection  y(n,l,d) = ∑ₑ x(n,l,e)·W(e,d) + b(d);
  * `unit y`         : y(n,l,d) / (√(∑ₖ y(n,l,k)²) + ε);
  * `sim p q`        : ∑_d p(n,l,d)·q(n,r,d);
  * `leakyGt`, `leakyGe` : a if a > 0 (resp. a ≥ 0) else slope·a — one function (they differ only at a = 0,
                         where both give 0);
  * `soft1`, `soft2` : exp z / ∑ exp z along r (resp. along l);
  * `soft1s`, `soft2s`: the same with the row (resp. column) maximum subtracted first;
  * `att1`, `att2`   : the attention-weighted sums ∑_r S(n,l,r)·q(n,r,d) and ∑_l S(n,l,r)·p(n,l,d);
  * `cosv u v`       : ∑ u·v / (√∑u² · √∑v² + ε) along d;
  * `mean c`         : (∑_l c(n,l)) / 512.
-/
import Idealize.ShloMosaic.PureOps.Ideal
import Idealize.ShloMosaic.Lib.ValueIdx

open scoped BigOperators

noncomputable section

namespace Attn

open Idealize.ShloMosaic Idealize.ShloMosaic.ValueIdx

/-- The literal 1e-8 (as the float nearest to it). -/
def eps : EReal := Ideal.ofBits .f32 0x322BCC77#32
/-- The literal 0.1 (as the float nearest to it). -/
def slope : EReal := Ideal.ofBits .f32 0x3DCCCCCD#32
/-- The literal 9. -/
def lam : EReal := Ideal.ofBits .f32 0x41100000#32
/-- The literal 512. -/
def cnt : EReal := Ideal.ofBits .f32 0x44000000#32
/-- The literal -∞. -/
def ninf : EReal := Ideal.ofBits .f32 0xFF800000#32

/-- An array of rank 3 (resp. 2, 1) as a function of its coordinates. -/
def cur3 {a b c : Nat} (X : (⟨3, ![a, b, c]⟩ : Shape).Idx → EReal) : Fin a → Fin b → Fin c → EReal :=
  fun p q r => X (ix3 p q r)
def cur2 {a b : Nat} (X : (⟨2, ![a, b]⟩ : Shape).Idx → EReal) : Fin a → Fin b → EReal :=
  fun p q => X (ix2 p q)
def cur1 {a : Nat} (X : (⟨1, ![a]⟩ : Shape).Idx → EReal) : Fin a → EReal :=
  fun p => X (ix1 p)
/-- A function of one coordinate as an array of rank 1. -/
def arr1 {a : Nat} (f : Fin a → EReal) : (⟨1, ![a]⟩ : Shape).Idx → EReal := fun j => f (j 0)
def arr2 {a b : Nat} (f : Fin a → Fin b → EReal) : (⟨2, ![a, b]⟩ : Shape).Idx → EReal := fun j => f (j 0) (j 1)
def arr3 {a b c : Nat} (f : Fin a → Fin b → Fin c → EReal) : (⟨3, ![a, b, c]⟩ : Shape).Idx → EReal :=
  fun j => f (j 0) (j 1) (j 2)

/-- Reading an array built from a coordinate function gives the function back, and conversely. -/
theorem cur3_arr3 {a b c : Nat} (f : Fin a → Fin b → Fin c → EReal) : cur3 (arr3 f) = f := rfl
theorem cur2_arr2 {a b : Nat} (f : Fin a → Fin b → EReal) : cur2 (arr2 f) = f := rfl
theorem cur1_arr1 {a : Nat} (f : Fin a → EReal) : cur1 (arr1 f) = f := rfl
theorem arr3_cur3 {a b c : Nat} (X : (⟨3, ![a, b, c]⟩ : Shape).Idx → EReal) : arr3 (cur3 X) = X :=
  funext fun j => congrArg X (eq_ix3 j).symm
theorem arr2_cur2 {a b : Nat} (X : (⟨2, ![a, b]⟩ : Shape).Idx → EReal) : arr2 (cur2 X) = X :=
  funext fun j => congrArg X (eq_ix2 j).symm
theorem arr1_cur1 {a : Nat} (X : (⟨1, ![a]⟩ : Shape).Idx → EReal) : arr1 (cur1 X) = X :=
  funext fun j => congrArg X (eq_ix1 j).symm
theorem arr3_apply {a b c : Nat} (f : Fin a → Fin b → Fin c → EReal) (p : Fin a) (q : Fin b) (r : Fin c) :
    arr3 f (ix3 p q r) = f p q r := rfl
theorem arr2_apply {a b : Nat} (f : Fin a → Fin b → EReal) (p : Fin a) (q : Fin b) : arr2 f (ix2 p q) = f p q := rfl
theorem arr1_apply {a : Nat} (f : Fin a → EReal) (p : Fin a) : arr1 f (ix1 p) = f p := rfl

variable {N K : Nat}

def lin (x : Fin N → Fin 512 → Fin K → EReal) (W : Fin K → Fin 256 → EReal) (b : Fin 256 → EReal) :
    Fin N → Fin 512 → Fin 256 → EReal :=
  fun n l d => (∑ e : Fin K, x n l e * W e d) + b d

def unit (y : Fin N → Fin 512 → Fin 256 → EReal) : Fin N → Fin 512 → Fin 256 → EReal :=
  fun n l d => Ideal.div (y n l d) (Ideal.sqrt (∑ k : Fin 256, y n l k * y n l k) + eps)

def feat (x : Fin N → Fin 512 → Fin K → EReal) (W : Fin K → Fin 256 → EReal) (b : Fin 256 → EReal) :
    Fin N → Fin 512 → Fin 256 → EReal := unit (lin x W b)

def sim (p q : Fin N → Fin 512 → Fin 256 → EReal) : Fin N → Fin 512 → Fin 512 → EReal :=
  fun n l r => ∑ d : Fin 256, p n l d * q n r d

def leakyGt (a : EReal) : EReal := Scalar.select (Ideal.cmp .ogt a 0) a (slope * a)
def leakyGe (a : EReal) : EReal := Scalar.select (Ideal.cmp .oge a 0) a (slope * a)

/-- The scores the two softmaxes are taken of, with the kernel's and with the reference's leaky-relu. -/
def scoreGt (p q : Fin N → Fin 512 → Fin 256 → EReal) : Fin N → Fin 512 → Fin 512 → EReal :=
  fun n l r => lam * leakyGt (sim p q n l r)
def scoreGe (p q : Fin N → Fin 512 → Fin 256 → EReal) : Fin N → Fin 512 → Fin 512 → EReal :=
  fun n l r => lam * leakyGe (sim p q n l r)

def soft1 (z : Fin N → Fin 512 → Fin 512 → EReal) : Fin N → Fin 512 → Fin 512 → EReal :=
  fun n l r => Ideal.div (Ideal.exp (z n l r)) (∑ k : Fin 512, Ideal.exp (z n l k))
def soft2 (z : Fin N → Fin 512 → Fin 512 → EReal) : Fin N → Fin 512 → Fin 512 → EReal :=
  fun n l r => Ideal.div (Ideal.exp (z n l r)) (∑ k : Fin 512, Ideal.exp (z n k r))

/-- The maximum along r, and along l, folded from -∞ and then once more compared with -∞. -/
def max1 (z : Fin N → Fin 512 → Fin 512 → EReal) (n : Fin N) (l : Fin 512) : EReal :=
  max ninf ((Finset.univ : Finset (Fin 512)).fold max ninf (fun k => z n l k))
def max2 (z : Fin N → Fin 512 → Fin 512 → EReal) (n : Fin N) (r : Fin 512) : EReal :=
  max ninf ((Finset.univ : Finset (Fin 512)).fold max ninf (fun k => z n k r))

def soft1s (z : Fin N → Fin 512 → Fin 512 → EReal) : Fin N → Fin 512 → Fin 512 → EReal :=
  fun n l r => Ideal.div (Ideal.exp (z n l r - max1 z n l)) (∑ k : Fin 512, Ideal.exp (z n l k - max1 z n l))
def soft2s (z : Fin N → Fin 512 → Fin 512 → EReal) : Fin N → Fin 512 → Fin 512 → EReal :=
  fun n l r => Ideal.div (Ideal.exp (z n l r - max2 z n r)) (∑ k : Fin 512, Ideal.exp (z n k r - max2 z n r))

def att1 (S : Fin N → Fin 512 → Fin 512 → EReal) (q : Fin N → Fin 512 → Fin 256 → EReal) :
    Fin N → Fin 512 → Fin 256 → EReal := fun n l d => ∑ r : Fin 512, S n l r * q n r d
def att2 (S : Fin N → Fin 512 → Fin 512 → EReal) (p : Fin N → Fin 512 → Fin 256 → EReal) :
    Fin N → Fin 512 → Fin 256 → EReal := fun n r d => ∑ l : Fin 512, S n l r * p n l d

def cosv (u v : Fin N → Fin 512 → Fin 256 → EReal) : Fin N → Fin 512 → EReal :=
  fun n l => Ideal.div (∑ d : Fin 256, u n l d * v n l d)
    (Ideal.sqrt (∑ d : Fin 256, u n l d * u n l d) * Ideal.sqrt (∑ d : Fin 256, v n l d * v n l d) + eps)

def mean (c : Fin N → Fin 512 → EReal) : Fin N → EReal := fun n => Ideal.div (∑ l : Fin 512, c n l) cnt

/-- The two relevance arrays [N,512] the attention kernel writes, from the two feature arrays. -/
def relK1 (p q : Fin N → Fin 512 → Fin 256 → EReal) : Fin N → Fin 512 → EReal :=
  cosv p (att1 (soft1 (scoreGt p q)) q)
def relK2 (p q : Fin N → Fin 512 → Fin 256 → EReal) : Fin N → Fin 512 → EReal :=
  cosv (att2 (soft2 (scoreGt p q)) p) q
/-- The same two arrays as the reference computes them. -/
def relR1 (p q : Fin N → Fin 512 → Fin 256 → EReal) : Fin N → Fin 512 → EReal :=
  cosv p (att1 (soft1s (scoreGe p q)) q)
def relR2 (p q : Fin N → Fin 512 → Fin 256 → EReal) : Fin N → Fin 512 → EReal :=
  cosv (att2 (soft2s (scoreGe p q)) p) q

/-- The result from the two relevance arrays. -/
def fin (c1 c2 : Fin N → Fin 512 → EReal) : Fin N → EReal := fun n => mean c1 n + mean c2 n

abbrev T300 : Shape := ⟨3, ![128, 512, 300]⟩
abbrev T1024 : Shape := ⟨3, ![128, 512, 1024]⟩
abbrev W300 : Shape := ⟨2, ![300, 256]⟩
abbrev W1024 : Shape := ⟨2, ![1024, 256]⟩
abbrev B256 : Shape := ⟨1, ![256]⟩
abbrev R128 : Shape := ⟨1, ![128]⟩

/-- The kernel's result as one function of the six argument arrays. -/
def GK (text : T300.Idx → EReal) (image : T1024.Idx → EReal) (Wt : W300.Idx → EReal) (bt : B256.Idx → EReal)
    (Wi : W1024.Idx → EReal) (bi : B256.Idx → EReal) : R128.Idx → EReal :=
  arr1 (fin (relK1 (feat (cur3 text) (cur2 Wt) (cur1 bt)) (feat (cur3 image) (cur2 Wi) (cur1 bi)))
            (relK2 (feat (cur3 text) (cur2 Wt) (cur1 bt)) (feat (cur3 image) (cur2 Wi) (cur1 bi))))

/-- The reference's result as one function of the six argument arrays. -/
def GR (text : T300.Idx → EReal) (image : T1024.Idx → EReal) (Wt : W300.Idx → EReal) (bt : B256.Idx → EReal)
    (Wi : W1024.Idx → EReal) (bi : B256.Idx → EReal) : R128.Idx → EReal :=
  arr1 (fin (relR1 (feat (cur3 text) (cur2 Wt) (cur1 bt)) (feat (cur3 image) (cur2 Wi) (cur1 bi)))
            (relR2 (feat (cur3 text) (cur2 Wt) (cur1 bt)) (feat (cur3 image) (cur2 Wi) (cur1 bi))))

end Attn

end
-- ==== Proof.SpecLocal.lean ====
/-
  Batch rows are independent.

  Every array of the specification at batch row `n` depends on its inputs only through their batch row `n`.  So the
  specification evaluated on a block of batch rows agrees, row by row, with the specification evaluated on the whole
  arrays: if the block's row `n` is the array's row `n'`, the results at `n` and `n'` are equal.
-/
import proofs.«150999_j3109556323149_2_alg».proof.Proof.Spec

open scoped BigOperators

noncomputable section

namespace Attn

variable {N N' K : Nat}

theorem feat_local (x : Fin N → Fin 512 → Fin K → EReal) (x' : Fin N' → Fin 512 → Fin K → EReal)
    (W : Fin K → Fin 256 → EReal) (b b' : Fin 256 → EReal) (n : Fin N) (n' : Fin N')
    (hx : ∀ l e, x n l e = x' n' l e) (hb : ∀ d, b d = b' d) (l : Fin 512) (d : Fin 256) :
    feat x W b n l d = feat x' W b' n' l d := by
  simp only [feat, unit, lin, hx, hb]

theorem relK1_local (p q : Fin N → Fin 512 → Fin 256 → EReal) (p' q' : Fin N' → Fin 512 → Fin 256 → EReal)
    (n : Fin N) (n' : Fin N') (hp : ∀ l d, p n l d = p' n' l d) (hq : ∀ l d, q n l d = q' n' l d) (l : Fin 512) :
    relK1 p q n l = relK1 p' q' n' l := by
  simp only [relK1, cosv, att1, soft1, scoreGt, sim, hp, hq]

theorem relK2_local (p q : Fin N → Fin 512 → Fin 256 → EReal) (p' q' : Fin N' → Fin 512 → Fin 256 → EReal)
    (n : Fin N) (n' : Fin N') (hp : ∀ l d, p n l d = p' n' l d) (hq : ∀ l d, q n l d = q' n' l d) (r : Fin 512) :
    relK2 p q n r = relK2 p' q' n' r := by
  simp only [relK2, cosv, att2, soft2, scoreGt, sim, hp, hq]

end Attn

end
-- ==== Proof.K0Value.lean ====
/-
  What the first feature kernel leaves in its output array.

  The grid has 16 points; point `t` stages batch rows 8t … 8t+7 of the input, the whole weight matrix and the whole
  bias row, and writes back batch rows 8t … 8t+7 of the output.  The body computes the specification's `feat` of its
  blocks; since `feat` treats batch rows independently, what point `t` writes is block `t` of `feat` of the whole
  arrays, and the sixteen blocks tile the output array.
-/
import proofs.«150999_j3109556323149_2_alg».proof.Proof.Gen.KernelIdeal.Frame
import proofs.«150999_j3109556323149_2_alg».proof.Proof.SpecLocal
import Idealize.ShloMosaic.Lib.Pipeline.Value

noncomputable section

namespace Cert.KernelIdeal.Val0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The projected and normalised features of the whole arrays the region finds. -/
def G0 (c : Dev nD) : S128x512x256.Idx → EReal :=
  Attn.arr3 (Attn.feat (Attn.cur3 (V c main_arg0 : S128x512x300.Idx → EReal)) (Attn.cur2 (V c main_arg2 : S300x256.Idx → EReal))
    (fun d => (V c main_v0 : S1x256.Idx → EReal) (ix2 (0 : Fin 1) d)))

/-- The printed index maps over the grid: the input and the output move together along the batch axis, one block
    per point; the matrix and the bias row stay. -/
theorem idx_facts : ∀ t : Fin cfg0.N, win0_3.index t (0 : Fin 3) = t.val ∧ win0_3.index t (1 : Fin 3) = 0 ∧ win0_3.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

variable (hpay : ∀ (v0 : Vec Ideal S8x512x300 .f32) (v2 : Vec Ideal S300x256 .f32) (v3 : Vec Ideal S1x256 .f32),
      k0_pay1 (F := Ideal) v0 v2 v3 = Attn.arr3 (Attn.feat (Attn.cur3 v0) (Attn.cur2 v2) (fun d => v3 (ix2 (0 : Fin 1) d))))

include hpay in
/-- What point `t` writes back is block `t` of `G0`. -/
theorem flushed_eq (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  unfold out0_3
  rw [View.canon_unit_zero hz3]
  simp only [View.ld_unit_zero (S := S8x512x300) hz3, View.ld_unit_zero (S := S300x256) hz2, View.ld_unit_zero (S := S1x256) hz2]
  rw [hpay]
  obtain ⟨e0, e1, e2, e3, e4, e5, e6, e7, e8, e9⟩ := idx_facts t
  have hN : cfg0.N = 16 := N_0
  have ht : t.val < 16 := hN ▸ t.isLt
  funext j
  have hj0 : (j 0).val < 8 := (j 0).isLt
  -- the block's batch row, as a row of the whole array
  have he : ((cfg0.win 3).blk t).view.emb j = ix3 (⟨t.val * 8 + (j 0).val, by omega⟩ : Fin 128) (j 1) (j 2) := by
    funext a; apply Fin.ext
    match a with
    | ⟨0, _⟩ => show win0_3.index t (0 : Fin 3) * 8 + 1 * (j 0).val = t.val * 8 + (j 0).val; omega
    | ⟨1, _⟩ => show win0_3.index t (1 : Fin 3) * 512 + 1 * (j 1).val = (j 1).val; omega
    | ⟨2, _⟩ => show win0_3.index t (2 : Fin 3) * 256 + 1 * (j 2).val = (j 2).val; omega
  show Attn.feat (Attn.cur3 (iblk0 V c 0 t)) (Attn.cur2 (iblk0 V c 1 t)) (fun d => iblk0 V c 2 t (ix2 (0 : Fin 1) d)) (j 0) (j 1) (j 2)
    = G0 V c (((cfg0.win 3).blk t).view.emb j)
  rw [he]
  have hW : (iblk0 V c 1 t : S300x256.Idx → EReal) = V c main_arg2 := by
    funext y
    show (V c main_arg2 : S300x256.Idx → EReal) (((cfg0.win 1).blk t).view.emb y) = V c main_arg2 y
    refine congrArg _ (funext fun a => Fin.ext ?_)
    match a with
    | ⟨0, _⟩ => show win0_1.index t (0 : Fin 2) * 300 + 1 * (y 0).val = (y 0).val; omega
    | ⟨1, _⟩ => show win0_1.index t (1 : Fin 2) * 256 + 1 * (y 1).val = (y 1).val; omega
  have hb : ∀ d : Fin 256, iblk0 V c 2 t (ix2 (0 : Fin 1) d) = (V c main_v0 : S1x256.Idx → EReal) (ix2 (0 : Fin 1) d) := by
    intro d
    show (V c main_v0 : S1x256.Idx → EReal) (((cfg0.win 2).blk t).view.emb (ix2 (0 : Fin 1) d)) = _
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * d.val = d.val; omega
  have hx : ∀ (l : Fin 512) (e : Fin 300), Attn.cur3 (iblk0 V c 0 t) (j 0) l e
      = Attn.cur3 (V c main_arg0 : S128x512x300.Idx → EReal) (⟨t.val * 8 + (j 0).val, by omega⟩ : Fin 128) l e := by
    intro l e
    show (V c main_arg0 : S128x512x300.Idx → EReal) (((cfg0.win 0).blk t).view.emb (ix3 (j 0) l e)) = V c main_arg0 (ix3 _ l e)
    refine congrArg _ (funext fun a => Fin.ext ?_)
    match a with
    | ⟨0, _⟩ => show win0_0.index t (0 : Fin 3) * 8 + 1 * (j 0).val = t.val * 8 + (j 0).val; omega
    | ⟨1, _⟩ => show win0_0.index t (1 : Fin 3) * 512 + 1 * l.val = l.val; omega
    | ⟨2, _⟩ => show win0_0.index t (2 : Fin 3) * 300 + 1 * e.val = e.val; omega
  rw [hW]
  exact Attn.feat_local _ _ _ _ _ (j 0) _ hx hb (j 1) (j 2)

/-- An index of the array is in point `t`'s block iff each coordinate is in the block's range on its axis. -/
theorem mem_blk (t : Fin cfg0.N) (i : S128x512x256.Idx) :
    i ∈ ((cfg0.win 3).blk t).view.set ↔ ∀ a : Fin 3, win0_3.index t a * S8x512x256.size a ≤ (i a).val ∧ (i a).val < win0_3.index t a * S8x512x256.size a + S8x512x256.size a := by
  show i ∈ ((View.whole main_v2).slice (win0_3.rect t)).set ↔ _
  rw [View.set_slice_whole, Rect.mem_set_unit]
  exact Iff.rfl

/-- Every index of the output array lies in the block of the point that owns its batch row. -/
theorem cover (i : S128x512x256.Idx) : ∃ t : Fin cfg0.N, (cfg0.win 3).flush t = true ∧ i ∈ ((cfg0.win 3).blk t).view.set := by
  have hi0 : (i 0).val < 128 := (i 0).isLt
  have hi1 : (i 1).val < 512 := (i 1).isLt
  have hi2 : (i 2).val < 256 := (i 2).isLt
  have hN : cfg0.N = 16 := N_0
  refine ⟨⟨(i 0).val / 8, by omega⟩, flush0_3 _, ?_⟩
  obtain ⟨e0, e1, e2, -⟩ := idx_facts ⟨(i 0).val / 8, by omega⟩
  rw [mem_blk]
  intro a
  match a with
  | ⟨0, _⟩ => show win0_3.index _ (0 : Fin 3) * 8 ≤ (i 0).val ∧ (i 0).val < win0_3.index _ (0 : Fin 3) * 8 + 8; rw [e0]; show (i 0).val / 8 * 8 ≤ _ ∧ _ < (i 0).val / 8 * 8 + 8; omega
  | ⟨1, _⟩ => show win0_3.index _ (1 : Fin 3) * 512 ≤ (i 1).val ∧ (i 1).val < win0_3.index _ (1 : Fin 3) * 512 + 512; rw [e1]; omega
  | ⟨2, _⟩ => show win0_3.index _ (2 : Fin 3) * 256 ≤ (i 2).val ∧ (i 2).val < win0_3.index _ (2 : Fin 3) * 256 + 256; rw [e2]; omega

include hpay in
/-- The output array after the region is `G0`: the sixteen blocks tile it. -/
theorem final (c : Dev nD) : (dat0 (F := Ideal) V c).arrAt 3 cfg0.N = G0 V c :=
  (dat0 (F := Ideal) V c).arrAt_eq_of_cover 3 (G0 V c) (fun t _ => flushed_eq V hpay c t) cover

end Cert.KernelIdeal.Val0

end
-- ==== Proof.K1Value.lean ====
/-
  What the second feature kernel leaves in its output array.

  The grid has 32 points; point `t` stages batch rows 4t … 4t+3 of the input, the whole weight matrix and the whole
  bias row, and writes back batch rows 4t … 4t+3 of the output.  The body computes the specification's `feat` of its
  blocks; since `feat` treats batch rows independently, what point `t` writes is block `t` of `feat` of the whole
  arrays, and the thirty-two blocks tile the output array.
-/
import proofs.«150999_j3109556323149_2_alg».proof.Proof.Gen.KernelIdeal.Frame
import proofs.«150999_j3109556323149_2_alg».proof.Proof.SpecLocal
import Idealize.ShloMosaic.Lib.Pipeline.Value

noncomputable section

namespace Cert.KernelIdeal.Val1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The projected and normalised features of the whole arrays the region finds. -/
def G1 (c : Dev nD) : S128x512x256.Idx → EReal :=
  Attn.arr3 (Attn.feat (Attn.cur3 (V c main_arg1 : S128x512x1024.Idx → EReal)) (Attn.cur2 (V c main_arg4 : S1024x256.Idx → EReal))
    (fun d => (V c main_v1 : S1x256.Idx → EReal) (ix2 (0 : Fin 1) d)))

/-- The printed index maps over the grid: the input and the output move together along the batch axis, one block
    per point; the matrix and the bias row stay. -/
theorem idx_facts : ∀ t : Fin cfg1.N, win1_3.index t (0 : Fin 3) = t.val ∧ win1_3.index t (1 : Fin 3) = 0 ∧ win1_3.index t (2 : Fin 3) = 0
    ∧ win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

variable (hpay : ∀ (v0 : Vec Ideal S4x512x1024 .f32) (v2 : Vec Ideal S1024x256 .f32) (v3 : Vec Ideal S1x256 .f32),
      k1_pay1 (F := Ideal) v0 v2 v3 = Attn.arr3 (Attn.feat (Attn.cur3 v0) (Attn.cur2 v2) (fun d => v3 (ix2 (0 : Fin 1) d))))

include hpay in
/-- What point `t` writes back is block `t` of `G1`. -/
theorem flushed_eq (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  unfold out1_3
  rw [View.canon_unit_zero hz3]
  simp only [View.ld_unit_zero (S := S4x512x1024) hz3, View.ld_unit_zero (S := S1024x256) hz2, View.ld_unit_zero (S := S1x256) hz2]
  rw [hpay]
  obtain ⟨e0, e1, e2, e3, e4, e5, e6, e7, e8, e9⟩ := idx_facts t
  have hN : cfg1.N = 32 := N_1
  have ht : t.val < 32 := hN ▸ t.isLt
  funext j
  have hj0 : (j 0).val < 4 := (j 0).isLt
  -- the block's batch row, as a row of the whole array
  have he : ((cfg1.win 3).blk t).view.emb j = ix3 (⟨t.val * 4 + (j 0).val, by omega⟩ : Fin 128) (j 1) (j 2) := by
    funext a; apply Fin.ext
    match a with
    | ⟨0, _⟩ => show win1_3.index t (0 : Fin 3) * 4 + 1 * (j 0).val = t.val * 4 + (j 0).val; omega
    | ⟨1, _⟩ => show win1_3.index t (1 : Fin 3) * 512 + 1 * (j 1).val = (j 1).val; omega
    | ⟨2, _⟩ => show win1_3.index t (2 : Fin 3) * 256 + 1 * (j 2).val = (j 2).val; omega
  show Attn.feat (Attn.cur3 (iblk1 V c 0 t)) (Attn.cur2 (iblk1 V c 1 t)) (fun d => iblk1 V c 2 t (ix2 (0 : Fin 1) d)) (j 0) (j 1) (j 2)
    = G1 V c (((cfg1.win 3).blk t).view.emb j)
  rw [he]
  have hW : (iblk1 V c 1 t : S1024x256.Idx → EReal) = V c main_arg4 := by
    funext y
    show (V c main_arg4 : S1024x256.Idx → EReal) (((cfg1.win 1).blk t).view.emb y) = V c main_arg4 y
    refine congrArg _ (funext fun a => Fin.ext ?_)
    match a with
    | ⟨0, _⟩ => show win1_1.index t (0 : Fin 2) * 1024 + 1 * (y 0).val = (y 0).val; omega
    | ⟨1, _⟩ => show win1_1.index t (1 : Fin 2) * 256 + 1 * (y 1).val = (y 1).val; omega
  have hb : ∀ d : Fin 256, iblk1 V c 2 t (ix2 (0 : Fin 1) d) = (V c main_v1 : S1x256.Idx → EReal) (ix2 (0 : Fin 1) d) := by
    intro d
    show (V c main_v1 : S1x256.Idx → EReal) (((cfg1.win 2).blk t).view.emb (ix2 (0 : Fin 1) d)) = _
    refine congrArg _ (funext fun a => Fin.ext ?_)
    match a with
    | ⟨0, _⟩ => show win1_2.index t (0 : Fin 2) * 1 + 1 * 0 = 0; omega
    | ⟨1, _⟩ => show win1_2.index t (1 : Fin 2) * 256 + 1 * d.val = d.val; omega
  have hx : ∀ (l : Fin 512) (e : Fin 1024), Attn.cur3 (iblk1 V c 0 t) (j 0) l e
      = Attn.cur3 (V c main_arg1 : S128x512x1024.Idx → EReal) (⟨t.val * 4 + (j 0).val, by omega⟩ : Fin 128) l e := by
    intro l e
    show (V c main_arg1 : S128x512x1024.Idx → EReal) (((cfg1.win 0).blk t).view.emb (ix3 (j 0) l e)) = V c main_arg1 (ix3 _ l e)
    refine congrArg _ (funext fun a => Fin.ext ?_)
    match a with
    | ⟨0, _⟩ => show win1_0.index t (0 : Fin 3) * 4 + 1 * (j 0).val = t.val * 4 + (j 0).val; omega
    | ⟨1, _⟩ => show win1_0.index t (1 : Fin 3) * 512 + 1 * l.val = l.val; omega
    | ⟨2, _⟩ => show win1_0.index t (2 : Fin 3) * 1024 + 1 * e.val = e.val; omega
  rw [hW]
  exact Attn.feat_local _ _ _ _ _ (j 0) _ hx hb (j 1) (j 2)

/-- An index of the array is in point `t`'s block iff each coordinate is in the block's range on its axis. -/
theorem mem_blk (t : Fin cfg1.N) (i : S128x512x256.Idx) :
    i ∈ ((cfg1.win 3).blk t).view.set ↔ ∀ a : Fin 3, win1_3.index t a * S4x512x256.size a ≤ (i a).val ∧ (i a).val < win1_3.index t a * S4x512x256.size a + S4x512x256.size a := by
  show i ∈ ((View.whole main_v3).slice (win1_3.rect t)).set ↔ _
  rw [View.set_slice_whole, Rect.mem_set_unit]
  exact Iff.rfl

/-- Every index of the output array lies in the block of the point that owns its batch row. -/
theorem cover (i : S128x512x256.Idx) : ∃ t : Fin cfg1.N, (cfg1.win 3).flush t = true ∧ i ∈ ((cfg1.win 3).blk t).view.set := by
  have hi0 : (i 0).val < 128 := (i 0).isLt
  have hi1 : (i 1).val < 512 := (i 1).isLt
  have hi2 : (i 2).val < 256 := (i 2).isLt
  have hN : cfg1.N = 32 := N_1
  refine ⟨⟨(i 0).val / 4, by omega⟩, flush1_3 _, ?_⟩
  obtain ⟨e0, e1, e2, -⟩ := idx_facts ⟨(i 0).val / 4, by omega⟩
  rw [mem_blk]
  intro a
  match a with
  | ⟨0, _⟩ => show win1_3.index _ (0 : Fin 3) * 4 ≤ (i 0).val ∧ (i 0).val < win1_3.index _ (0 : Fin 3) * 4 + 4; rw [e0]; show (i 0).val / 4 * 4 ≤ _ ∧ _ < (i 0).val / 4 * 4 + 4; omega
  | ⟨1, _⟩ => show win1_3.index _ (1 : Fin 3) * 512 ≤ (i 1).val ∧ (i 1).val < win1_3.index _ (1 : Fin 3) * 512 + 512; rw [e1]; omega
  | ⟨2, _⟩ => show win1_3.index _ (2 : Fin 3) * 256 ≤ (i 2).val ∧ (i 2).val < win1_3.index _ (2 : Fin 3) * 256 + 256; rw [e2]; omega

include hpay in
/-- The output array after the region is `G1`: the thirty-two blocks tile it. -/
theorem final (c : Dev nD) : (dat1 (F := Ideal) V c).arrAt 3 cfg1.N = G1 V c :=
  (dat1 (F := Ideal) V c).arrAt_eq_of_cover 3 (G1 V c) (fun t _ => flushed_eq V hpay c t) cover

end Cert.KernelIdeal.Val1

end
-- ==== Proof.K2Value.lean ====
/-
  What the attention kernel leaves in its two output arrays.

  The grid has 16 points; point `t` stages batch rows 8t … 8t+7 of the two feature arrays and writes back batch rows
  8t … 8t+7 of the two relevance arrays.  The body computes the specification's `relK1` and `relK2` of its blocks;
  both treat batch rows independently, so what point `t` writes is block `t` of `relK1` / `relK2` of the whole feature
  arrays, and the sixteen blocks tile each output array.
-/
import proofs.«150999_j3109556323149_2_alg».proof.Proof.Gen.KernelIdeal.Frame
import proofs.«150999_j3109556323149_2_alg».proof.Proof.SpecLocal
import Idealize.ShloMosaic.Lib.Pipeline.Value

noncomputable section

namespace Cert.KernelIdeal.Val2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The two relevance arrays of the whole feature arrays the region finds. -/
def Ga (c : Dev nD) : S128x512.Idx → EReal :=
  Attn.arr2 (Attn.relK1 (Attn.cur3 (V c main_v2 : S128x512x256.Idx → EReal)) (Attn.cur3 (V c main_v3 : S128x512x256.Idx → EReal)))
def Gb (c : Dev nD) : S128x512.Idx → EReal :=
  Attn.arr2 (Attn.relK2 (Attn.cur3 (V c main_v2 : S128x512x256.Idx → EReal)) (Attn.cur3 (V c main_v3 : S128x512x256.Idx → EReal)))

/-- The printed index maps over the grid: all four windows move together along the batch axis, one block per point. -/
theorem idx_facts : ∀ t : Fin cfg2.N, win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Batch row `n` of point `t`'s block of a feature array is batch row `8t + n` of the array. -/
theorem blk0_row (c : Dev nD) (t : Fin cfg2.N) (n : Fin 8) (hn : t.val * 8 + n.val < 128) (l : Fin 512) (d : Fin 256) :
    Attn.cur3 (iblk2 V c 0 t) n l d = Attn.cur3 (V c main_v2 : S128x512x256.Idx → EReal) (⟨t.val * 8 + n.val, hn⟩ : Fin 128) l d := by
  obtain ⟨e0, e1, e2, -⟩ := idx_facts t
  show (V c main_v2 : S128x512x256.Idx → EReal) (((cfg2.win 0).blk t).view.emb (ix3 n l d)) = V c main_v2 (ix3 _ l d)
  refine congrArg _ (funext fun a => Fin.ext ?_)
  match a with
  | ⟨0, _⟩ => show win2_0.index t (0 : Fin 3) * 8 + 1 * n.val = t.val * 8 + n.val; omega
  | ⟨1, _⟩ => show win2_0.index t (1 : Fin 3) * 512 + 1 * l.val = l.val; omega
  | ⟨2, _⟩ => show win2_0.index t (2 : Fin 3) * 256 + 1 * d.val = d.val; omega

theorem blk1_row (c : Dev nD) (t : Fin cfg2.N) (n : Fin 8) (hn : t.val * 8 + n.val < 128) (l : Fin 512) (d : Fin 256) :
    Attn.cur3 (iblk2 V c 1 t) n l d = Attn.cur3 (V c main_v3 : S128x512x256.Idx → EReal) (⟨t.val * 8 + n.val, hn⟩ : Fin 128) l d := by
  obtain ⟨-, -, -, e0, e1, e2, -⟩ := idx_facts t
  show (V c main_v3 : S128x512x256.Idx → EReal) (((cfg2.win 1).blk t).view.emb (ix3 n l d)) = V c main_v3 (ix3 _ l d)
  refine congrArg _ (funext fun a => Fin.ext ?_)
  match a with
  | ⟨0, _⟩ => show win2_1.index t (0 : Fin 3) * 8 + 1 * n.val = t.val * 8 + n.val; omega
  | ⟨1, _⟩ => show win2_1.index t (1 : Fin 3) * 512 + 1 * l.val = l.val; omega
  | ⟨2, _⟩ => show win2_1.index t (2 : Fin 3) * 256 + 1 * d.val = d.val; omega

variable (hpay5 : ∀ (v0 v2 : Vec Ideal S8x512x256 .bf16),
      k2_pay5 (F := Ideal) v0 v2 = Attn.arr2 (Attn.relK1 (Attn.cur3 v0) (Attn.cur3 v2)))
variable (hpay1 : ∀ (v0 v2 : Vec Ideal S8x512x256 .bf16),
      k2_pay1 (F := Ideal) (k2_pay2 v0) (k2_pay3 v2) (k2_pay6 v0 v2) (constant S8x512x256 .f32 0x00000000#32)
        = Attn.arr2 (Attn.relK2 (Attn.cur3 v0) (Attn.cur3 v2)))

include hpay5 in
/-- What point `t` writes back to the first output is block `t` of `Ga`. -/
theorem flushed_a (c : Dev nD) (t : Fin cfg2.N) :
    (dat2 (F := Ideal) V c).flushed 2 t = ((cfg2.win 2).blk t).view.read (Elt Ideal) (Ga V c) := by
  show (cfg2.win 2).cut (grid2.coords t) ((dat2 (F := Ideal) V c).after 2 t) = _
  rw [after2_2]
  unfold out2_2
  rw [View.canon_unit_zero hz2]
  simp only [View.ld_unit_zero (S := S8x512x256) hz3]
  rw [hpay5]
  obtain ⟨-, -, -, -, -, -, e6, e7, -⟩ := idx_facts t
  have hN : cfg2.N = 16 := N_2
  have ht : t.val < 16 := hN ▸ t.isLt
  funext j
  have hj0 : (j 0).val < 8 := (j 0).isLt
  have he : ((cfg2.win 2).blk t).view.emb j = ix2 (⟨t.val * 8 + (j 0).val, by omega⟩ : Fin 128) (j 1) := by
    funext a; apply Fin.ext
    match a with
    | ⟨0, _⟩ => show win2_2.index t (0 : Fin 2) * 8 + 1 * (j 0).val = t.val * 8 + (j 0).val; omega
    | ⟨1, _⟩ => show win2_2.index t (1 : Fin 2) * 512 + 1 * (j 1).val = (j 1).val; omega
  show Attn.relK1 (Attn.cur3 (iblk2 V c 0 t)) (Attn.cur3 (iblk2 V c 1 t)) (j 0) (j 1) = Ga V c (((cfg2.win 2).blk t).view.emb j)
  rw [he]
  exact Attn.relK1_local _ _ _ _ (j 0) _ (fun l d => blk0_row V c t (j 0) (by omega) l d) (fun l d => blk1_row V c t (j 0) (by omega) l d) (j 1)

include hpay1 in
/-- What point `t` writes back to the second output is block `t` of `Gb`. -/
theorem flushed_b (c : Dev nD) (t : Fin cfg2.N) :
    (dat2 (F := Ideal) V c).flushed 3 t = ((cfg2.win 3).blk t).view.read (Elt Ideal) (Gb V c) := by
  show (cfg2.win 3).cut (grid2.coords t) ((dat2 (F := Ideal) V c).after 3 t) = _
  rw [after2_3]
  unfold out2_3
  rw [View.canon_unit_zero hz2]
  simp only [View.ld_unit_zero (S := S8x512x256) hz3]
  rw [hpay1]
  obtain ⟨-, -, -, -, -, -, -, -, e8, e9⟩ := idx_facts t
  have hN : cfg2.N = 16 := N_2
  have ht : t.val < 16 := hN ▸ t.isLt
  funext j
  have hj0 : (j 0).val < 8 := (j 0).isLt
  have he : ((cfg2.win 3).blk t).view.emb j = ix2 (⟨t.val * 8 + (j 0).val, by omega⟩ : Fin 128) (j 1) := by
    funext a; apply Fin.ext
    match a with
    | ⟨0, _⟩ => show win2_3.index t (0 : Fin 2) * 8 + 1 * (j 0).val = t.val * 8 + (j 0).val; omega
    | ⟨1, _⟩ => show win2_3.index t (1 : Fin 2) * 512 + 1 * (j 1).val = (j 1).val; omega
  show Attn.relK2 (Attn.cur3 (iblk2 V c 0 t)) (Attn.cur3 (iblk2 V c 1 t)) (j 0) (j 1) = Gb V c (((cfg2.win 3).blk t).view.emb j)
  rw [he]
  exact Attn.relK2_local _ _ _ _ (j 0) _ (fun l d => blk0_row V c t (j 0) (by omega) l d) (fun l d => blk1_row V c t (j 0) (by omega) l d) (j 1)

/-- An index of an output array is in point `t`'s block iff each coordinate is in the block's range on its axis. -/
theorem mem_blk_a (t : Fin cfg2.N) (i : S128x512.Idx) :
    i ∈ ((cfg2.win 2).blk t).view.set ↔ ∀ a : Fin 2, win2_2.index t a * S8x512.size a ≤ (i a).val ∧ (i a).val < win2_2.index t a * S8x512.size a + S8x512.size a := by
  show i ∈ ((View.whole main_v4_0).slice (win2_2.rect t)).set ↔ _
  rw [View.set_slice_whole, Rect.mem_set_unit]
  exact Iff.rfl

theorem mem_blk_b (t : Fin cfg2.N) (i : S128x512.Idx) :
    i ∈ ((cfg2.win 3).blk t).view.set ↔ ∀ a : Fin 2, win2_3.index t a * S8x512.size a ≤ (i a).val ∧ (i a).val < win2_3.index t a * S8x512.size a + S8x512.size a := by
  show i ∈ ((View.whole main_v4_1).slice (win2_3.rect t)).set ↔ _
  rw [View.set_slice_whole, Rect.mem_set_unit]
  exact Iff.rfl

/-- Every index of an output array lies in the block of the point that owns its batch row. -/
theorem cover_a (i : S128x512.Idx) : ∃ t : Fin cfg2.N, (cfg2.win 2).flush t = true ∧ i ∈ ((cfg2.win 2).blk t).view.set := by
  have hi0 : (i 0).val < 128 := (i 0).isLt
  have hi1 : (i 1).val < 512 := (i 1).isLt
  have hN : cfg2.N = 16 := N_2
  refine ⟨⟨(i 0).val / 8, by omega⟩, flush2_2 _, ?_⟩
  obtain ⟨-, -, -, -, -, -, e6, e7, -⟩ := idx_facts ⟨(i 0).val / 8, by omega⟩
  rw [mem_blk_a]
  intro a
  match a with
  | ⟨0, _⟩ => show win2_2.index _ (0 : Fin 2) * 8 ≤ (i 0).val ∧ (i 0).val < win2_2.index _ (0 : Fin 2) * 8 + 8; rw [e6]; show (i 0).val / 8 * 8 ≤ _ ∧ _ < (i 0).val / 8 * 8 + 8; omega
  | ⟨1, _⟩ => show win2_2.index _ (1 : Fin 2) * 512 ≤ (i 1).val ∧ (i 1).val < win2_2.index _ (1 : Fin 2) * 512 + 512; rw [e7]; omega

theorem cover_b (i : S128x512.Idx) : ∃ t : Fin cfg2.N, (cfg2.win 3).flush t = true ∧ i ∈ ((cfg2.win 3).blk t).view.set := by
  have hi0 : (i 0).val < 128 := (i 0).isLt
  have hi1 : (i 1).val < 512 := (i 1).isLt
  have hN : cfg2.N = 16 := N_2
  refine ⟨⟨(i 0).val / 8, by omega⟩, flush2_3 _, ?_⟩
  obtain ⟨-, -, -, -, -, -, -, -, e8, e9⟩ := idx_facts ⟨(i 0).val / 8, by omega⟩
  rw [mem_blk_b]
  intro a
  match a with
  | ⟨0, _⟩ => show win2_3.index _ (0 : Fin 2) * 8 ≤ (i 0).val ∧ (i 0).val < win2_3.index _ (0 : Fin 2) * 8 + 8; rw [e8]; show (i 0).val / 8 * 8 ≤ _ ∧ _ < (i 0).val / 8 * 8 + 8; omega
  | ⟨1, _⟩ => show win2_3.index _ (1 : Fin 2) * 512 ≤ (i 1).val ∧ (i 1).val < win2_3.index _ (1 : Fin 2) * 512 + 512; rw [e9]; omega

include hpay5 in
/-- The first output array after the region is `Ga`. -/
theorem final_a (c : Dev nD) : (dat2 (F := Ideal) V c).arrAt 2 cfg2.N = Ga V c :=
  (dat2 (F := Ideal) V c).arrAt_eq_of_cover 2 (Ga V c) (fun t _ => flushed_a V hpay5 c t) cover_a

include hpay1 in
/-- The second output array after the region is `Gb`. -/
theorem final_b (c : Dev nD) : (dat2 (F := Ideal) V c).arrAt 3 cfg2.N = Gb V c :=
  (dat2 (F := Ideal) V c).arrAt_eq_of_cover 3 (Gb V c) (fun t _ => flushed_b V hpay1 c t) cover_b

end Cert.KernelIdeal.Val2

end
-- ==== Proof.LibMat.lean ====
/-
  A matrix product read at an index. For the plain dimension numbers (rows × contraction times contraction × columns)
  a `tpu.matmul` into the zero accumulator, at the ideal values, is at (a, b) the sum over the contracted coordinate `c`
  of the left operand at (a, c) times the right operand at (c, b): the contraction's index set has one axis, and the sum
  over it is re-indexed by that axis's coordinate.
-/
import Idealize.ShloMosaic.PureOps.Ideal.Laws
import Idealize.ShloMosaic.Lib.ValueIdx
import Idealize.ShloMosaic.Lib.ValueLayout

noncomputable section

open scoped BigOperators

namespace Cert.LibMat

open Idealize.ShloMosaic Idealize.ShloMosaic.ValueIdx

/-- The plain dimension numbers over any witness of their well-formedness. -/
abbrev plainDims {m k n : ℕ} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- A plain matrix product into the zero accumulator, at (a, b): the sum over the contracted coordinate. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (plainDims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMat

end
-- ==== Proof.LibRows.lean ====
/-
  Rows and columns of a rank-2 array, read at an index.

  For an `[a, b]` array: a reduction along axis 1 at row `r` ranges over the entries `(r, c)`, a
  reduction along axis 0 at column `c` over the entries `(r, c)`; a vector of `a` entries cast to
  the column shape `[a, 1]` reads entry `r` at `(r, 0)`, and that column broadcast to `[a, b]`
  reads it at every `(r, c)`.  The sums are plain `Finset` sums and the maxima folds of `max` from
  the accumulator's value, for the vector unit's reductions and for the host's `reduce` alike.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.LibRows

open Idealize.ShloMosaic Idealize.ShloMosaic.ValueIdx

variable {a b : ℕ}

/-- Row `r` with lane `k` put back at axis 1 is `(r, k)`. -/
theorem lift_axis1 (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Column `c` with row `k` put back at axis 0 is `(k, c)`. -/
theorem lift_axis0 (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A lane sum of an `[a, b]` vector, at row `r`: the sum of the row's entries. -/
theorem laneSum_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ c : Fin b, src (ix2 r c) := by
  rw [Ideal.multiReduction_add_single]
  exact Finset.sum_congr rfl fun k _ => congrArg src (lift_axis1 h r k)

/-- A lane maximum of an `[a, b]` vector, at row `r`: the fold of `max` over the row from the accumulator. -/
theorem laneMax_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) := by
  rw [Ideal.multiReduction_maximumf_single]
  have hf : (src ∘ h.lift (ix1 r)) = fun c : Fin b => src (ix2 r c) :=
    funext fun k => congrArg src (lift_axis1 h r k)
  exact congrArg (fun f => Finset.fold max (Ideal.ofBits φ acc) f (Finset.univ : Finset (Fin b))) hf

/-- A sum over the rows of an `[a, b]` vector, at column `c`. -/
theorem rowSum_apply {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ r : Fin a, src (ix2 r c) := by
  rw [Ideal.multiReduction_add_single]
  exact Finset.sum_congr rfl fun k _ => congrArg src (lift_axis0 h c k)

/-- The host's `reduce` with a maximum body along axis 1 of an f32 `[a, b]` array, at row `r`: the same fold,
    from the initial value's one entry. -/
theorem hostLaneMax_apply {u : Shape} (x : (⟨2, ![a, b]⟩ : Shape).Idx → Ideal .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun c => x (ix2 r c)) := by
  rw [Host.reduce_eq_fold_single FloatOps.maximumf x init h' h hu]
  have hf : (x ∘ h.lift (ix1 r)) = fun c : Fin b => x (ix2 r c) :=
    funext fun k => congrArg x (lift_axis1 h r k)
  exact congrArg (fun f => Finset.fold max (init (Shape.Idx.first hu)) f (Finset.univ : Finset (Fin b))) hf

/-- An `[a]` vector cast to the column shape `[a, 1]` reads, at `(r, u)`, entry `r`. -/
theorem shapeCast_a_a1_apply {α : Type} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry of row `r`. -/
theorem broadcastTo_a1_ab_apply {α : Type} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Cert.LibRows

end
-- ==== Proof.LibGram.lean ====
/-
  Products of rows, and the host's sums, read at an index.

  For dimension numbers that contract the second axis of both operands, a matrix product into the zero accumulator, at
  the ideal values, is at (a, b) the inner product of row `a` of the left operand with row `b` of the right one: the
  sum over the contracted coordinate `c` of the entries (a, c) and (b, c). A `[1, b]` row broadcast to `[a, b]` reads,
  at every (r, c), the row's entry (0, c). The host's sum along axis 1 of an `[a, b]` array is, at row `r`, the initial value plus the
  sum of the row's entries; its sum over every axis is the initial value plus the sum of all entries. A finite sum of
  reals, read in the extended reals, is the sum of the entries read there.
-/
import Idealize.ShloMosaic.PureOps.Ideal.Laws
import Idealize.ShloMosaic.Lib.ValueIdx
import Idealize.ShloMosaic.Lib.ValueLayout
import Idealize.ShloMosaic.Lib.Pipeline.Value
import Idealize.ShloMosaic.PureOps.Reduce

noncomputable section

open scoped BigOperators

namespace Cert.LibGram

open Idealize.ShloMosaic Idealize.ShloMosaic.ValueIdx

/-- The dimension numbers that contract axis 1 of both operands, over any witness of their well-formedness. -/
abbrev rowsDims {m k n : ℕ} (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- A product of rows into the zero accumulator, at (a, b): the inner product of row `a` and row `b`. -/
theorem matmul_rows_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    matmul (rowsDims w) prec A B (constant ⟨2, ![m, n]⟩ .f32 0x00000000#32) (ix2 a b) = ∑ c : Fin k, A (ix2 a c) * B (ix2 b c) := by
  show FloatOps.matmul _ prec A B _ (ix2 a b) = _
  rw [Ideal.matmul_constant_zero_apply, ← Equiv.sum_comp (contrEquiv1 (rowsDims w) k rfl rfl).symm]
  refine Finset.sum_congr rfl fun c _ => ?_
  have c2 := contrEquiv1_symm_val (rowsDims w) k rfl rfl c
  have l2 : (rowsDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (rowsDims w).rhsIdx (ix2 a b) ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A `[1, b]` row broadcast to `[a, b]` reads, at `(r, c)`, the row's entry of column `c`. -/
theorem broadcastTo_1b_ab_apply {a b : ℕ} {α : Type} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if b = 1 then 0 else c.val
    split
    · have := c.isLt; omega
    · rfl

/-- Row `r` with lane `k` put back at axis 1 is `(r, k)`. -/
theorem lift_lane {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The host's sum along axis 1 of an f32 `[a, b]` array, at row `r`: the initial value plus the row's entries. -/
theorem hostLaneSum_apply {a b : ℕ} {u : Shape} (x : (⟨2, ![a, b]⟩ : Shape).Idx → Ideal .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduceAdd x init h' hu (ix1 r) = init (Shape.Idx.first hu) + ∑ c : Fin b, x (ix2 r c) := by
  simp only [Host.reduceAdd, Ideal.hostReduceAdd_def]
  rw [Ideal.hostReduceAdd_single h' h]
  exact congrArg (_ + ·) (Finset.sum_congr rfl fun k _ => congrArg x (lift_lane h r k))

/-- The host's sum over every axis: the initial value plus all the entries. -/
theorem hostTotalSum_apply {s u : Shape} {axes : List (Fin s.rank)} (x : s.Idx → Ideal .f32) (init : u.Idx → Ideal .f32)
    (h' : s.ReducesTo axes (⟨0, ![]⟩ : Shape)) (hu : 0 < u.numel) (j : (⟨0, ![]⟩ : Shape).Idx) :
    Host.reduceAdd x init h' hu j = init (Shape.Idx.first hu) + ∑ i : s.Idx, x i := by
  simp only [Host.reduceAdd, Ideal.hostReduceAdd_def]
  exact Ideal.hostReduceAdd_total h' (fun b => b.elim0) x _ j

/-- A finite sum of reals read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

end Cert.LibGram

end
-- ==== Proof.LibLayout3.lean ====
/-
  Casts and broadcasts between rank-2 and rank-3 arrays, read at an index.

  Merging the two leading axes `[a, b, c] → [a·b, c]` (and splitting them again) keeps the row-major position: row
  `i = p·b + q` of the merged array is row `(p, q)` of the other.  Inserting a unit axis, or filling one by
  broadcasting, only moves entries.
-/
import Idealize.ShloMosaic.Lib.ValueIdx
import Idealize.ShloMosaic.Lib.ValueLayout
import Idealize.ShloMosaic.Lib.Pipeline.Value

noncomputable section

namespace Cert.LibLayout3

open Idealize.ShloMosaic Idealize.ShloMosaic.ValueIdx

variable {a b c m : ℕ} {α : Type}

/-- `[a, b, c]` with its leading axes merged: row `i = p·b + q` reads row `(p, q)`. -/
theorem shapeCast_merge_apply (x : (⟨3, ![a, b, c]⟩ : Shape).Idx → α)
    (h : (⟨3, ![a, b, c]⟩ : Shape).ShapeCasts ⟨2, ![m, c]⟩) (i : Fin m) (p : Fin a) (q : Fin b) (k : Fin c)
    (hi : i.val = p.val * b + q.val) :
    shapeCast ⟨2, ![m, c]⟩ x h (ix2 i k) = x (ix3 p q k) :=
  shapeCast_apply x h _ _ (by
    rw [Shape.rowMajor_val_two, Shape.rowMajor_val_three]
    show (p.val * b + q.val) * c + k.val = i.val * c + k.val
    rw [hi])

/-- `[m, c]` with its leading axis split into `[a, b]`: row `(p, q)` reads row `i = p·b + q`. -/
theorem shapeCast_split_apply (y : (⟨2, ![m, c]⟩ : Shape).Idx → α)
    (h : (⟨2, ![m, c]⟩ : Shape).ShapeCasts ⟨3, ![a, b, c]⟩) (i : Fin m) (p : Fin a) (q : Fin b) (k : Fin c)
    (hi : i.val = p.val * b + q.val) :
    shapeCast ⟨3, ![a, b, c]⟩ y h (ix3 p q k) = y (ix2 i k) :=
  shapeCast_apply y h _ _ (by
    rw [Shape.rowMajor_val_two, Shape.rowMajor_val_three]
    show i.val * c + k.val = (p.val * b + q.val) * c + k.val
    rw [hi])

/-- `[a, b]` cast to `[a, b, 1]` reads, at `(p, q, u)`, entry `(p, q)`. -/
theorem shapeCast_ab_ab1_apply (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- `[a, c]` cast to `[a, 1, c]` reads, at `(p, u, r)`, entry `(p, r)`. -/
theorem shapeCast_ac_a1c_apply (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_two, Shape.rowMajor_val_three]
    show p.val * c + r.val = (p.val * 1 + u.val) * c + r.val
    rw [hu, Nat.mul_one, Nat.add_zero])

/-- An `[a, b, 1]` array broadcast to `[a, b, c]` reads, at `(p, q, k)`, entry `(p, q, 0)`. -/
theorem broadcastTo_ab1_abc_apply (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, 1, c]` array broadcast to `[a, b, c]` reads, at `(p, q, k)`, entry `(p, 0, k)`. -/
theorem broadcastTo_a1c_abc_apply (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-! ## The host's `broadcast_in_dim` -/

/-- A scalar broadcast to any shape reads the scalar everywhere. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- `[c]` placed on the last axis of `[1, 1, c]`. -/
theorem bcast_c_11c_apply (h : (⟨1, ![c]⟩ : Shape).BroadcastsInDim ⟨3, ![1, 1, c]⟩ ![2]) (x : (⟨1, ![c]⟩ : Shape).Idx → α)
    (u v : Fin 1) (k : Fin c) : broadcastInDim ⟨3, ![1, 1, c]⟩ ![2] h x (ix3 u v k) = x (ix1 k) := by
  refine broadcastInDim_apply _ h x (ix3 u v k) (ix1 k) fun ax => ?_
  match ax with
  | ⟨0, _⟩ =>
    show k.val = if c = 1 then 0 else k.val
    split
    · have := k.isLt; omega
    · rfl

/-- `[1, 1, c]` broadcast to `[a, b, c]`. -/
theorem bcast_11c_abc_apply (h : (⟨3, ![1, 1, c]⟩ : Shape).BroadcastsInDim ⟨3, ![a, b, c]⟩ ![0, 1, 2])
    (x : (⟨3, ![1, 1, c]⟩ : Shape).Idx → α) (p : Fin a) (q : Fin b) (k : Fin c) :
    broadcastInDim ⟨3, ![a, b, c]⟩ ![0, 1, 2] h x (ix3 p q k) = x (ix3 (0 : Fin 1) (0 : Fin 1) k) := by
  refine broadcastInDim_apply _ h x (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- `[a, b]` placed on the two leading axes of `[a, b, 1]`. -/
theorem bcast_ab_ab1_apply (h : (⟨2, ![a, b]⟩ : Shape).BroadcastsInDim ⟨3, ![a, b, 1]⟩ ![0, 1])
    (x : (⟨2, ![a, b]⟩ : Shape).Idx → α) (p : Fin a) (q : Fin b) (u : Fin 1) :
    broadcastInDim ⟨3, ![a, b, 1]⟩ ![0, 1] h x (ix3 p q u) = x (ix2 p q) := by
  refine broadcastInDim_apply _ h x (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- `[a, b, 1]` broadcast to `[a, b, c]`. -/
theorem bcast_ab1_abc_apply (h : (⟨3, ![a, b, 1]⟩ : Shape).BroadcastsInDim ⟨3, ![a, b, c]⟩ ![0, 1, 2])
    (x : (⟨3, ![a, b, 1]⟩ : Shape).Idx → α) (p : Fin a) (q : Fin b) (k : Fin c) :
    broadcastInDim ⟨3, ![a, b, c]⟩ ![0, 1, 2] h x (ix3 p q k) = x (ix3 p q (0 : Fin 1)) := by
  refine broadcastInDim_apply _ h x (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a, c]` placed on the first and last axes of `[a, 1, c]`. -/
theorem bcast_ac_a1c_apply (h : (⟨2, ![a, c]⟩ : Shape).BroadcastsInDim ⟨3, ![a, 1, c]⟩ ![0, 2])
    (x : (⟨2, ![a, c]⟩ : Shape).Idx → α) (p : Fin a) (u : Fin 1) (r : Fin c) :
    broadcastInDim ⟨3, ![a, 1, c]⟩ ![0, 2] h x (ix3 p u r) = x (ix2 p r) := by
  refine broadcastInDim_apply _ h x (ix3 p u r) (ix2 p r) fun ax => ?_
  match ax with
  | ⟨0, _⟩ =>
    show p.val = if a = 1 then 0 else p.val
    split
    · have := p.isLt; omega
    · rfl
  | ⟨1, _⟩ =>
    show r.val = if c = 1 then 0 else r.val
    split
    · have := r.isLt; omega
    · rfl

/-- `[a, 1, c]` broadcast to `[a, b, c]`. -/
theorem bcast_a1c_abc_apply (h : (⟨3, ![a, 1, c]⟩ : Shape).BroadcastsInDim ⟨3, ![a, b, c]⟩ ![0, 1, 2])
    (x : (⟨3, ![a, 1, c]⟩ : Shape).Idx → α) (p : Fin a) (q : Fin b) (k : Fin c) :
    broadcastInDim ⟨3, ![a, b, c]⟩ ![0, 1, 2] h x (ix3 p q k) = x (ix3 p (0 : Fin 1) k) := by
  refine broadcastInDim_apply _ h x (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

end Cert.LibLayout3

end
-- ==== Proof.K01Pay.lean ====
/-
  The two feature kernels' arithmetic is the specification's `feat`.

  A block of `N` batch rows `[N, 512, K]` is merged to `[N·512, K]` (row `i = n·512 + l`), multiplied by the
  `[K, 256]` matrix, the bias row added to every row; each row is then divided by its Euclidean norm plus ε (the
  rows' sums of squares, their square roots, plus ε, spread across the row), and the rows are split back to
  `[N, 512, 256]`.  Read at `(n, l, d)` this is `unit (lin x W b) n l d`.  Both steps are stated once, for any
  number of rows, and used at the two kernels' shapes.
-/
import proofs.«150999_j3109556323149_2_alg».proof.Proof.Gen.KernelIdeal.Skeleton
import proofs.«150999_j3109556323149_2_alg».proof.Proof.Spec
import proofs.«150999_j3109556323149_2_alg».proof.Proof.LibMat
import proofs.«150999_j3109556323149_2_alg».proof.Proof.LibRows
import proofs.«150999_j3109556323149_2_alg».proof.Proof.LibGram
import proofs.«150999_j3109556323149_2_alg».proof.Proof.LibLayout3

open scoped BigOperators

noncomputable section

namespace Cert.KernelIdeal.Pay01

open Cert.KernelIdeal Cert.KernelIdeal.Gen Idealize.ShloMosaic Idealize.ShloMosaic.ValueIdx

variable {N K m : ℕ}

/-- The projection at row `i = n·512 + l` of the merged block and column `d`: the merged block times the matrix, plus the
    bias row spread down the rows, is `lin` at `(n, l, d)`. -/
theorem lin_at (v0 : FVec Ideal ⟨3, ![N, 512, K]⟩ .f32) (v2 : FVec Ideal ⟨2, ![K, 256]⟩ .f32)
    (v3 : FVec Ideal ⟨2, ![1, 256]⟩ .f32)
    (h1 : (⟨3, ![N, 512, K]⟩ : Shape).ShapeCasts ⟨2, ![m, K]⟩)
    (h4 : (⟨2, ![1, 256]⟩ : Shape).ShapeCasts ⟨2, ![1, 256]⟩)
    (hb : FTy.bits .bf16 < FTy.bits .f32)
    (w : DotDims.WF ⟨2, ![m, K]⟩ ⟨2, ![K, 256]⟩ ⟨2, ![m, 256]⟩ [1] [0] [0] [1] [] [])
    (h8 : (⟨2, ![1, 256]⟩ : Shape).Broadcasts ⟨2, ![m, 256]⟩)
    (i : Fin m) (n : Fin N) (l : Fin 512) (d : Fin 256) (hi : i.val = n.val * 512 + l.val) :
    addf (matmul (Cert.LibMat.plainDims w) none (truncf .bf16 (shapeCast ⟨2, ![m, K]⟩ v0 h1) hb) (truncf .bf16 v2 hb)
        (constant (F := Ideal) ⟨2, ![m, 256]⟩ .f32 0x00000000#32))
      (broadcastTo ⟨2, ![m, 256]⟩ (shapeCast ⟨2, ![1, 256]⟩ v3 h4) h8) (ix2 i d)
    = Attn.lin (Attn.cur3 v0) (Attn.cur2 v2) (fun d => v3 (ix2 (0 : Fin 1) d)) n l d := by
  rw [addf_apply, Cert.LibMat.matmul_plain_apply, Cert.LibGram.broadcastTo_1b_ab_apply, shapeCast_self]
  show _ = (∑ e : Fin K, v0 (ix3 n l e) * v2 (ix2 e d)) + v3 (ix2 (0 : Fin 1) d)
  refine congrArg (· + v3 (ix2 (0 : Fin 1) d)) (Finset.sum_congr rfl fun e _ => ?_)
  rw [truncf_apply, truncf_apply, Cert.LibLayout3.shapeCast_merge_apply v0 h1 i n l e hi]

/-- A row divided by its norm plus ε, at `(i, d)`: for any `[m, 256]` array `y`, the rows' sums of squares, cast to a
    column, their square roots plus ε, spread across the row, divide `y` as `unit` does. -/
theorem unit_at (y : FVec Ideal ⟨2, ![m, 256]⟩ .f32)
    (h11 : (⟨2, ![m, 256]⟩ : Shape).Reduces [1] (⟨1, ![m]⟩ : Shape)) (hφ : FKind.Formats .f32)
    (hacc : (0x00000000#32 : BitVec (FTy.bits .f32)) = FKind.add.neutral .f32 hφ)
    (h12 : (⟨1, ![m]⟩ : Shape).ShapeCasts ⟨2, ![m, 1]⟩)
    (h16 : (⟨2, ![m, 1]⟩ : Shape).Broadcasts ⟨2, ![m, 256]⟩)
    (i : Fin m) (d : Fin 256) :
    divf y (broadcastTo ⟨2, ![m, 256]⟩
        (addf (sqrt (shapeCast ⟨2, ![m, 1]⟩
                (multiReduction (F := Ideal) .add [1] ⟨1, ![m]⟩ (mulf y y) 0x00000000#32 h11 hφ hacc) h12))
              (broadcast ⟨2, ![m, 1]⟩ (Scalar.ofBits (F := Ideal) .f32 0x322BCC77#32))) h16) (ix2 i d)
    = Ideal.div (y (ix2 i d)) (Ideal.sqrt (∑ k : Fin 256, y (ix2 i k) * y (ix2 i k)) + Attn.eps) := by
  rw [divf_apply, Cert.LibRows.broadcastTo_a1_ab_apply, addf_apply, broadcast_apply]
  show Ideal.div _ (Ideal.sqrt (shapeCast ⟨2, ![m, 1]⟩ _ h12 (ix2 i (0 : Fin 1))) + _) = _
  rw [Cert.LibRows.shapeCast_a_a1_apply, Cert.LibRows.laneSum_apply]
  rfl

/-- The projection's array: the merged block times the matrix, plus the bias row spread down the rows. -/
def linArr (v0 : FVec Ideal ⟨3, ![N, 512, K]⟩ .f32) (v2 : FVec Ideal ⟨2, ![K, 256]⟩ .f32)
    (v3 : FVec Ideal ⟨2, ![1, 256]⟩ .f32)
    (h1 : (⟨3, ![N, 512, K]⟩ : Shape).ShapeCasts ⟨2, ![m, K]⟩)
    (h4 : (⟨2, ![1, 256]⟩ : Shape).ShapeCasts ⟨2, ![1, 256]⟩)
    (hb : FTy.bits .bf16 < FTy.bits .f32)
    (w : DotDims.WF ⟨2, ![m, K]⟩ ⟨2, ![K, 256]⟩ ⟨2, ![m, 256]⟩ [1] [0] [0] [1] [] [])
    (h8 : (⟨2, ![1, 256]⟩ : Shape).Broadcasts ⟨2, ![m, 256]⟩) : FVec Ideal ⟨2, ![m, 256]⟩ .f32 :=
  addf (matmul (Cert.LibMat.plainDims w) none (truncf .bf16 (shapeCast ⟨2, ![m, K]⟩ v0 h1) hb) (truncf .bf16 v2 hb)
      (constant (F := Ideal) ⟨2, ![m, 256]⟩ .f32 0x00000000#32))
    (broadcastTo ⟨2, ![m, 256]⟩ (shapeCast ⟨2, ![1, 256]⟩ v3 h4) h8)

/-- An `[m, 256]` array with every row divided by its norm plus ε. -/
def unitArr (y : FVec Ideal ⟨2, ![m, 256]⟩ .f32)
    (h11 : (⟨2, ![m, 256]⟩ : Shape).Reduces [1] (⟨1, ![m]⟩ : Shape)) (hφ : FKind.Formats .f32)
    (hacc : (0x00000000#32 : BitVec (FTy.bits .f32)) = FKind.add.neutral .f32 hφ)
    (h12 : (⟨1, ![m]⟩ : Shape).ShapeCasts ⟨2, ![m, 1]⟩)
    (h16 : (⟨2, ![m, 1]⟩ : Shape).Broadcasts ⟨2, ![m, 256]⟩) : FVec Ideal ⟨2, ![m, 256]⟩ .f32 :=
  divf y (broadcastTo ⟨2, ![m, 256]⟩
    (addf (sqrt (shapeCast ⟨2, ![m, 1]⟩
            (multiReduction (F := Ideal) .add [1] ⟨1, ![m]⟩ (mulf y y) 0x00000000#32 h11 hφ hacc) h12))
          (broadcast ⟨2, ![m, 1]⟩ (Scalar.ofBits (F := Ideal) .f32 0x322BCC77#32))) h16)

/-- The whole arithmetic of a feature kernel's block, for any number of rows. -/
def featArr (v0 : FVec Ideal ⟨3, ![N, 512, K]⟩ .f32) (v2 : FVec Ideal ⟨2, ![K, 256]⟩ .f32)
    (v3 : FVec Ideal ⟨2, ![1, 256]⟩ .f32)
    (h1 : (⟨3, ![N, 512, K]⟩ : Shape).ShapeCasts ⟨2, ![m, K]⟩)
    (h4 : (⟨2, ![1, 256]⟩ : Shape).ShapeCasts ⟨2, ![1, 256]⟩)
    (hb : FTy.bits .bf16 < FTy.bits .f32)
    (w : DotDims.WF ⟨2, ![m, K]⟩ ⟨2, ![K, 256]⟩ ⟨2, ![m, 256]⟩ [1] [0] [0] [1] [] [])
    (h8 : (⟨2, ![1, 256]⟩ : Shape).Broadcasts ⟨2, ![m, 256]⟩)
    (h11 : (⟨2, ![m, 256]⟩ : Shape).Reduces [1] (⟨1, ![m]⟩ : Shape)) (hφ : FKind.Formats .f32)
    (hacc : (0x00000000#32 : BitVec (FTy.bits .f32)) = FKind.add.neutral .f32 hφ)
    (h12 : (⟨1, ![m]⟩ : Shape).ShapeCasts ⟨2, ![m, 1]⟩)
    (h16 : (⟨2, ![m, 1]⟩ : Shape).Broadcasts ⟨2, ![m, 256]⟩)
    (h18 : (⟨2, ![m, 256]⟩ : Shape).ShapeCasts ⟨3, ![N, 512, 256]⟩) : FVec Ideal ⟨3, ![N, 512, 256]⟩ .bf16 :=
  truncf .bf16 (shapeCast ⟨3, ![N, 512, 256]⟩
    (unitArr (linArr v0 v2 v3 h1 h4 hb w h8) h11 hφ hacc h12 h16) h18) hb

/-- That arithmetic at `(n, l, d)` is `feat` there: the split reads row `n·512 + l`, whose entries are `lin`'s. -/
theorem featArr_apply (v0 : FVec Ideal ⟨3, ![N, 512, K]⟩ .f32) (v2 : FVec Ideal ⟨2, ![K, 256]⟩ .f32)
    (v3 : FVec Ideal ⟨2, ![1, 256]⟩ .f32)
    (h1 : (⟨3, ![N, 512, K]⟩ : Shape).ShapeCasts ⟨2, ![m, K]⟩)
    (h4 : (⟨2, ![1, 256]⟩ : Shape).ShapeCasts ⟨2, ![1, 256]⟩)
    (hb : FTy.bits .bf16 < FTy.bits .f32)
    (w : DotDims.WF ⟨2, ![m, K]⟩ ⟨2, ![K, 256]⟩ ⟨2, ![m, 256]⟩ [1] [0] [0] [1] [] [])
    (h8 : (⟨2, ![1, 256]⟩ : Shape).Broadcasts ⟨2, ![m, 256]⟩)
    (h11 : (⟨2, ![m, 256]⟩ : Shape).Reduces [1] (⟨1, ![m]⟩ : Shape)) (hφ : FKind.Formats .f32)
    (hacc : (0x00000000#32 : BitVec (FTy.bits .f32)) = FKind.add.neutral .f32 hφ)
    (h12 : (⟨1, ![m]⟩ : Shape).ShapeCasts ⟨2, ![m, 1]⟩)
    (h16 : (⟨2, ![m, 1]⟩ : Shape).Broadcasts ⟨2, ![m, 256]⟩)
    (h18 : (⟨2, ![m, 256]⟩ : Shape).ShapeCasts ⟨3, ![N, 512, 256]⟩)
    (hm : N * 512 ≤ m) (n : Fin N) (l : Fin 512) (d : Fin 256) :
    featArr v0 v2 v3 h1 h4 hb w h8 h11 hφ hacc h12 h16 h18 (ix3 n l d)
      = Attn.feat (Attn.cur3 v0) (Attn.cur2 v2) (fun d => v3 (ix2 (0 : Fin 1) d)) n l d := by
  have hlt : n.val * 512 + l.val < m := by have := n.isLt; have := l.isLt; omega
  have hy : ∀ e : Fin 256, linArr v0 v2 v3 h1 h4 hb w h8 (ix2 (⟨n.val * 512 + l.val, hlt⟩ : Fin m) e)
      = Attn.lin (Attn.cur3 v0) (Attn.cur2 v2) (fun d => v3 (ix2 (0 : Fin 1) d)) n l e :=
    fun e => lin_at v0 v2 v3 h1 h4 hb w h8 ⟨n.val * 512 + l.val, hlt⟩ n l e rfl
  unfold featArr
  rw [truncf_apply, Cert.LibLayout3.shapeCast_split_apply _ h18 ⟨n.val * 512 + l.val, hlt⟩ n l d rfl]
  refine (unit_at _ h11 hφ hacc h12 h16 _ d).trans ?_
  show _ = Ideal.div (Attn.lin _ _ _ n l d)
    (Ideal.sqrt (∑ k : Fin 256, Attn.lin _ _ _ n l k * Attn.lin _ _ _ n l k) + Attn.eps)
  rw [hy d]
  exact congrArg (fun s => Ideal.div _ (Ideal.sqrt s + Attn.eps)) (Finset.sum_congr rfl fun k _ => by rw [hy k])

/-! ## The two kernels -/

/-- The first kernel's block is that arithmetic at 8 batch rows of 300 entries (4096 merged rows): by unfolding. -/
theorem k0_pay1_eq_featArr (v0 : Vec Ideal S8x512x300 .f32) (v2 : Vec Ideal S300x256 .f32) (v3 : Vec Ideal S1x256 .f32) :
    k0_pay1 (F := Ideal) v0 v2 v3
      = featArr (N := 8) (K := 300) (m := 4096) v0 v2 v3 shapeCasts_S8x512x300_S4096x300 shapeCasts_S1x256_S1x256
          bitsLt_bf16_f32 dot_S4096x300_S300x256_S4096x256_1_0_0_1_n_n_wf broadcasts_S1x256_S4096x256
          reduces_S4096x256_S4096 (.inl rfl) rfl shapeCasts_S4096_S4096x1 broadcasts_S4096x1_S4096x256
          shapeCasts_S4096x256_S8x512x256 := rfl

/-- The first feature kernel's block is `feat` of the block, the matrix and the bias row. -/
theorem pay0_eq (v0 : Vec Ideal S8x512x300 .f32) (v2 : Vec Ideal S300x256 .f32) (v3 : Vec Ideal S1x256 .f32) :
    k0_pay1 (F := Ideal) v0 v2 v3
      = Attn.arr3 (Attn.feat (Attn.cur3 v0) (Attn.cur2 v2) (fun d => v3 (ix2 (0 : Fin 1) d))) := by
  funext j
  obtain ⟨n, l, d, rfl⟩ : ∃ (n : Fin 8) (l : Fin 512) (d : Fin 256), j = ix3 n l d := ⟨j 0, j 1, j 2, eq_ix3 j⟩
  rw [k0_pay1_eq_featArr]
  exact featArr_apply v0 v2 v3 _ _ _ _ _ _ _ _ _ _ _ (by decide) n l d

/-- The second kernel's block is that arithmetic at 4 batch rows of 1024 entries (2048 merged rows): by unfolding. -/
theorem k1_pay1_eq_featArr (v0 : Vec Ideal S4x512x1024 .f32) (v2 : Vec Ideal S1024x256 .f32) (v3 : Vec Ideal S1x256 .f32) :
    k1_pay1 (F := Ideal) v0 v2 v3
      = featArr (N := 4) (K := 1024) (m := 2048) v0 v2 v3 shapeCasts_S4x512x1024_S2048x1024 shapeCasts_S1x256_S1x256
          bitsLt_bf16_f32 dot_S2048x1024_S1024x256_S2048x256_1_0_0_1_n_n_wf broadcasts_S1x256_S2048x256
          reduces_S2048x256_S2048 (.inl rfl) rfl shapeCasts_S2048_S2048x1 broadcasts_S2048x1_S2048x256
          shapeCasts_S2048x256_S4x512x256 := rfl

/-- The second feature kernel's block is `feat` of the block, the matrix and the bias row. -/
theorem pay1_eq (v0 : Vec Ideal S4x512x1024 .f32) (v2 : Vec Ideal S1024x256 .f32) (v3 : Vec Ideal S1x256 .f32) :
    k1_pay1 (F := Ideal) v0 v2 v3
      = Attn.arr3 (Attn.feat (Attn.cur3 v0) (Attn.cur2 v2) (fun d => v3 (ix2 (0 : Fin 1) d))) := by
  funext j
  obtain ⟨n, l, d, rfl⟩ : ∃ (n : Fin 4) (l : Fin 512) (d : Fin 256), j = ix3 n l d := ⟨j 0, j 1, j 2, eq_ix3 j⟩
  rw [k1_pay1_eq_featArr]
  exact featArr_apply v0 v2 v3 _ _ _ _ _ _ _ _ _ _ _ (by decide) n l d

end Cert.KernelIdeal.Pay01

end
-- ==== Proof.LibOps3.lean ====
/-
  Rank-3 arrays read at an index.

  For an `[a, b, c]` array at the ideal values: a sum or a maximum along the last axis at `(p, q)` ranges over the
  entries `(p, q, k)`, along the middle axis at `(p, r)` over the entries `(p, k, r)` — for the vector unit's
  reductions and for the host's `reduce` alike; a product of two arrays with a shared leading (batch) axis is, at an
  output index, the sum over the one contracted coordinate of the two operands' entries; and the casts and
  broadcasts that insert or fill a unit axis only move entries.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.LibOps3

open Idealize.ShloMosaic Idealize.ShloMosaic.ValueIdx

variable {a b c : ℕ}

/-! ## Reductions along one axis -/

/-- `(p, q)` with `k` put back at the last axis is `(p, q, k)`. -/
theorem lift_axis2 (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- `(p, r)` with `k` put back at the middle axis is `(p, k, r)`. -/
theorem lift_axis1 (h : (⟨3, ![a, b, c]⟩ : Shape).Reduces [1] (⟨2, ![a, c]⟩ : Shape)) (p : Fin a) (r : Fin c)
    (k : Fin ((⟨3, ![a, b, c]⟩ : Shape).size 1)) : h.lift (ix2 p r) k = ix3 p (⟨k.val, k.isLt⟩ : Fin b) r := by
  funext d; apply Fin.ext
  fin_cases d <;> rfl

/-- A sum along the last axis of an `[a, b, c]` vector, at `(p, q)`. -/
theorem sum_axis2_apply {φ : FTy} (src : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.add.neutral φ hφ) (p : Fin a) (q : Fin b) :
    multiReduction .add [2] ⟨2, ![a, b]⟩ src acc h hφ hacc (ix2 p q) = ∑ k : Fin c, src (ix3 p q k) := by
  rw [Ideal.multiReduction_add_single]
  exact Finset.sum_congr rfl fun k _ => congrArg src (lift_axis2 h p q k)

/-- A sum along the middle axis of an `[a, b, c]` vector, at `(p, r)`. -/
theorem sum_axis1_apply {φ : FTy} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.add.neutral φ hφ) (p : Fin a) (r : Fin c) :
    multiReduction .add [1] ⟨2, ![a, c]⟩ src acc h hφ hacc (ix2 p r) = ∑ k : Fin b, src (ix3 p k r) := by
  rw [Ideal.multiReduction_add_single]
  exact Finset.sum_congr rfl fun k _ => congrArg src (lift_axis1 h p r k)

/-- The host's sum along the last axis of an f32 `[a, b, c]` array, at `(p, q)`: the initial value plus the entries. -/
theorem hostSum_axis2_apply {u : Shape} (x : (⟨3, ![a, b, c]⟩ : Shape).Idx → Ideal .f32) (init : u.Idx → Ideal .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduceAdd x init h' hu (ix2 p q) = init (Shape.Idx.first hu) + ∑ k : Fin c, x (ix3 p q k) := by
  simp only [Host.reduceAdd, Ideal.hostReduceAdd_def]
  rw [Ideal.hostReduceAdd_single h' h]
  exact congrArg (_ + ·) (Finset.sum_congr rfl fun k _ => congrArg x (lift_axis2 h p q k))

/-- The host's sum along the middle axis of an f32 `[a, b, c]` array, at `(p, r)`. -/
theorem hostSum_axis1_apply {u : Shape} (x : (⟨3, ![a, b, c]⟩ : Shape).Idx → Ideal .f32) (init : u.Idx → Ideal .f32)
    (h' : (⟨3, ![a, b, c]⟩ : Shape).ReducesTo [1] (⟨2, ![a, c]⟩ : Shape))
    (h : (⟨3, ![a, b, c]⟩ : Shape).Reduces [1] (⟨2, ![a, c]⟩ : Shape)) (hu : 0 < u.numel) (p : Fin a) (r : Fin c) :
    Host.reduceAdd x init h' hu (ix2 p r) = init (Shape.Idx.first hu) + ∑ k : Fin b, x (ix3 p k r) := by
  simp only [Host.reduceAdd, Ideal.hostReduceAdd_def]
  rw [Ideal.hostReduceAdd_single h' h]
  exact congrArg (_ + ·) (Finset.sum_congr rfl fun k _ => congrArg x (lift_axis1 h p r k))

/-- The host's maximum along the last axis of an f32 `[a, b, c]` array, at `(p, q)`: the fold of `max` from the
    initial value over the entries. -/
theorem hostMax_axis2_apply {u : Shape} (x : (⟨3, ![a, b, c]⟩ : Shape).Idx → Ideal .f32) (init : u.Idx → Ideal .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = (Finset.univ : Finset (Fin c)).fold max (init (Shape.Idx.first hu)) (fun k => x (ix3 p q k)) := by
  rw [Host.reduce_eq_fold_single FloatOps.maximumf x init h' h hu]
  have hf : (x ∘ h.lift (ix2 p q)) = fun k : Fin c => x (ix3 p q k) :=
    funext fun k => congrArg x (lift_axis2 h p q k)
  exact congrArg (fun f => Finset.fold max (init (Shape.Idx.first hu)) f (Finset.univ : Finset (Fin c))) hf

/-- The host's maximum along the middle axis of an f32 `[a, b, c]` array, at `(p, r)`. -/
theorem hostMax_axis1_apply {u : Shape} (x : (⟨3, ![a, b, c]⟩ : Shape).Idx → Ideal .f32) (init : u.Idx → Ideal .f32)
    (h' : (⟨3, ![a, b, c]⟩ : Shape).ReducesTo [1] (⟨2, ![a, c]⟩ : Shape))
    (h : (⟨3, ![a, b, c]⟩ : Shape).Reduces [1] (⟨2, ![a, c]⟩ : Shape)) (hu : 0 < u.numel) (p : Fin a) (r : Fin c) :
    Host.reduce FloatOps.maximumf x init h' hu (ix2 p r)
      = (Finset.univ : Finset (Fin b)).fold max (init (Shape.Idx.first hu)) (fun k => x (ix3 p k r)) := by
  rw [Host.reduce_eq_fold_single FloatOps.maximumf x init h' h hu]
  have hf : (x ∘ h.lift (ix2 p r)) = fun k : Fin b => x (ix3 p k r) :=
    funext fun k => congrArg x (lift_axis1 h p r k)
  exact congrArg (fun f => Finset.fold max (init (Shape.Idx.first hu)) f (Finset.univ : Finset (Fin b))) hf

end Cert.LibOps3

end
-- ==== Proof.LibDot3.lean ====
/-
  Products of arrays that share a leading (batch) axis, read at an index.

  With one contracted axis the contraction's index set has one coordinate, and the sum over it is re-indexed by that
  coordinate.  Four patterns of dimension numbers: `simDims` contracts the last axes of two `[B, ·, D]` arrays
  (an inner product of feature rows); `mixDims` contracts the last axis of `[B, L, R]` with the middle axis of
  `[B, R, D]` (a weighted sum over R); `mixTDims` contracts the middle axes of `[B, L, R]` and `[B, L, D]` (a weighted
  sum over L); `projDims` contracts the last axis of `[B, L, D]` with the first of a `[D, R]` matrix.  Each is read
  for the matrix unit's product into the zero accumulator and for the host's `dot_general` alike.
-/
import Idealize.ShloMosaic.PureOps.Ideal.Laws
import Idealize.ShloMosaic.Lib.ValueIdx
import Idealize.ShloMosaic.Lib.ValueLayout

noncomputable section

open scoped BigOperators

namespace Cert.LibDot3

open Idealize.ShloMosaic Idealize.ShloMosaic.ValueIdx

/-- Contract the last axes: out (n, l, r) = ∑ k, X (n, l, k) · Y (n, r, k). -/
abbrev simDims {B L R D : ℕ} (w : DotDims.WF ⟨3, ![B, L, D]⟩ ⟨3, ![B, R, D]⟩ ⟨3, ![B, L, R]⟩ [2] [2] [1] [1] [0] [0]) :
    DotDims ⟨3, ![B, L, D]⟩ ⟨3, ![B, R, D]⟩ ⟨3, ![B, L, R]⟩ := ⟨[2], [2], [1], [1], [0], [0], w⟩

theorem simDims_contr {B L R D : ℕ} (w : DotDims.WF ⟨3, ![B, L, D]⟩ ⟨3, ![B, R, D]⟩ ⟨3, ![B, L, R]⟩ [2] [2] [1] [1] [0] [0])
    (f : (⟨3, ![B, L, D]⟩ : Shape).Idx → EReal) (g : (⟨3, ![B, R, D]⟩ : Shape).Idx → EReal) (n : Fin B) (l : Fin L) (r : Fin R) :
    ∑ k : (simDims w).contr.Idx, f ((simDims w).lhsIdx (ix3 n l r) k) * g ((simDims w).rhsIdx (ix3 n l r) k)
      = ∑ k : Fin D, f (ix3 n l k) * g (ix3 n r k) := by
  rw [← Equiv.sum_comp (contrEquiv1 (simDims w) D rfl rfl).symm]
  refine Finset.sum_congr rfl fun k _ => ?_
  have c2 := contrEquiv1_symm_val (simDims w) D rfl rfl k
  have l2 : (simDims w).lhsIdx (ix3 n l r) ((contrEquiv1 _ D rfl rfl).symm k) = ix3 n l k := by
    funext ax; apply Fin.ext
    match ax with
    | ⟨0, _⟩ => first | rfl | (simp [DotDims.lhsIdx, DotDims.rhsIdx]; done) | (simp [DotDims.lhsIdx, DotDims.rhsIdx]; rfl)
    | ⟨1, _⟩ => first | rfl | (simp [DotDims.lhsIdx, DotDims.rhsIdx]; done) | (simp [DotDims.lhsIdx, DotDims.rhsIdx]; rfl)
    | ⟨2, _⟩ => first | exact c2 | (simp [DotDims.lhsIdx, DotDims.rhsIdx]; exact c2)
  have r2 : (simDims w).rhsIdx (ix3 n l r) ((contrEquiv1 _ D rfl rfl).symm k) = ix3 n r k := by
    funext ax; apply Fin.ext
    match ax with
    | ⟨0, _⟩ => first | rfl | (simp [DotDims.lhsIdx, DotDims.rhsIdx]; done) | (simp [DotDims.lhsIdx, DotDims.rhsIdx]; rfl)
    | ⟨1, _⟩ => first | rfl | (simp [DotDims.lhsIdx, DotDims.rhsIdx]; done) | (simp [DotDims.lhsIdx, DotDims.rhsIdx]; rfl)
    | ⟨2, _⟩ => first | exact c2 | (simp [DotDims.lhsIdx, DotDims.rhsIdx]; exact c2)
  rw [l2, r2]

theorem simDims_matmul {B L R D : ℕ} {φ₁ φ₂ : FTy} (w : DotDims.WF ⟨3, ![B, L, D]⟩ ⟨3, ![B, R, D]⟩ ⟨3, ![B, L, R]⟩ [2] [2] [1] [1] [0] [0])
    (prec : Option ContractPrecision) (X : FVec Ideal ⟨3, ![B, L, D]⟩ φ₁) (Y : FVec Ideal ⟨3, ![B, R, D]⟩ φ₂) (n : Fin B) (l : Fin L) (r : Fin R) :
    matmul (simDims w) prec X Y (constant ⟨3, ![B, L, R]⟩ .f32 0x00000000#32) (ix3 n l r)
      = ∑ k : Fin D, X (ix3 n l k) * Y (ix3 n r k) := by
  show FloatOps.matmul _ prec X Y _ (ix3 n l r) = _
  rw [Ideal.matmul_constant_zero_apply]
  exact simDims_contr w X Y  n l r

theorem simDims_dot {B L R D : ℕ} {φ₁ φ₂ : FTy} (w : DotDims.WF ⟨3, ![B, L, D]⟩ ⟨3, ![B, R, D]⟩ ⟨3, ![B, L, R]⟩ [2] [2] [1] [1] [0] [0])
    (prec : Option ContractPrecision) (X : FVec Ideal ⟨3, ![B, L, D]⟩ φ₁) (Y : FVec Ideal ⟨3, ![B, R, D]⟩ φ₂) (n : Fin B) (l : Fin L) (r : Fin R) :
    Host.dotGeneral (simDims w) prec X Y (ix3 n l r)
      = ∑ k : Fin D, X (ix3 n l k) * Y (ix3 n r k) := by
  simp only [Host.dotGeneral]
  rw [Ideal.dotGeneral_apply]
  exact simDims_contr w X Y  n l r

/-- Contract X's last axis with Y's middle axis: out (n, l, d) = ∑ k, X (n, l, k) · Y (n, k, d). -/
abbrev mixDims {B L R D : ℕ} (w : DotDims.WF ⟨3, ![B, L, R]⟩ ⟨3, ![B, R, D]⟩ ⟨3, ![B, L, D]⟩ [2] [1] [1] [2] [0] [0]) :
    DotDims ⟨3, ![B, L, R]⟩ ⟨3, ![B, R, D]⟩ ⟨3, ![B, L, D]⟩ := ⟨[2], [1], [1], [2], [0], [0], w⟩

theorem mixDims_contr {B L R D : ℕ} (w : DotDims.WF ⟨3, ![B, L, R]⟩ ⟨3, ![B, R, D]⟩ ⟨3, ![B, L, D]⟩ [2] [1] [1] [2] [0] [0])
    (f : (⟨3, ![B, L, R]⟩ : Shape).Idx → EReal) (g : (⟨3, ![B, R, D]⟩ : Shape).Idx → EReal) (n : Fin B) (l : Fin L) (d : Fin D) :
    ∑ k : (mixDims w).contr.Idx, f ((mixDims w).lhsIdx (ix3 n l d) k) * g ((mixDims w).rhsIdx (ix3 n l d) k)
      = ∑ k : Fin R, f (ix3 n l k) * g (ix3 n k d) := by
  rw [← Equiv.sum_comp (contrEquiv1 (mixDims w) R rfl rfl).symm]
  refine Finset.sum_congr rfl fun k _ => ?_
  have c2 := contrEquiv1_symm_val (mixDims w) R rfl rfl k
  have l2 : (mixDims w).lhsIdx (ix3 n l d) ((contrEquiv1 _ R rfl rfl).symm k) = ix3 n l k := by
    funext ax; apply Fin.ext
    match ax with
    | ⟨0, _⟩ => first | rfl | (simp [DotDims.lhsIdx, DotDims.rhsIdx]; done) | (simp [DotDims.lhsIdx, DotDims.rhsIdx]; rfl)
    | ⟨1, _⟩ => first | rfl | (simp [DotDims.lhsIdx, DotDims.rhsIdx]; done) | (simp [DotDims.lhsIdx, DotDims.rhsIdx]; rfl)
    | ⟨2, _⟩ => first | exact c2 | (simp [DotDims.lhsIdx, DotDims.rhsIdx]; exact c2)
  have r2 : (mixDims w).rhsIdx (ix3 n l d) ((contrEquiv1 _ R rfl rfl).symm k) = ix3 n k d := by
    funext ax; apply Fin.ext
    match ax with
    | ⟨0, _⟩ => first | rfl | (simp [DotDims.lhsIdx, DotDims.rhsIdx]; done) | (simp [DotDims.lhsIdx, DotDims.rhsIdx]; rfl)
    | ⟨1, _⟩ => first | exact c2 | (simp [DotDims.lhsIdx, DotDims.rhsIdx]; exact c2)
    | ⟨2, _⟩ => first | rfl | (simp [DotDims.lhsIdx, DotDims.rhsIdx]; done) | (simp [DotDims.lhsIdx, DotDims.rhsIdx]; rfl)
  rw [l2, r2]

theorem mixDims_matmul {B L R D : ℕ} {φ₁ φ₂ : FTy} (w : DotDims.WF ⟨3, ![B, L, R]⟩ ⟨3, ![B, R, D]⟩ ⟨3, ![B, L, D]⟩ [2] [1] [1] [2] [0] [0])
    (prec : Option ContractPrecision) (X : FVec Ideal ⟨3, ![B, L, R]⟩ φ₁) (Y : FVec Ideal ⟨3, ![B, R, D]⟩ φ₂) (n : Fin B) (l : Fin L) (d : Fin D) :
    matmul (mixDims w) prec X Y (constant ⟨3, ![B, L, D]⟩ .f32 0x00000000#32) (ix3 n l d)
      = ∑ k : Fin R, X (ix3 n l k) * Y (ix3 n k d) := by
  show FloatOps.matmul _ prec X Y _ (ix3 n l d) = _
  rw [Ideal.matmul_constant_zero_apply]
  exact mixDims_contr w X Y  n l d

theorem mixDims_dot {B L R D : ℕ} {φ₁ φ₂ : FTy} (w : DotDims.WF ⟨3, ![B, L, R]⟩ ⟨3, ![B, R, D]⟩ ⟨3, ![B, L, D]⟩ [2] [1] [1] [2] [0] [0])
    (prec : Option ContractPrecision) (X : FVec Ideal ⟨3, ![B, L, R]⟩ φ₁) (Y : FVec Ideal ⟨3, ![B, R, D]⟩ φ₂) (n : Fin B) (l : Fin L) (d : Fin D) :
    Host.dotGeneral (mixDims w) prec X Y (ix3 n l d)
      = ∑ k : Fin R, X (ix3 n l k) * Y (ix3 n k d) := by
  simp only [Host.dotGeneral]
  rw [Ideal.dotGeneral_apply]
  exact mixDims_contr w X Y  n l d

/-- Contract the middle axes: out (n, r, d) = ∑ k, X (n, k, r) · Y (n, k, d). -/
abbrev mixTDims {B L R D : ℕ} (w : DotDims.WF ⟨3, ![B, L, R]⟩ ⟨3, ![B, L, D]⟩ ⟨3, ![B, R, D]⟩ [1] [1] [2] [2] [0] [0]) :
    DotDims ⟨3, ![B, L, R]⟩ ⟨3, ![B, L, D]⟩ ⟨3, ![B, R, D]⟩ := ⟨[1], [1], [2], [2], [0], [0], w⟩

theorem mixTDims_contr {B L R D : ℕ} (w : DotDims.WF ⟨3, ![B, L, R]⟩ ⟨3, ![B, L, D]⟩ ⟨3, ![B, R, D]⟩ [1] [1] [2] [2] [0] [0])
    (f : (⟨3, ![B, L, R]⟩ : Shape).Idx → EReal) (g : (⟨3, ![B, L, D]⟩ : Shape).Idx → EReal) (n : Fin B) (r : Fin R) (d : Fin D) :
    ∑ k : (mixTDims w).contr.Idx, f ((mixTDims w).lhsIdx (ix3 n r d) k) * g ((mixTDims w).rhsIdx (ix3 n r d) k)
      = ∑ k : Fin L, f (ix3 n k r) * g (ix3 n k d) := by
  rw [← Equiv.sum_comp (contrEquiv1 (mixTDims w) L rfl rfl).symm]
  refine Finset.sum_congr rfl fun k _ => ?_
  have c2 := contrEquiv1_symm_val (mixTDims w) L rfl rfl k
  have l2 : (mixTDims w).lhsIdx (ix3 n r d) ((contrEquiv1 _ L rfl rfl).symm k) = ix3 n k r := by
    funext ax; apply Fin.ext
    match ax with
    | ⟨0, _⟩ => first | rfl | (simp [DotDims.lhsIdx, DotDims.rhsIdx]; done) | (simp [DotDims.lhsIdx, DotDims.rhsIdx]; rfl)
    | ⟨1, _⟩ => first | exact c2 | (simp [DotDims.lhsIdx, DotDims.rhsIdx]; exact c2)
    | ⟨2, _⟩ => first | rfl | (simp [DotDims.lhsIdx, DotDims.rhsIdx]; done) | (simp [DotDims.lhsIdx, DotDims.rhsIdx]; rfl)
  have r2 : (mixTDims w).rhsIdx (ix3 n r d) ((contrEquiv1 _ L rfl rfl).symm k) = ix3 n k d := by
    funext ax; apply Fin.ext
    match ax with
    | ⟨0, _⟩ => first | rfl | (simp [DotDims.lhsIdx, DotDims.rhsIdx]; done) | (simp [DotDims.lhsIdx, DotDims.rhsIdx]; rfl)
    | ⟨1, _⟩ => first | exact c2 | (simp [DotDims.lhsIdx, DotDims.rhsIdx]; exact c2)
    | ⟨2, _⟩ => first | rfl | (simp [DotDims.lhsIdx, DotDims.rhsIdx]; done) | (simp [DotDims.lhsIdx, DotDims.rhsIdx]; rfl)
  rw [l2, r2]

theorem mixTDims_matmul {B L R D : ℕ} {φ₁ φ₂ : FTy} (w : DotDims.WF ⟨3, ![B, L, R]⟩ ⟨3, ![B, L, D]⟩ ⟨3, ![B, R, D]⟩ [1] [1] [2] [2] [0] [0])
    (prec : Option ContractPrecision) (X : FVec Ideal ⟨3, ![B, L, R]⟩ φ₁) (Y : FVec Ideal ⟨3, ![B, L, D]⟩ φ₂) (n : Fin B) (r : Fin R) (d : Fin D) :
    matmul (mixTDims w) prec X Y (constant ⟨3, ![B, R, D]⟩ .f32 0x00000000#32) (ix3 n r d)
      = ∑ k : Fin L, X (ix3 n k r) * Y (ix3 n k d) := by
  show FloatOps.matmul _ prec X Y _ (ix3 n r d) = _
  rw [Ideal.matmul_constant_zero_apply]
  exact mixTDims_contr w X Y  n r d

theorem mixTDims_dot {B L R D : ℕ} {φ₁ φ₂ : FTy} (w : DotDims.WF ⟨3, ![B, L, R]⟩ ⟨3, ![B, L, D]⟩ ⟨3, ![B, R, D]⟩ [1] [1] [2] [2] [0] [0])
    (prec : Option ContractPrecision) (X : FVec Ideal ⟨3, ![B, L, R]⟩ φ₁) (Y : FVec Ideal ⟨3, ![B, L, D]⟩ φ₂) (n : Fin B) (r : Fin R) (d : Fin D) :
    Host.dotGeneral (mixTDims w) prec X Y (ix3 n r d)
      = ∑ k : Fin L, X (ix3 n k r) * Y (ix3 n k d) := by
  simp only [Host.dotGeneral]
  rw [Ideal.dotGeneral_apply]
  exact mixTDims_contr w X Y  n r d

/-- Contract X's last axis with a matrix's first: out (n, l, r) = ∑ k, X (n, l, k) · W (k, r). -/
abbrev projDims {B L R D : ℕ} (w : DotDims.WF ⟨3, ![B, L, D]⟩ ⟨2, ![D, R]⟩ ⟨3, ![B, L, R]⟩ [2] [0] [0, 1] [1] [] []) :
    DotDims ⟨3, ![B, L, D]⟩ ⟨2, ![D, R]⟩ ⟨3, ![B, L, R]⟩ := ⟨[2], [0], [0, 1], [1], [], [], w⟩

theorem projDims_contr {B L R D : ℕ} (w : DotDims.WF ⟨3, ![B, L, D]⟩ ⟨2, ![D, R]⟩ ⟨3, ![B, L, R]⟩ [2] [0] [0, 1] [1] [] [])
    (f : (⟨3, ![B, L, D]⟩ : Shape).Idx → EReal) (g : (⟨2, ![D, R]⟩ : Shape).Idx → EReal) (n : Fin B) (l : Fin L) (r : Fin R) :
    ∑ k : (projDims w).contr.Idx, f ((projDims w).lhsIdx (ix3 n l r) k) * g ((projDims w).rhsIdx (ix3 n l r) k)
      = ∑ k : Fin D, f (ix3 n l k) * g (ix2 k r) := by
  rw [← Equiv.sum_comp (contrEquiv1 (projDims w) D rfl rfl).symm]
  refine Finset.sum_congr rfl fun k _ => ?_
  have c2 := contrEquiv1_symm_val (projDims w) D rfl rfl k
  have l2 : (projDims w).lhsIdx (ix3 n l r) ((contrEquiv1 _ D rfl rfl).symm k) = ix3 n l k := by
    funext ax; apply Fin.ext
    match ax with
    | ⟨0, _⟩ => first | rfl | (simp [DotDims.lhsIdx, DotDims.rhsIdx]; done) | (simp [DotDims.lhsIdx, DotDims.rhsIdx]; rfl)
    | ⟨1, _⟩ => first | rfl | (simp [DotDims.lhsIdx, DotDims.rhsIdx]; done) | (simp [DotDims.lhsIdx, DotDims.rhsIdx]; rfl)
    | ⟨2, _⟩ => first | exact c2 | (simp [DotDims.lhsIdx, DotDims.rhsIdx]; exact c2)
  have r2 : (projDims w).rhsIdx (ix3 n l r) ((contrEquiv1 _ D rfl rfl).symm k) = ix2 k r := by
    funext ax; apply Fin.ext
    match ax with
    | ⟨0, _⟩ => first | exact c2 | (simp [DotDims.lhsIdx, DotDims.rhsIdx]; exact c2)
    | ⟨1, _⟩ => first | rfl | (simp [DotDims.lhsIdx, DotDims.rhsIdx]; done) | (simp [DotDims.lhsIdx, DotDims.rhsIdx]; rfl)
  rw [l2, r2]

theorem projDims_matmul {B L R D : ℕ} {φ₁ φ₂ : FTy} (w : DotDims.WF ⟨3, ![B, L, D]⟩ ⟨2, ![D, R]⟩ ⟨3, ![B, L, R]⟩ [2] [0] [0, 1] [1] [] [])
    (prec : Option ContractPrecision) (X : FVec Ideal ⟨3, ![B, L, D]⟩ φ₁) (Y : FVec Ideal ⟨2, ![D, R]⟩ φ₂) (n : Fin B) (l : Fin L) (r : Fin R) :
    matmul (projDims w) prec X Y (constant ⟨3, ![B, L, R]⟩ .f32 0x00000000#32) (ix3 n l r)
      = ∑ k : Fin D, X (ix3 n l k) * Y (ix2 k r) := by
  show FloatOps.matmul _ prec X Y _ (ix3 n l r) = _
  rw [Ideal.matmul_constant_zero_apply]
  exact projDims_contr w X Y  n l r

theorem projDims_dot {B L R D : ℕ} {φ₁ φ₂ : FTy} (w : DotDims.WF ⟨3, ![B, L, D]⟩ ⟨2, ![D, R]⟩ ⟨3, ![B, L, R]⟩ [2] [0] [0, 1] [1] [] [])
    (prec : Option ContractPrecision) (X : FVec Ideal ⟨3, ![B, L, D]⟩ φ₁) (Y : FVec Ideal ⟨2, ![D, R]⟩ φ₂) (n : Fin B) (l : Fin L) (r : Fin R) :
    Host.dotGeneral (projDims w) prec X Y (ix3 n l r)
      = ∑ k : Fin D, X (ix3 n l k) * Y (ix2 k r) := by
  simp only [Host.dotGeneral]
  rw [Ideal.dotGeneral_apply]
  exact projDims_contr w X Y  n l r

end Cert.LibDot3

end
-- ==== Proof.K2Pay.lean ====
/-
  The attention kernel's arithmetic on one block of eight batch rows, read at an index.

  From the two blocks of unit feature rows p (words) and q (regions) the kernel forms E = exp (9 · leaky (p qᵀ)),
  normalises E along the regions (a softmax along r) and takes the weighted sum of q's rows, and takes the cosine of
  that sum with p's row: the first relevance array.  It normalises E along the words (a softmax along l), takes the
  weighted sum of p's rows, and takes the cosine of that sum with q's row: the second relevance array.
-/
import proofs.«150999_j3109556323149_2_alg».proof.Proof.Gen.KernelIdeal.Skeleton
import proofs.«150999_j3109556323149_2_alg».proof.Proof.Spec
import proofs.«150999_j3109556323149_2_alg».proof.Proof.LibOps3
import proofs.«150999_j3109556323149_2_alg».proof.Proof.LibDot3
import proofs.«150999_j3109556323149_2_alg».proof.Proof.LibLayout3

noncomputable section

open scoped BigOperators

namespace Cert.KernelIdeal.Pay2

open Cert.KernelIdeal Cert.KernelIdeal.Gen Idealize.ShloMosaic Idealize.ShloMosaic.ValueIdx

/-- The two identity casts of the loaded blocks. -/
theorem pay2_eq (v0 : Vec Ideal S8x512x256 .bf16) : k2_pay2 (F := Ideal) v0 = v0 :=
  shapeCast_self _ _

theorem pay3_eq (v2 : Vec Ideal S8x512x256 .bf16) : k2_pay3 (F := Ideal) v2 = v2 :=
  shapeCast_self _ _

/-- The product of the feature rows: entry (n, l, r) is the inner product of p's row (n, l) and q's row (n, r). -/
theorem sim_apply (v0 v2 : Vec Ideal S8x512x256 .bf16) (n : Fin 8) (l r : Fin 512) :
    matmul (F := Ideal) dot_S8x512x256_S8x512x256_S8x512x512_2_2_1_1_0_0 none (k2_pay2 v0) (k2_pay3 v2)
        (constant S8x512x512 .f32 0x00000000#32) (ix3 n l r)
      = Attn.sim (Attn.cur3 v0) (Attn.cur3 v2) n l r := by
  rw [pay2_eq, pay3_eq]
  exact Cert.LibDot3.simDims_matmul dot_S8x512x256_S8x512x256_S8x512x512_2_2_1_1_0_0.wf none v0 v2 n l r

/-- E at (n, l, r): the exponential of the scaled leaky score. -/
theorem pay4_apply (v0 v2 : Vec Ideal S8x512x256 .bf16) (n : Fin 8) (l r : Fin 512) :
    k2_pay4 (F := Ideal) v0 v2 (ix3 n l r) = Ideal.exp (Attn.scoreGt (Attn.cur3 v0) (Attn.cur3 v2) n l r) := by
  have hM := sim_apply v0 v2 n l r
  generalize hm : matmul (F := Ideal) dot_S8x512x256_S8x512x256_S8x512x512_2_2_1_1_0_0 none (k2_pay2 v0) (k2_pay3 v2)
        (constant S8x512x512 .f32 0x00000000#32) = M at hM
  have hE : k2_pay4 (F := Ideal) v0 v2 (ix3 n l r)
      = Ideal.exp (Attn.lam * Scalar.select (Ideal.cmp .ogt (M (ix3 n l r)) (Ideal.ofBits .f32 0x00000000#32))
          (M (ix3 n l r)) (Attn.slope * M (ix3 n l r))) := by
    rw [← hm]; rfl
  rw [hE, hM, Ideal.ofBits_zero_f32]
  rfl

/-- E divided by its sums along the last axis: at (n, l, r), E over the sum of E's row (n, l, ·). -/
theorem rowNorm_apply (E : FVec Ideal S8x512x512 .f32) (n : Fin 8) (l r : Fin 512) :
    (truncf .bf16 (divf E (broadcastTo S8x512x512 (shapeCast S8x512x1
        (multiReduction .add [2] S8x512 E 0x00000000#32 reduces_S8x512x512_S8x512 (.inl rfl) rfl)
        shapeCasts_S8x512_S8x512x1) broadcasts_S8x512x1_S8x512x512)) bitsLt_bf16_f32 : FVec Ideal S8x512x512 .bf16) (ix3 n l r)
      = Ideal.div (E (ix3 n l r)) (∑ k : Fin 512, E (ix3 n l k)) := by
  show Ideal.div (E (ix3 n l r)) _ = Ideal.div (E (ix3 n l r)) _
  refine congrArg (Ideal.div (E (ix3 n l r))) ?_
  refine (Cert.LibLayout3.broadcastTo_ab1_abc_apply _ _ n l r).trans ?_
  refine (Cert.LibLayout3.shapeCast_ab_ab1_apply _ _ n l 0).trans ?_
  exact Cert.LibOps3.sum_axis2_apply E _ _ _ _ n l

/-- E divided by its sums along the middle axis: at (n, l, r), E over the sum of E's column (n, ·, r). -/
theorem colNorm_apply (E : FVec Ideal S8x512x512 .f32) (n : Fin 8) (l r : Fin 512) :
    (truncf .bf16 (divf E (broadcastTo S8x512x512 (shapeCast S8x1x512
        (multiReduction .add [1] S8x512 E 0x00000000#32 reduces_S8x512x512_S8x512_2 (.inl rfl) rfl)
        shapeCasts_S8x512_S8x1x512) broadcasts_S8x1x512_S8x512x512)) bitsLt_bf16_f32 : FVec Ideal S8x512x512 .bf16) (ix3 n l r)
      = Ideal.div (E (ix3 n l r)) (∑ k : Fin 512, E (ix3 n k r)) := by
  show Ideal.div (E (ix3 n l r)) _ = Ideal.div (E (ix3 n l r)) _
  refine congrArg (Ideal.div (E (ix3 n l r))) ?_
  refine (Cert.LibLayout3.broadcastTo_a1c_abc_apply _ _ n l r).trans ?_
  refine (Cert.LibLayout3.shapeCast_ac_a1c_apply _ _ n 0 r).trans ?_
  exact Cert.LibOps3.sum_axis1_apply E _ _ _ _ n r

/-- The cosine of two arrays' rows, as the kernel forms it: the sum of products over the product of the two
    root sums of squares plus ε. -/
theorem cos_apply (u v : FVec Ideal S8x512x256 .f32) (n : Fin 8) (l : Fin 512) :
    divf (multiReduction .add [2] S8x512 (mulf u v) 0x00000000#32 reduces_S8x512x256_S8x512 (.inl rfl) rfl)
        (addf (mulf (sqrt (multiReduction .add [2] S8x512 (mulf u u) 0x00000000#32 reduces_S8x512x256_S8x512 (.inl rfl) rfl))
                    (sqrt (multiReduction .add [2] S8x512 (mulf v v) 0x00000000#32 reduces_S8x512x256_S8x512 (.inl rfl) rfl)))
              (broadcast S8x512 (Scalar.ofBits (F := Ideal) .f32 0x322BCC77#32))) (ix2 n l)
      = Attn.cosv (Attn.cur3 u) (Attn.cur3 v) n l := by
  have h : ∀ w : FVec Ideal S8x512x256 .f32,
      multiReduction .add [2] S8x512 w 0x00000000#32 reduces_S8x512x256_S8x512 (.inl rfl) rfl (ix2 n l)
        = ∑ d : Fin 256, w (ix3 n l d) :=
    fun w => Cert.LibOps3.sum_axis2_apply w _ _ _ _ n l
  show Ideal.div (multiReduction .add [2] S8x512 (mulf u v) 0x00000000#32 reduces_S8x512x256_S8x512 (.inl rfl) rfl (ix2 n l))
      (Ideal.sqrt (multiReduction .add [2] S8x512 (mulf u u) 0x00000000#32 reduces_S8x512x256_S8x512 (.inl rfl) rfl (ix2 n l))
        * Ideal.sqrt (multiReduction .add [2] S8x512 (mulf v v) 0x00000000#32 reduces_S8x512x256_S8x512 (.inl rfl) rfl (ix2 n l))
        + Attn.eps) = _
  rw [h, h, h]
  rfl

/-- The softmax along the regions, as the kernel forms it from E. -/
theorem soft1_apply (v0 v2 : Vec Ideal S8x512x256 .bf16) (n : Fin 8) (l r : Fin 512) :
    (truncf .bf16 (divf (k2_pay4 (F := Ideal) v0 v2) (broadcastTo S8x512x512 (shapeCast S8x512x1
        (multiReduction .add [2] S8x512 (k2_pay4 (F := Ideal) v0 v2) 0x00000000#32 reduces_S8x512x512_S8x512 (.inl rfl) rfl)
        shapeCasts_S8x512_S8x512x1) broadcasts_S8x512x1_S8x512x512)) bitsLt_bf16_f32 : FVec Ideal S8x512x512 .bf16) (ix3 n l r)
      = Attn.soft1 (Attn.scoreGt (Attn.cur3 v0) (Attn.cur3 v2)) n l r := by
  refine (rowNorm_apply (k2_pay4 (F := Ideal) v0 v2) n l r).trans ?_
  rw [pay4_apply, Finset.sum_congr rfl (fun k _ => pay4_apply v0 v2 n l k)]
  rfl

/-- The softmax along the words, as the kernel forms it from E. -/
theorem pay6_apply (v0 v2 : Vec Ideal S8x512x256 .bf16) (n : Fin 8) (l r : Fin 512) :
    k2_pay6 (F := Ideal) v0 v2 (ix3 n l r) = Attn.soft2 (Attn.scoreGt (Attn.cur3 v0) (Attn.cur3 v2)) n l r := by
  unfold k2_pay6
  refine (colNorm_apply (k2_pay4 (F := Ideal) v0 v2) n l r).trans ?_
  rw [pay4_apply, Finset.sum_congr rfl (fun k _ => pay4_apply v0 v2 n k r)]
  rfl

/-- The sum of q's rows weighted by the softmax along the regions. -/
theorem att1_eq (v0 v2 : Vec Ideal S8x512x256 .bf16) :
    Attn.cur3 (matmul (F := Ideal) dot_S8x512x512_S8x512x256_S8x512x256_2_1_1_2_0_0 none
      (truncf .bf16 (divf (k2_pay4 (F := Ideal) v0 v2) (broadcastTo S8x512x512 (shapeCast S8x512x1
        (multiReduction .add [2] S8x512 (k2_pay4 (F := Ideal) v0 v2) 0x00000000#32 reduces_S8x512x512_S8x512 (.inl rfl) rfl)
        shapeCasts_S8x512_S8x512x1) broadcasts_S8x512x1_S8x512x512)) bitsLt_bf16_f32 : FVec Ideal S8x512x512 .bf16)
      (k2_pay3 v2) (constant S8x512x256 .f32 0x00000000#32))
      = Attn.att1 (Attn.soft1 (Attn.scoreGt (Attn.cur3 v0) (Attn.cur3 v2))) (Attn.cur3 v2) := by
  funext n l d
  refine (Cert.LibDot3.mixDims_matmul dot_S8x512x512_S8x512x256_S8x512x256_2_1_1_2_0_0.wf none _ _ n l d).trans ?_
  refine Finset.sum_congr rfl fun k _ => ?_
  refine congrArg₂ (· * ·) (soft1_apply v0 v2 n l k) ?_
  rw [pay3_eq]
  rfl

/-- The sum of p's rows weighted by the softmax along the words. -/
theorem att2_eq (v0 v2 : Vec Ideal S8x512x256 .bf16) :
    Attn.cur3 (matmul (F := Ideal) dot_S8x512x512_S8x512x256_S8x512x256_1_1_2_2_0_0 none
      (k2_pay6 (F := Ideal) v0 v2) (k2_pay2 v0) (constant S8x512x256 .f32 0x00000000#32))
      = Attn.att2 (Attn.soft2 (Attn.scoreGt (Attn.cur3 v0) (Attn.cur3 v2))) (Attn.cur3 v0) := by
  funext n r d
  refine (Cert.LibDot3.mixTDims_matmul dot_S8x512x512_S8x512x256_S8x512x256_1_1_2_2_0_0.wf none _ _ n r d).trans ?_
  refine Finset.sum_congr rfl fun k _ => ?_
  refine congrArg₂ (· * ·) (pay6_apply v0 v2 n k r) ?_
  rw [pay2_eq]
  rfl

/-- The first output: the cosine of p's rows with the region-weighted sums. -/
theorem pay5_eq (v0 v2 : Vec Ideal S8x512x256 .bf16) :
    k2_pay5 (F := Ideal) v0 v2 = Attn.arr2 (Attn.relK1 (Attn.cur3 v0) (Attn.cur3 v2)) := by
  funext j
  obtain ⟨n, l, rfl⟩ : ∃ (n : Fin 8) (l : Fin 512), j = ix2 n l := ⟨j 0, j 1, eq_ix2 j⟩
  have hp : Attn.cur3 (extf (F := Ideal) .f32 (k2_pay2 v0) bitsLt_bf16_f32) = Attn.cur3 v0 := by
    rw [pay2_eq]; rfl
  unfold k2_pay5
  refine (cos_apply _ _ n l).trans ?_
  exact congrArg₂ (fun a b => Attn.cosv a b n l) hp (att1_eq v0 v2)

/-- The second output: the cosine of the word-weighted sums with q's rows. -/
theorem pay1_eq (v0 v2 : Vec Ideal S8x512x256 .bf16) :
    k2_pay1 (F := Ideal) (k2_pay2 v0) (k2_pay3 v2) (k2_pay6 v0 v2) (constant S8x512x256 .f32 0x00000000#32)
      = Attn.arr2 (Attn.relK2 (Attn.cur3 v0) (Attn.cur3 v2)) := by
  funext j
  obtain ⟨n, l, rfl⟩ : ∃ (n : Fin 8) (l : Fin 512), j = ix2 n l := ⟨j 0, j 1, eq_ix2 j⟩
  have hq : Attn.cur3 (extf (F := Ideal) .f32 (k2_pay3 v2) bitsLt_bf16_f32) = Attn.cur3 v2 := by
    rw [pay3_eq]; rfl
  unfold k2_pay1
  refine (cos_apply _ _ n l).trans ?_
  exact congrArg₂ (fun a b => Attn.cosv a b n l) (att2_eq v0 v2) hq

end Cert.KernelIdeal.Pay2

end
-- ==== Proof.KValue.lean ====
/-
  The kernel program's result as one function of its six arguments.

  Walking back from the result: the closing host operations take the mean over the 512 positions of each of the two
  relevance arrays and add the two means; the relevance arrays are what the attention kernel leaves, `relK1` and
  `relK2` of the two feature arrays it finds; those are what the two feature kernels left, `feat` of an input, a weight
  matrix and a bias row; and the inputs, weights and biases are the arguments as launched (the bias rows through a
  reshape `[256] → [1, 256]`).  Nothing else writes any of these buffers in between.
-/
import proofs.«150999_j3109556323149_2_alg».proof.Proof.KRun
import proofs.«150999_j3109556323149_2_alg».proof.Proof.K0Value
import proofs.«150999_j3109556323149_2_alg».proof.Proof.K1Value
import proofs.«150999_j3109556323149_2_alg».proof.Proof.K2Value
import proofs.«150999_j3109556323149_2_alg».proof.Proof.K01Pay
import proofs.«150999_j3109556323149_2_alg».proof.Proof.K2Pay
import proofs.«150999_j3109556323149_2_alg».proof.Proof.LibGram
import proofs.«150999_j3109556323149_2_alg».proof.Proof.LibLayout3
import Idealize.ShloMosaic.Lib.StableHlo.Run
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx Idealize.ShloMosaic.StableHlo

/-! ## The closing host operations -/

/-- The mean over the 512 positions, as the host computes it. -/
def meanH {F : FTy → Type} [FloatOps F] (x : FVec F S128x512 .f32) : FVec F S128 .f32 :=
  Host.divf (Host.reduceAdd x (constant S_ .f32 0x00000000#32) reducesTo_S128x512_S128_d1 h_S_)
    (broadcastInDim S128 ![] bcast_S_S128 (constant S_ .f32 0x44000000#32))

theorem meanH_apply (x : FVec Ideal S128x512 .f32) (n : Fin 128) :
    meanH (F := Ideal) x (ix1 n) = Attn.mean (Attn.cur2 x) n := by
  unfold meanH
  show Ideal.div (Host.reduceAdd (F := Ideal) x (constant S_ .f32 0x00000000#32) reducesTo_S128x512_S128_d1 h_S_ (ix1 n))
      (broadcastInDim S128 ![] bcast_S_S128 (constant (F := Ideal) S_ .f32 0x44000000#32) (ix1 n)) = _
  rw [Cert.LibGram.hostLaneSum_apply x _ reducesTo_S128x512_S128_d1 (by decide) h_S_ n, Cert.LibLayout3.bcast_scalar_apply]
  show Ideal.div (Ideal.ofBits .f32 0x00000000#32 + _) (Ideal.ofBits .f32 0x44000000#32) = _
  rw [Ideal.ofBits_zero_f32, zero_add]
  rfl

variable (m : (ℓ : Loc nD τ sig) → Buf (Elt Ideal) ℓ) (ρ : Dev nD → PrngReg)

/-- The result buffer after the closing host operations: the two means, added. -/
theorem W5_v11 (c : Dev nD) :
    (W5 m ρ c (Proc.devRef .tc main_v11) : S128.Idx → EReal)
      = (addf (meanH (F := Ideal) (W4 m ρ c (Proc.devRef .tc main_v4_0) : S128x512.Idx → EReal))
          (meanH (F := Ideal) (W4 m ρ c (Proc.devRef .tc main_v4_1) : S128x512.Idx → EReal)) : S128.Idx → EReal) := by
  show StableHlo.after hostOps3 (W4 m ρ c) (Proc.devRef .tc main_v11) = _
  unfold meanH
  after_results

/-! ## The arguments as the regions find them -/

theorem V1_arg0 (c : Dev nD) : (V1 m ρ c main_arg0 : S128x512x300.Idx → EReal) = m ((c.tc : Thread nD τ).loc main_arg0) := by
  show StableHlo.after hostOps0 (W0 m ρ c) (Proc.devRef .tc main_arg0) = _
  after_results

theorem V1_arg2 (c : Dev nD) : (V1 m ρ c main_arg2 : S300x256.Idx → EReal) = m ((c.tc : Thread nD τ).loc main_arg2) := by
  show StableHlo.after hostOps0 (W0 m ρ c) (Proc.devRef .tc main_arg2) = _
  after_results

theorem V1_v0 (c : Dev nD) : (V1 m ρ c main_v0 : S1x256.Idx → EReal)
    = shapeCast S1x256 (m ((c.tc : Thread nD τ).loc main_arg3) : S256.Idx → EReal) shapeCasts_S256_S1x256 := by
  show StableHlo.after hostOps0 (W0 m ρ c) (Proc.devRef .tc main_v0) = _
  after_results
  rfl

theorem V2_arg1 (c : Dev nD) : (V2 m ρ c main_arg1 : S128x512x1024.Idx → EReal) = m ((c.tc : Thread nD τ).loc main_arg1) := by
  show W2 m ρ c (Proc.devRef .tc main_arg1) = _
  rw [W2_of_ne m ρ c main_arg1 (by decide)]
  show StableHlo.after hostOps0 (W0 m ρ c) (Proc.devRef .tc main_arg1) = _
  after_results

theorem V2_arg4 (c : Dev nD) : (V2 m ρ c main_arg4 : S1024x256.Idx → EReal) = m ((c.tc : Thread nD τ).loc main_arg4) := by
  show W2 m ρ c (Proc.devRef .tc main_arg4) = _
  rw [W2_of_ne m ρ c main_arg4 (by decide)]
  show StableHlo.after hostOps0 (W0 m ρ c) (Proc.devRef .tc main_arg4) = _
  after_results

theorem V2_v1 (c : Dev nD) : (V2 m ρ c main_v1 : S1x256.Idx → EReal)
    = shapeCast S1x256 (m ((c.tc : Thread nD τ).loc main_arg5) : S256.Idx → EReal) shapeCasts_S256_S1x256 := by
  show W2 m ρ c (Proc.devRef .tc main_v1) = _
  rw [W2_of_ne m ρ c main_v1 (by decide)]
  show StableHlo.after hostOps0 (W0 m ρ c) (Proc.devRef .tc main_v1) = _
  after_results
  rfl

/-- A bias vector reshaped to a row reads, at `(0, d)`, its entry `d`. -/
theorem biasRow (b : S256.Idx → EReal) : (fun d : Fin 256 => shapeCast S1x256 b shapeCasts_S256_S1x256 (ix2 (0 : Fin 1) d)) = Attn.cur1 b :=
  funext fun d => shapeCast_a_1a_apply b shapeCasts_S256_S1x256 (0 : Fin 1) d

/-! ## The feature arrays the attention kernel finds -/

/-- The text features: what region 0 left, untouched by region 1. -/
theorem V3_v2 (c : Dev nD) : (V3 m ρ c main_v2 : S128x512x256.Idx → EReal)
    = Attn.arr3 (Attn.feat (Attn.cur3 (m ((c.tc : Thread nD τ).loc main_arg0) : S128x512x300.Idx → EReal))
        (Attn.cur2 (m ((c.tc : Thread nD τ).loc main_arg2) : S300x256.Idx → EReal))
        (Attn.cur1 (m ((c.tc : Thread nD τ).loc main_arg3) : S256.Idx → EReal))) := by
  show W3 m ρ c (Proc.devRef .tc main_v2) = _
  rw [W3_of_ne m ρ c main_v2 (by decide)]
  refine (W2_arr m ρ c 3).trans ?_
  rw [Val0.final (V1 m ρ) Pay01.pay0_eq c]
  unfold Val0.G0
  rw [V1_arg0, V1_arg2, V1_v0, biasRow]

/-- The image features: what region 1 left. -/
theorem V3_v3 (c : Dev nD) : (V3 m ρ c main_v3 : S128x512x256.Idx → EReal)
    = Attn.arr3 (Attn.feat (Attn.cur3 (m ((c.tc : Thread nD τ).loc main_arg1) : S128x512x1024.Idx → EReal))
        (Attn.cur2 (m ((c.tc : Thread nD τ).loc main_arg4) : S1024x256.Idx → EReal))
        (Attn.cur1 (m ((c.tc : Thread nD τ).loc main_arg5) : S256.Idx → EReal))) := by
  refine (W3_arr m ρ c 3).trans ?_
  rw [Val1.final (V2 m ρ) Pay01.pay1_eq c]
  unfold Val1.G1
  rw [V2_arg1, V2_arg4, V2_v1, biasRow]

/-! ## The result -/

/-- The result buffer at the last boundary is the specification's `GK` of the six arguments as launched. -/
theorem result_eq (c : Dev nD) : (W5 m ρ c (Proc.devRef .tc main_v11) : S128.Idx → EReal)
    = Attn.GK (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  rw [W5_v11]
  have ha : (W4 m ρ c (Proc.devRef .tc main_v4_0) : S128x512.Idx → EReal) = Val2.Ga (V3 m ρ) c :=
    (W4_arr m ρ c 2).trans (Val2.final_a (V3 m ρ) Pay2.pay5_eq c)
  have hb : (W4 m ρ c (Proc.devRef .tc main_v4_1) : S128x512.Idx → EReal) = Val2.Gb (V3 m ρ) c :=
    (W4_arr m ρ c 3).trans (Val2.final_b (V3 m ρ) Pay2.pay1_eq c)
  rw [ha, hb]
  unfold Val2.Ga Val2.Gb
  rw [V3_v2, V3_v3]
  funext j
  obtain ⟨n, rfl⟩ : ∃ n : Fin 128, j = ix1 n := ⟨j 0, eq_ix1 j⟩
  show meanH (F := Ideal) _ (ix1 n) + meanH (F := Ideal) _ (ix1 n) = _
  rw [meanH_apply, meanH_apply]
  simp only [Attn.cur2_arr2, Attn.cur3_arr3]
  rfl

/-- Every weakly fair execution of the kernel program terminates, nothing faulting, with the result at `GK` of the
    arguments and the arguments unchanged. -/
theorem run : θ_run defs (onTc (τ := τ) (main (F := Ideal))) ⟨m, fun _ => 0, ρ⟩ (fun r => ∀ c : Dev nD,
      r.2.mem ((c.tc : Thread nD τ).loc main_v11)
        = Attn.GK (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Named.run (F := Ideal) m ρ)

end Cert.KernelIdeal.Val

end
-- ==== Proof.RefStages.lean ====
/-
  The reference's operations, grouped by what they compute, as pure functions of arrays (at any float instance).

  `normK x` and `norm0 x` are √(∑ x²) along the feature axis (with and without the kept unit axis); `l2 y` divides
  `y` by its norm plus ε; `featT` / `featI` are the two projections followed by `l2`; `score p q` is 9 · leaky_relu of the
  batched products p·qᵀ; `smax1` / `smax2` are the softmax along the region axis and along the word axis, each with
  the maximum subtracted; `cosv u v` is the cosine with ε in the denominator; `rel1` / `rel2` the two relevance
  arrays; `mean` the mean over the 512 positions; `out` the result.
-/
import proofs.«150999_j3109556323149_2_alg».proof.Proof.Gen.ReferenceIdeal

noncomputable section

namespace Cert.ReferenceIdeal.Stages

open Cert.ReferenceIdeal Cert.ReferenceIdeal.Gen Idealize.ShloMosaic

variable {F : FTy → Type} [FloatOps F]

def sumsq (x : FVec F S128x512x256 .f32) : FVec F S128x512 .f32 :=
  Host.reduceAdd (mulf x x) (constant S_ .f32 0x00000000#32) reducesTo_S128x512x256_S128x512_d2 h_S_

def normK (x : FVec F S128x512x256 .f32) : FVec F S128x512x1 .f32 :=
  Host.sqrt (broadcastInDim S128x512x1 ![0, 1] bcast_S128x512_S128x512x1_0_1 (sumsq x))

def norm0 (x : FVec F S128x512x256 .f32) : FVec F S128x512 .f32 := Host.sqrt (sumsq x)

def l2 (y : FVec F S128x512x256 .f32) : FVec F S128x512x256 .f32 :=
  Host.divf y (broadcastInDim S128x512x256 ![0, 1, 2] bcast_S128x512x1_S128x512x256_0_1_2
    (addf (normK y) (broadcastInDim S128x512x1 ![] bcast_S_S128x512x1 (constant S_ .f32 0x322BCC77#32))))

def bias3 (b : FVec F S256 .f32) : FVec F S128x512x256 .f32 :=
  broadcastInDim S128x512x256 ![0, 1, 2] bcast_S1x1x256_S128x512x256_0_1_2
    (broadcastInDim S1x1x256 ![2] bcast_S256_S1x1x256_2 b)

def featT (x : FVec F S128x512x300 .f32) (W : FVec F S300x256 .f32) (b : FVec F S256 .f32) : FVec F S128x512x256 .f32 :=
  l2 (addf (Host.dotGeneral dot_S128x512x300_S300x256_S128x512x256_2_0_01_1_n_n none x W) (bias3 b))

def featI (x : FVec F S128x512x1024 .f32) (W : FVec F S1024x256 .f32) (b : FVec F S256 .f32) : FVec F S128x512x256 .f32 :=
  l2 (addf (Host.dotGeneral dot_S128x512x1024_S1024x256_S128x512x256_2_0_01_1_n_n none x W) (bias3 b))

def leaky (a : FVec F S128x512x512 .f32) : FVec F S128x512x512 .f32 :=
  select (cmpf .oge a (broadcastInDim S128x512x512 ![] bcast_S_S128x512x512 (constant S_ .f32 0x00000000#32))) a
    (mulf (broadcastInDim S128x512x512 ![] bcast_S_S128x512x512 (constant S_ .f32 0x3DCCCCCD#32)) a)

def score (p q : FVec F S128x512x256 .f32) : FVec F S128x512x512 .f32 :=
  mulf (broadcastInDim S128x512x512 ![] bcast_S_S128x512x512 (constant S_ .f32 0x41100000#32))
    (leaky (Host.dotGeneral dot_S128x512x256_S128x512x256_S128x512x512_2_2_1_1_0_0 none p q))

/-- Softmax along the last axis (the image regions), the row maximum subtracted. -/
def smax1 (z : FVec F S128x512x512 .f32) : FVec F S128x512x512 .f32 :=
  let M : FVec F S128x512 .f32 := maximumf (broadcastInDim S128x512 ![] bcast_S_S128x512 (constant S_ .f32 0xFF800000#32))
    (Host.reduce FloatOps.maximumf z (constant S_ .f32 0xFF800000#32) reducesTo_S128x512x512_S128x512_d2 h_S_)
  let e : FVec F S128x512x512 .f32 := Host.exp (subf z (broadcastInDim S128x512x512 ![0, 1, 2] bcast_S128x512x1_S128x512x512_0_1_2
    (broadcastInDim S128x512x1 ![0, 1] bcast_S128x512_S128x512x1_0_1 M)))
  Host.divf e (broadcastInDim S128x512x512 ![0, 1, 2] bcast_S128x512x1_S128x512x512_0_1_2
    (broadcastInDim S128x512x1 ![0, 1] bcast_S128x512_S128x512x1_0_1
      (Host.reduceAdd e (constant S_ .f32 0x00000000#32) reducesTo_S128x512x512_S128x512_d2 h_S_)))

/-- Softmax along the middle axis (the words), the column maximum subtracted. -/
def smax2 (z : FVec F S128x512x512 .f32) : FVec F S128x512x512 .f32 :=
  let M : FVec F S128x512 .f32 := maximumf (broadcastInDim S128x512 ![] bcast_S_S128x512 (constant S_ .f32 0xFF800000#32))
    (Host.reduce FloatOps.maximumf z (constant S_ .f32 0xFF800000#32) reducesTo_S128x512x512_S128x512_d1 h_S_)
  let e : FVec F S128x512x512 .f32 := Host.exp (subf z (broadcastInDim S128x512x512 ![0, 1, 2] bcast_S128x1x512_S128x512x512_0_1_2
    (broadcastInDim S128x1x512 ![0, 2] bcast_S128x512_S128x1x512_0_2 M)))
  Host.divf e (broadcastInDim S128x512x512 ![0, 1, 2] bcast_S128x1x512_S128x512x512_0_1_2
    (broadcastInDim S128x1x512 ![0, 2] bcast_S128x512_S128x1x512_0_2
      (Host.reduceAdd e (constant S_ .f32 0x00000000#32) reducesTo_S128x512x512_S128x512_d1 h_S_)))

def cosv (u v : FVec F S128x512x256 .f32) : FVec F S128x512 .f32 :=
  Host.divf (Host.reduceAdd (mulf u v) (constant S_ .f32 0x00000000#32) reducesTo_S128x512x256_S128x512_d2 h_S_)
    (addf (mulf (norm0 u) (norm0 v)) (broadcastInDim S128x512 ![] bcast_S_S128x512 (constant S_ .f32 0x322BCC77#32)))

def rel1 (p q : FVec F S128x512x256 .f32) : FVec F S128x512 .f32 :=
  cosv p (Host.dotGeneral dot_S128x512x512_S128x512x256_S128x512x256_2_1_1_2_0_0 none (smax1 (score p q)) q)

def rel2 (p q : FVec F S128x512x256 .f32) : FVec F S128x512 .f32 :=
  cosv (Host.dotGeneral dot_S128x512x512_S128x512x256_S128x512x256_1_1_2_2_0_0 none (smax2 (score p q)) p) q

def mean (c : FVec F S128x512 .f32) : FVec F S128 .f32 :=
  Host.divf (Host.reduceAdd c (constant S_ .f32 0x00000000#32) reducesTo_S128x512_S128_d1 h_S_)
    (broadcastInDim S128 ![] bcast_S_S128 (constant S_ .f32 0x44000000#32))

/-- The reference's result as a function of its six arguments. -/
def out (text : FVec F S128x512x300 .f32) (image : FVec F S128x512x1024 .f32) (Wt : FVec F S300x256 .f32)
    (bt : FVec F S256 .f32) (Wi : FVec F S1024x256 .f32) (bi : FVec F S256 .f32) : FVec F S128 .f32 :=
  addf (mean (rel1 (featT text Wt bt) (featI image Wi bi))) (mean (rel2 (featT text Wt bt) (featI image Wi bi)))

end Cert.ReferenceIdeal.Stages

end
-- ==== Proof.RefRun.lean ====
/-
  The reference program's run. @main is a straight line of host operations once each call of a module-local
  function is replaced by the callee's body over that call's buffers (the two row norms with a kept unit axis, the
  leaky rectifier with its select, the four row norms): the operations are listed in order, @main is shown to be
  that line, and every weakly fair execution then ends with each buffer at the fold of the operations' results over
  the launch contents. At the result buffer that fold is the composed function `Stages.out` of the six arguments'
  launch contents; the arguments' buffers are written by no operation and keep their contents.
-/
import proofs.«150999_j3109556323149_2_alg».proof.Proof.RefStages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 116 operations in order, each call replaced by its callee's operations over the call's buffers:
    the row norm with a kept unit axis is five (square, zero, sum along the last axis, the unit axis put back, square
    root), the leaky rectifier seven (zero and its broadcast, the comparison, the slope's conversion and broadcast, the
    product, the select), the plain row norm four (square, zero, sum, square root). -/
abbrev ops : List (HloOp τ sig (Elt F)) :=
  [
    StableHlo.binary main_arg0 main_arg2 main_v0 ((fun l r => Host.dotGeneral dot_S128x512x300_S300x256_S128x512x256_2_0_01_1_n_n none l r) : (⟨S128x512x300, .f32⟩ : BufTy).Contents (Elt F) → (⟨S300x256, .f32⟩ : BufTy).Contents (Elt F) → (⟨S128x512x256, .f32⟩ : BufTy).Contents (Elt F)),
    StableHlo.unary main_arg3 main_v1 (broadcastInDim S1x1x256 ![2] bcast_S256_S1x1x256_2 : (⟨S256, .f32⟩ : BufTy).Contents (Elt F) → (⟨S1x1x256, .f32⟩ : BufTy).Contents (Elt F)),
    StableHlo.unary main_v1 main_v2 (broadcastInDim S128x512x256 ![0, 1, 2] bcast_S1x1x256_S128x512x256_0_1_2 : (⟨S1x1x256, .f32⟩ : BufTy).Contents (Elt F) → (⟨S128x512x256, .f32⟩ : BufTy).Contents (Elt F)),
    StableHlo.binary main_v0 main_v2 main_v3 (addf : (⟨S128x512x256, .f32⟩ : BufTy).Contents (Elt F) → (⟨S128x512x256, .f32⟩ : BufTy).Contents (Elt F) → (⟨S128x512x256, .f32⟩ : BufTy).Contents (Elt F)),
    StableHlo.TRef.binary (.of main_v3) (.of main_v3) main_call0.v0 mulf,
    StableHlo.TRef.nullary main_call0.cst (constant S_ .f32 0x00000000#32),
    StableHlo.TRef.binary main_call0.v0 main_call0.cst main_call0.v1 (fun x v => Host.reduceAdd x v reducesTo_S128x512x256_S128x512_d2 h_S_),
    StableHlo.TRef.unary main_call0.v1 main_call0.v2 (broadcastInDim S128x512x1 ![0, 1] bcast_S128x512_S128x512x1_0_1),
    StableHlo.TRef.unary main_call0.v2 main_call0.v3 Host.sqrt,
    StableHlo.nullary main_cst (constant S_ .f32 0x322BCC77#32),
    StableHlo.unary main_cst main_v5 (broadcastInDim S128x512x1 ![] bcast_S_S128x512x1 : (⟨S_, .f32⟩ : BufTy).Contents (Elt F) → (⟨S128x512x1, .f32⟩ : BufTy).Contents (Elt F)),
    StableHlo.binary main_v4 main_v5 main_v6 (addf : (⟨S128x512x1, .f32⟩ : BufTy).Contents (Elt F) → (⟨S128x512x1, .f32⟩ : BufTy).Contents (Elt F) → (⟨S128x512x1, .f32⟩ : BufTy).Contents (Elt F)),
    StableHlo.unary main_v6 main_v7 (broadcastInDim S128x512x256 ![0, 1, 2] bcast_S128x512x1_S128x512x256_0_1_2 : (⟨S128x512x1, .f32⟩ : BufTy).Contents (Elt F) → (⟨S128x512x256, .f32⟩ : BufTy).Contents (Elt F)),
    StableHlo.binary main_v3 main_v7 main_v8 (Host.divf : (⟨S128x512x256, .f32⟩ : BufTy).Contents (Elt F) → (⟨S128x512x256, .f32⟩ : BufTy).Contents (Elt F) → (⟨S128x512x256, .f32⟩ : BufTy).Contents (Elt F)),
    StableHlo.binary main_arg1 main_arg4 main_v9 ((fun l r => Host.dotGeneral dot_S128x512x1024_S1024x256_S128x512x256_2_0_01_1_n_n none l r) : (⟨S128x512x1024, .f32⟩ : BufTy).Contents (Elt F) → (⟨S1024x256, .f32⟩ : BufTy).Contents (Elt F) → (⟨S128x512x256, .f32⟩ : BufTy).Contents (Elt F)),
    StableHlo.unary main_arg5 main_v10 (broadcastInDim S1x1x256 ![2] bcast_S256_S1x1x256_2 : (⟨S256, .f32⟩ : BufTy).Contents (Elt F) → (⟨S1x1x256, .f32⟩ : BufTy).Contents (Elt F)),
    StableHlo.unary main_v10 main_v11 (broadcastInDim S128x512x256 ![0, 1, 2] bcast_S1x1x256_S128x512x256_0_1_2 : (⟨S1x1x256, .f32⟩ : BufTy).Contents (Elt F) → (⟨S128x512x256, .f32⟩ : BufTy).Contents (Elt F)),
    StableHlo.binary main_v9 main_v11 main_v12 (addf : (⟨S128x512x256, .f32⟩ : BufTy).Contents (Elt F) → (⟨S128x512x256, .f32⟩ : BufTy).Contents (Elt F) → (⟨S128x512x256, .f32⟩ : BufTy).Contents (Elt F)),
    StableHlo.TRef.binary (.of main_v12) (.of main_v12) main_call1.v0 mulf,
    StableHlo.TRef.nullary main_call1.cst (constant S_ .f32 0x00000000#32),
    StableHlo.TRef.binary main_call1.v0 main_call1.cst main_call1.v1 (fun x v => Host.reduceAdd x v reducesTo_S128x512x256_S128x512_d2 h_S_),
    StableHlo.TRef.unary main_call1.v1 main_call1.v2 (broadcastInDim S128x512x1 ![0, 1] bcast_S128x512_S128x512x1_0_1),
    StableHlo.TRef.unary main_call1.v2 main_call1.v3 Host.sqrt,
    StableHlo.nullary main_cst_0 (constant S_ .f32 0x322BCC77#32),
    StableHlo.unary main_cst_0 main_v14 (broadcastInDim S128x512x1 ![] bcast_S_S128x512x1 : (⟨S_, .f32⟩ : BufTy).Contents (Elt F) → (⟨S128x512x1, .f32⟩ : BufTy).Contents (Elt F)),
    StableHlo.binary main_v13 main_v14 main_v15 (addf : (⟨S128x512x1, .f32⟩ : BufTy).Contents (Elt F) → (⟨S128x512x1, .f32⟩ : BufTy).Contents (Elt F) → (⟨S128x512x1, .f32⟩ : BufTy).Contents (Elt F)),
    StableHlo.unary main_v15 main_v16 (broadcastInDim S128x512x256 ![0, 1, 2] bcast_S128x512x1_S128x512x256_0_1_2 : (⟨S128x512x1, .f32⟩ : BufTy).Contents (Elt F) → (⟨S128x512x256, .f32⟩ : BufTy).Contents (Elt F)),
    StableHlo.binary main_v12 main_v16 main_v17 (Host.divf : (⟨S128x512x256, .f32⟩ : BufTy).Contents (Elt F) → (⟨S128x512x256, .f32⟩ : BufTy).Contents (Elt F) → (⟨S128x512x256, .f32⟩ : BufTy).Contents (Elt F)),
    StableHlo.binary main_v8 main_v17 main_v18 ((fun l r => Host.dotGeneral dot_S128x512x256_S128x512x256_S128x512x512_2_2_1_1_0_0 none l r) : (⟨S128x512x256, .f32⟩ : BufTy).Contents (Elt F) → (⟨S128x512x256, .f32⟩ : BufTy).Contents (Elt F) → (⟨S128x512x512, .f32⟩ : BufTy).Contents (Elt F)),
    StableHlo.nullary main_cst_1 (constant S_ .f32 0x3DCCCCCD#32),
    StableHlo.TRef.nullary main_call2.cst (constant S_ .f32 0x00000000#32),
    StableHlo.TRef.unary main_call2.cst main_call2.v0 (broadcastInDim S128x512x512 ![] bcast_S_S128x512x512),
    StableHlo.TRef.binary (.of main_v18) main_call2.v0 main_call2.v1 (cmpf .oge),
    StableHlo.TRef.unary (.of main_cst_1) main_call2.v2 id,
    StableHlo.TRef.unary main_call2.v2 main_call2.v3 (broadcastInDim S128x512x512 ![] bcast_S_S128x512x512),
    StableHlo.TRef.binary main_call2.v3 (.of main_v18) main_call2.v4 mulf,
    StableHlo.TRef.ternary main_call2.v1 (.of main_v18) main_call2.v4 main_call2.call0.v0 select,
    StableHlo.nullary main_cst_2 (constant S_ .f32 0x41100000#32),
    StableHlo.unary main_cst_2 main_v20 (broadcastInDim S128x512x512 ![] bcast_S_S128x512x512 : (⟨S_, .f32⟩ : BufTy).Contents (Elt F) → (⟨S128x512x512, .f32⟩ : BufTy).Contents (Elt F)),
    StableHlo.binary main_v20 main_v19 main_v21 (mulf : (⟨S128x512x512, .f32⟩ : BufTy).Contents (Elt F) → (⟨S128x512x512, .f32⟩ : BufTy).Contents (Elt F) → (⟨S128x512x512, .f32⟩ : BufTy).Contents (Elt F)),
    StableHlo.nullary main_cst_3 (constant S_ .f32 0xFF800000#32),
    StableHlo.binary main_v21 main_cst_3 main_v22 ((fun x v => Host.reduce FloatOps.maximumf x v reducesTo_S128x512x512_S128x512_d2 h_S_) : (⟨S128x512x512, .f32⟩ : BufTy).Contents (Elt F) → (⟨S_, .f32⟩ : BufTy).Contents (Elt F) → (⟨S128x512, .f32⟩ : BufTy).Contents (Elt F)),
    StableHlo.nullary main_cst_4 (constant S_ .f32 0xFF800000#32),
    StableHlo.unary main_cst_4 main_v23 (broadcastInDim S128x512 ![] bcast_S_S128x512 : (⟨S_, .f32⟩ : BufTy).Contents (Elt F) → (⟨S128x512, .f32⟩ : BufTy).Contents (Elt F)),
    StableHlo.binary main_v23 main_v22 main_v24 (maximumf : (⟨S128x512, .f32⟩ : BufTy).Contents (Elt F) → (⟨S128x512, .f32⟩ : BufTy).Contents (Elt F) → (⟨S128x512, .f32⟩ : BufTy).Contents (Elt F)),
    StableHlo.unary main_v24 main_v25 (broadcastInDim S128x512x1 ![0, 1] bcast_S128x512_S128x512x1_0_1 : (⟨S128x512, .f32⟩ : BufTy).Contents (Elt F) → (⟨S128x512x1, .f32⟩ : BufTy).Contents (Elt F)),
    StableHlo.unary main_v25 main_v26 (broadcastInDim S128x512x512 ![0, 1, 2] bcast_S128x512x1_S128x512x512_0_1_2 : (⟨S128x512x1, .f32⟩ : BufTy).Contents (Elt F) → (⟨S128x512x512, .f32⟩ : BufTy).Contents (Elt F)),
    StableHlo.binary main_v21 main_v26 main_v27 (subf : (⟨S128x512x512, .f32⟩ : BufTy).Contents (Elt F) → (⟨S128x512x512, .f32⟩ : BufTy).Contents (Elt F) → (⟨S128x512x512, .f32⟩ : BufTy).Contents (Elt F)),
    StableHlo.unary main_v27 main_v28 (Host.exp : (⟨S128x512x512, .f32⟩ : BufTy).Contents (Elt F) → (⟨S128x512x512, .f32⟩ : BufTy).Contents (Elt F)),
    StableHlo.nullary main_cst_5 (constant S_ .f32 0x00000000#32),
    StableHlo.binary main_v28 main_cst_5 main_v29 ((fun x v => Host.reduceAdd x v reducesTo_S128x512x512_S128x512_d2 h_S_) : (⟨S128x512x512, .f32⟩ : BufTy).Contents (Elt F) → (⟨S_, .f32⟩ : BufTy).Contents (Elt F) → (⟨S128x512, .f32⟩ : BufTy).Contents (Elt F)),
    StableHlo.unary main_v29 main_v30 (broadcastInDim S128x512x1 ![0, 1] bcast_S128x512_S128x512x1_0_1 : (⟨S128x512, .f32⟩ : BufTy).Contents (Elt F) → (⟨S128x512x1, .f32⟩ : BufTy).Contents (Elt F)),
    StableHlo.unary main_v30 main_v31 (broadcastInDim S128x512x512 ![0, 1, 2] bcast_S128x512x1_S128x512x512_0_1_2 : (⟨S128x512x1, .f32⟩ : BufTy).Contents (Elt F) → (⟨S128x512x512, .f32⟩ : BufTy).Contents (Elt F)),
    StableHlo.binary main_v28 main_v31 main_v32 (Host.divf : (⟨S128x512x512, .f32⟩ : BufTy).Contents (Elt F) → (⟨S128x512x512, .f32⟩ : BufTy).Contents (Elt F) → (⟨S128x512x512, .f32⟩ : BufTy).Contents (Elt F)),
    StableHlo.binary main_v32 main_v17 main_v33 ((fun l r => Host.dotGeneral dot_S128x512x512_S128x512x256_S128x512x256_2_1_1_2_0_0 none l r) : (⟨S128x512x512, .f32⟩ : BufTy).Contents (Elt F) → (⟨S128x512x256, .f32⟩ : BufTy).Contents (Elt F) → (⟨S128x512x256, .f32⟩ : BufTy).Contents (Elt F)),
    StableHlo.binary main_v8 main_v33 main_v34 (mulf : (⟨S128x512x256, .f32⟩ : BufTy).Contents (Elt F) → (⟨S128x512x256, .f32⟩ : BufTy).Contents (Elt F) → (⟨S128x512x256, .f32⟩ : BufTy).Contents (Elt F)),
    StableHlo.nullary main_cst_6 (constant S_ .f32 0x00000000#32),
    StableHlo.binary main_v34 main_cst_6 main_v35 ((fun x v => Host.reduceAdd x v reducesTo_S128x512x256_S128x512_d2 h_S_) : (⟨S128x512x256, .f32⟩ : BufTy).Contents (Elt F) → (⟨S_, .f32⟩ : BufTy).Contents (Elt F) → (⟨S128x512, .f32⟩ : BufTy).Contents (Elt F)),
    StableHlo.TRef.binary (.of main_v8) (.of main_v8) main_call3.v0 mulf,
    StableHlo.TRef.nullary main_call3.cst (constant S_ .f32 0x00000000#32),
    StableHlo.TRef.binary main_call3.v0 main_call3.cst main_call3.v1 (fun x v => Host.reduceAdd x v reducesTo_S128x512x256_S128x512_d2 h_S_),
    StableHlo.TRef.unary main_call3.v1 main_call3.v2 Host.sqrt,
    StableHlo.TRef.binary (.of main_v33) (.of main_v33) main_call4.v0 mulf,
    StableHlo.TRef.nullary main_call4.cst (constant S_ .f32 0x00000000#32),
    StableHlo.TRef.binary main_call4.v0 main_call4.cst main_call4.v1 (fun x v => Host.reduceAdd x v reducesTo_S128x512x256_S128x512_d2 h_S_),
    StableHlo.TRef.unary main_call4.v1 main_call4.v2 Host.sqrt,
    StableHlo.binary main_v36 main_v37 main_v38 (mulf : (⟨S128x512, .f32⟩ : BufTy).Contents (Elt F) → (⟨S128x512, .f32⟩ : BufTy).Contents (Elt F) → (⟨S128x512, .f32⟩ : BufTy).Contents (Elt F)),
    StableHlo.nullary main_cst_7 (constant S_ .f32 0x322BCC77#32),
    StableHlo.unary main_cst_7 main_v39 (broadcastInDim S128x512 ![] bcast_S_S128x512 : (⟨S_, .f32⟩ : BufTy).Contents (Elt F) → (⟨S128x512, .f32⟩ : BufTy).Contents (Elt F)),
    StableHlo.binary main_v38 main_v39 main_v40 (addf : (⟨S128x512, .f32⟩ : BufTy).Contents (Elt F) → (⟨S128x512, .f32⟩ : BufTy).Contents (Elt F) → (⟨S128x512, .f32⟩ : BufTy).Contents (Elt F)),
    StableHlo.binary main_v35 main_v40 main_v41 (Host.divf : (⟨S128x512, .f32⟩ : BufTy).Contents (Elt F) → (⟨S128x512, .f32⟩ : BufTy).Contents (Elt F) → (⟨S128x512, .f32⟩ : BufTy).Contents (Elt F)),
    StableHlo.nullary main_cst_8 (constant S_ .f32 0x00000000#32),
    StableHlo.binary main_v41 main_cst_8 main_v42 ((fun x v => Host.reduceAdd x v reducesTo_S128x512_S128_d1 h_S_) : (⟨S128x512, .f32⟩ : BufTy).Contents (Elt F) → (⟨S_, .f32⟩ : BufTy).Contents (Elt F) → (⟨S128, .f32⟩ : BufTy).Contents (Elt F)),
    StableHlo.nullary main_cst_9 (constant S_ .f32 0x44000000#32),
    StableHlo.unary main_cst_9 main_v43 (broadcastInDim S128 ![] bcast_S_S128 : (⟨S_, .f32⟩ : BufTy).Contents (Elt F) → (⟨S128, .f32⟩ : BufTy).Contents (Elt F)),
    StableHlo.binary main_v42 main_v43 main_v44 (Host.divf : (⟨S128, .f32⟩ : BufTy).Contents (Elt F) → (⟨S128, .f32⟩ : BufTy).Contents (Elt F) → (⟨S128, .f32⟩ : BufTy).Contents (Elt F)),
    StableHlo.nullary main_cst_10 (constant S_ .f32 0x41100000#32),
    StableHlo.unary main_cst_10 main_v45 (broadcastInDim S128x512x512 ![] bcast_S_S128x512x512 : (⟨S_, .f32⟩ : BufTy).Contents (Elt F) → (⟨S128x512x512, .f32⟩ : BufTy).Contents (Elt F)),
    StableHlo.binary main_v45 main_v19 main_v46 (mulf : (⟨S128x512x512, .f32⟩ : BufTy).Contents (Elt F) → (⟨S128x512x512, .f32⟩ : BufTy).Contents (Elt F) → (⟨S128x512x512, .f32⟩ : BufTy).Contents (Elt F)),
    StableHlo.nullary main_cst_11 (constant S_ .f32 0xFF800000#32),
    StableHlo.binary main_v46 main_cst_11 main_v47 ((fun x v => Host.reduce FloatOps.maximumf x v reducesTo_S128x512x512_S128x512_d1 h_S_) : (⟨S128x512x512, .f32⟩ : BufTy).Contents (Elt F) → (⟨S_, .f32⟩ : BufTy).Contents (Elt F) → (⟨S128x512, .f32⟩ : BufTy).Contents (Elt F)),
    StableHlo.nullary main_cst_12 (constant S_ .f32 0xFF800000#32),
    StableHlo.unary main_cst_12 main_v48 (broadcastInDim S128x512 ![] bcast_S_S128x512 : (⟨S_, .f32⟩ : BufTy).Contents (Elt F) → (⟨S128x512, .f32⟩ : BufTy).Contents (Elt F)),
    StableHlo.binary main_v48 main_v47 main_v49 (maximumf : (⟨S128x512, .f32⟩ : BufTy).Contents (Elt F) → (⟨S128x512, .f32⟩ : BufTy).Contents (Elt F) → (⟨S128x512, .f32⟩ : BufTy).Contents (Elt F)),
    StableHlo.unary main_v49 main_v50 (broadcastInDim S128x1x512 ![0, 2] bcast_S128x512_S128x1x512_0_2 : (⟨S128x512, .f32⟩ : BufTy).Contents (Elt F) → (⟨S128x1x512, .f32⟩ : BufTy).Contents (Elt F)),
    StableHlo.unary main_v50 main_v51 (broadcastInDim S128x512x512 ![0, 1, 2] bcast_S128x1x512_S128x512x512_0_1_2 : (⟨S128x1x512, .f32⟩ : BufTy).Contents (Elt F) → (⟨S128x512x512, .f32⟩ : BufTy).Contents (Elt F)),
    StableHlo.binary main_v46 main_v51 main_v52 (subf : (⟨S128x512x512, .f32⟩ : BufTy).Contents (Elt F) → (⟨S128x512x512, .f32⟩ : BufTy).Contents (Elt F) → (⟨S128x512x512, .f32⟩ : BufTy).Contents (Elt F)),
    StableHlo.unary main_v52 main_v53 (Host.exp : (⟨S128x512x512, .f32⟩ : BufTy).Contents (Elt F) → (⟨S128x512x512, .f32⟩ : BufTy).Contents (Elt F)),
    StableHlo.nullary main_cst_13 (constant S_ .f32 0x00000000#32),
    StableHlo.binary main_v53 main_cst_13 main_v54 ((fun x v => Host.reduceAdd x v reducesTo_S128x512x512_S128x512_d1 h_S_) : (⟨S128x512x512, .f32⟩ : BufTy).Contents (Elt F) → (⟨S_, .f32⟩ : BufTy).Contents (Elt F) → (⟨S128x512, .f32⟩ : BufTy).Contents (Elt F)),
    StableHlo.unary main_v54 main_v55 (broadcastInDim S128x1x512 ![0, 2] bcast_S128x512_S128x1x512_0_2 : (⟨S128x512, .f32⟩ : BufTy).Contents (Elt F) → (⟨S128x1x512, .f32⟩ : BufTy).Contents (Elt F)),
    StableHlo.unary main_v55 main_v56 (broadcastInDim S128x512x512 ![0, 1, 2] bcast_S128x1x512_S128x512x512_0_1_2 : (⟨S128x1x512, .f32⟩ : BufTy).Contents (Elt F) → (⟨S128x512x512, .f32⟩ : BufTy).Contents (Elt F)),
    StableHlo.binary main_v53 main_v56 main_v57 (Host.divf : (⟨S128x512x512, .f32⟩ : BufTy).Contents (Elt F) → (⟨S128x512x512, .f32⟩ : BufTy).Contents (Elt F) → (⟨S128x512x512, .f32⟩ : BufTy).Contents (Elt F)),
    StableHlo.binary main_v57 main_v8 main_v58 ((fun l r => Host.dotGeneral dot_S128x512x512_S128x512x256_S128x512x256_1_1_2_2_0_0 none l r) : (⟨S128x512x512, .f32⟩ : BufTy).Contents (Elt F) → (⟨S128x512x256, .f32⟩ : BufTy).Contents (Elt F) → (⟨S128x512x256, .f32⟩ : BufTy).Contents (Elt F)),
    StableHlo.binary main_v58 main_v17 main_v59 (mulf : (⟨S128x512x256, .f32⟩ : BufTy).Contents (Elt F) → (⟨S128x512x256, .f32⟩ : BufTy).Contents (Elt F) → (⟨S128x512x256, .f32⟩ : BufTy).Contents (Elt F)),
    StableHlo.nullary main_cst_14 (constant S_ .f32 0x00000000#32),
    StableHlo.binary main_v59 main_cst_14 main_v60 ((fun x v => Host.reduceAdd x v reducesTo_S128x512x256_S128x512_d2 h_S_) : (⟨S128x512x256, .f32⟩ : BufTy).Contents (Elt F) → (⟨S_, .f32⟩ : BufTy).Contents (Elt F) → (⟨S128x512, .f32⟩ : BufTy).Contents (Elt F)),
    StableHlo.TRef.binary (.of main_v58) (.of main_v58) main_call5.v0 mulf,
    StableHlo.TRef.nullary main_call5.cst (constant S_ .f32 0x00000000#32),
    StableHlo.TRef.binary main_call5.v0 main_call5.cst main_call5.v1 (fun x v => Host.reduceAdd x v reducesTo_S128x512x256_S128x512_d2 h_S_),
    StableHlo.TRef.unary main_call5.v1 main_call5.v2 Host.sqrt,
    StableHlo.TRef.binary (.of main_v17) (.of main_v17) main_call6.v0 mulf,
    StableHlo.TRef.nullary main_call6.cst (constant S_ .f32 0x00000000#32),
    StableHlo.TRef.binary main_call6.v0 main_call6.cst main_call6.v1 (fun x v => Host.reduceAdd x v reducesTo_S128x512x256_S128x512_d2 h_S_),
    StableHlo.TRef.unary main_call6.v1 main_call6.v2 Host.sqrt,
    StableHlo.binary main_v61 main_v62 main_v63 (mulf : (⟨S128x512, .f32⟩ : BufTy).Contents (Elt F) → (⟨S128x512, .f32⟩ : BufTy).Contents (Elt F) → (⟨S128x512, .f32⟩ : BufTy).Contents (Elt F)),
    StableHlo.nullary main_cst_15 (constant S_ .f32 0x322BCC77#32),
    StableHlo.unary main_cst_15 main_v64 (broadcastInDim S128x512 ![] bcast_S_S128x512 : (⟨S_, .f32⟩ : BufTy).Contents (Elt F) → (⟨S128x512, .f32⟩ : BufTy).Contents (Elt F)),
    StableHlo.binary main_v63 main_v64 main_v65 (addf : (⟨S128x512, .f32⟩ : BufTy).Contents (Elt F) → (⟨S128x512, .f32⟩ : BufTy).Contents (Elt F) → (⟨S128x512, .f32⟩ : BufTy).Contents (Elt F)),
    StableHlo.binary main_v60 main_v65 main_v66 (Host.divf : (⟨S128x512, .f32⟩ : BufTy).Contents (Elt F) → (⟨S128x512, .f32⟩ : BufTy).Contents (Elt F) → (⟨S128x512, .f32⟩ : BufTy).Contents (Elt F)),
    StableHlo.nullary main_cst_16 (constant S_ .f32 0x00000000#32),
    StableHlo.binary main_v66 main_cst_16 main_v67 ((fun x v => Host.reduceAdd x v reducesTo_S128x512_S128_d1 h_S_) : (⟨S128x512, .f32⟩ : BufTy).Contents (Elt F) → (⟨S_, .f32⟩ : BufTy).Contents (Elt F) → (⟨S128, .f32⟩ : BufTy).Contents (Elt F)),
    StableHlo.nullary main_cst_17 (constant S_ .f32 0x44000000#32),
    StableHlo.unary main_cst_17 main_v68 (broadcastInDim S128 ![] bcast_S_S128 : (⟨S_, .f32⟩ : BufTy).Contents (Elt F) → (⟨S128, .f32⟩ : BufTy).Contents (Elt F)),
    StableHlo.binary main_v67 main_v68 main_v69 (Host.divf : (⟨S128, .f32⟩ : BufTy).Contents (Elt F) → (⟨S128, .f32⟩ : BufTy).Contents (Elt F) → (⟨S128, .f32⟩ : BufTy).Contents (Elt F)),
    StableHlo.binary main_v44 main_v69 main_v70 (addf : (⟨S128, .f32⟩ : BufTy).Contents (Elt F) → (⟨S128, .f32⟩ : BufTy).Contents (Elt F) → (⟨S128, .f32⟩ : BufTy).Contents (Elt F)) ]

-- 116 binds re-associated: the rewrite under the chain recurses once per statement
set_option maxRecDepth 4096 in
set_option maxHeartbeats 4000000 in
/-- @main is that straight line: its two windows in order, the functions' definitions unfolded at their calls and
    the records at their fields; both sides are one chain of host steps once sequencing is reassociated. -/
theorem main_eq (c : Dev nD) : main (F := F) c = seq ops := by
  simp only [main, main_part0, main_part1, fn_norm.body, fn_where.body, fn_leaky_relu.body, fn_norm_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨
    binary_bufs_sub .., unary_bufs_sub .., unary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., binary_bufs_sub .., unary_bufs_sub .., unary_bufs_sub .., binary_bufs_sub ..,
    binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., nullary_bufs_sub ..,
    nullary_bufs_sub .., unary_bufs_sub .., binary_bufs_sub .., unary_bufs_sub .., unary_bufs_sub .., binary_bufs_sub ..,
    ternary_bufs_sub .., nullary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    binary_bufs_sub .., binary_bufs_sub .., nullary_bufs_sub .., binary_bufs_sub .., binary_bufs_sub .., nullary_bufs_sub ..,
    binary_bufs_sub .., unary_bufs_sub .., binary_bufs_sub .., nullary_bufs_sub .., binary_bufs_sub .., unary_bufs_sub ..,
    binary_bufs_sub .., nullary_bufs_sub .., unary_bufs_sub .., binary_bufs_sub .., binary_bufs_sub .., nullary_bufs_sub ..,
    binary_bufs_sub .., nullary_bufs_sub .., unary_bufs_sub .., binary_bufs_sub .., nullary_bufs_sub .., unary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., binary_bufs_sub .., binary_bufs_sub .., nullary_bufs_sub ..,
    binary_bufs_sub .., binary_bufs_sub .., nullary_bufs_sub .., binary_bufs_sub .., unary_bufs_sub .., binary_bufs_sub ..,
    nullary_bufs_sub .., binary_bufs_sub .., unary_bufs_sub .., binary_bufs_sub .., nullary_bufs_sub .., unary_bufs_sub ..,
    binary_bufs_sub .., binary_bufs_sub .., nullary_bufs_sub .., binary_bufs_sub .., nullary_bufs_sub .., unary_bufs_sub ..,
    binary_bufs_sub .., binary_bufs_sub ..⟩

theorem arg0_eq (V : Valuation τ sig (Elt F)) :
    after ops V (Proc.devRef .tc main_arg0) = V (Proc.devRef .tc main_arg0) := by
  after_results_simp

theorem arg1_eq (V : Valuation τ sig (Elt F)) :
    after ops V (Proc.devRef .tc main_arg1) = V (Proc.devRef .tc main_arg1) := by
  after_results_simp

theorem arg2_eq (V : Valuation τ sig (Elt F)) :
    after ops V (Proc.devRef .tc main_arg2) = V (Proc.devRef .tc main_arg2) := by
  after_results_simp

theorem arg3_eq (V : Valuation τ sig (Elt F)) :
    after ops V (Proc.devRef .tc main_arg3) = V (Proc.devRef .tc main_arg3) := by
  after_results_simp

theorem arg4_eq (V : Valuation τ sig (Elt F)) :
    after ops V (Proc.devRef .tc main_arg4) = V (Proc.devRef .tc main_arg4) := by
  after_results_simp

theorem arg5_eq (V : Valuation τ sig (Elt F)) :
    after ops V (Proc.devRef .tc main_arg5) = V (Proc.devRef .tc main_arg5) := by
  after_results_simp

attribute [local irreducible] Host.reduce Host.reduceAdd in
set_option maxRecDepth 8192 in
set_option maxHeartbeats 4000000 in
/-- The fold at the result buffer: each operation's result at its own buffer is its function of its operands'
    contents and at any other buffer what was there, so the result buffer holds the operations composed — which is
    `Stages.out` at the arguments' contents, by unfolding. The sums, maxima and contractions are kept folded: the
    equation never looks inside them. -/
theorem out_eq (V : Valuation τ sig (Elt F)) :
    after ops V (Proc.devRef .tc main_v70)
      = Stages.out (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results_simp
  rfl

/-- On every device, for any float values, from any memory with zero counters: every weakly fair execution of
    @main terminates with the result buffer at `Stages.out` of the six arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70) = Stages.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v70).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_seq scopedRefs_eq scopedSems_eq defs main (fun _ => ops) main_eq (fun _ => ops_sub) m ρ)

end Cert.ReferenceIdeal.Hand

end
-- ==== Proof.RefRead.lean ====
/-
  The reference's stages read at an index, at the ideal values.

  Every stage of the reference (RefStages.lean) is an array-level expression; read at one index it is the
  corresponding coordinate formula of Spec.lean.  The host's sums start from the constant 0, so each is the
  plain finite sum; the broadcasts only move entries; the products with a shared batch axis are sums over the
  one contracted coordinate.
-/
import proofs.«150999_j3109556323149_2_alg».proof.Proof.RefStages
import proofs.«150999_j3109556323149_2_alg».proof.Proof.Spec
import proofs.«150999_j3109556323149_2_alg».proof.Proof.LibOps3
import proofs.«150999_j3109556323149_2_alg».proof.Proof.LibGram
import proofs.«150999_j3109556323149_2_alg».proof.Proof.LibDot3
import proofs.«150999_j3109556323149_2_alg».proof.Proof.LibLayout3

open scoped BigOperators

noncomputable section

namespace Cert.ReferenceIdeal.Read

open Cert.ReferenceIdeal Cert.ReferenceIdeal.Gen Idealize.ShloMosaic Idealize.ShloMosaic.ValueIdx

/-- The host's sums start from the zero word, which is the real 0. -/
theorem zero_const (i : S_.Idx) : constant (F := Ideal) S_ .f32 0x00000000#32 i = 0 := Ideal.ofBits_zero_f32

/-! ## Norms and the unit-length rescaling -/

/-- The sum of squares along the feature axis. -/
theorem sumsq_apply (Y : FVec Ideal S128x512x256 .f32) (n : Fin 128) (l : Fin 512) :
    Stages.sumsq (F := Ideal) Y (ix2 n l) = ∑ k : Fin 256, Y (ix3 n l k) * Y (ix3 n l k) := by
  unfold Stages.sumsq
  refine (Cert.LibOps3.hostSum_axis2_apply (mulf Y Y) _ reducesTo_S128x512x256_S128x512_d2 (by decide) h_S_ n l).trans ?_
  rw [zero_const, zero_add]
  rfl

theorem norm0_apply (Y : FVec Ideal S128x512x256 .f32) (n : Fin 128) (l : Fin 512) :
    Stages.norm0 (F := Ideal) Y (ix2 n l) = Ideal.sqrt (∑ k : Fin 256, Y (ix3 n l k) * Y (ix3 n l k)) :=
  congrArg Ideal.sqrt (sumsq_apply Y n l)

theorem normK_apply (Y : FVec Ideal S128x512x256 .f32) (n : Fin 128) (l : Fin 512) (u : Fin 1) :
    Stages.normK (F := Ideal) Y (ix3 n l u) = Ideal.sqrt (∑ k : Fin 256, Y (ix3 n l k) * Y (ix3 n l k)) :=
  congrArg Ideal.sqrt ((Cert.LibLayout3.bcast_ab_ab1_apply bcast_S128x512_S128x512x1_0_1 (Stages.sumsq Y) n l u).trans
    (sumsq_apply Y n l))

/-- Division by the norm plus ε. -/
theorem l2_apply (Y : FVec Ideal S128x512x256 .f32) (n : Fin 128) (l : Fin 512) (d : Fin 256) :
    Stages.l2 (F := Ideal) Y (ix3 n l d)
      = Ideal.div (Y (ix3 n l d)) (Ideal.sqrt (∑ k : Fin 256, Y (ix3 n l k) * Y (ix3 n l k)) + Attn.eps) := by
  have h1 := Cert.LibLayout3.bcast_ab1_abc_apply bcast_S128x512x1_S128x512x256_0_1_2
    (addf (Stages.normK Y) (broadcastInDim S128x512x1 ![] bcast_S_S128x512x1 (constant (F := Ideal) S_ .f32 0x322BCC77#32))) n l d
  have h2 := Cert.LibLayout3.bcast_scalar_apply _ bcast_S_S128x512x1 (constant (F := Ideal) S_ .f32 0x322BCC77#32)
    (ix3 n l (0 : Fin 1))
  refine congrArg (Ideal.div (Y (ix3 n l d))) (h1.trans ?_)
  exact congrArg₂ (· + ·) (normK_apply Y n l 0) h2

/-- The rescaling of an array given by its coordinate function. -/
theorem l2_eq (y : Fin 128 → Fin 512 → Fin 256 → EReal) :
    Stages.l2 (F := Ideal) (Attn.arr3 y) = Attn.arr3 (Attn.unit y) := by
  funext j
  obtain ⟨n, l, d, rfl⟩ : ∃ (n : Fin 128) (l : Fin 512) (d : Fin 256), j = ix3 n l d := ⟨j 0, j 1, j 2, eq_ix3 j⟩
  exact l2_apply (Attn.arr3 y) n l d

/-! ## The two projections -/

/-- The bias, broadcast over the batch rows and the positions. -/
theorem bias3_apply (b : FVec Ideal S256 .f32) (n : Fin 128) (l : Fin 512) (d : Fin 256) :
    Stages.bias3 (F := Ideal) b (ix3 n l d) = b (ix1 d) := by
  have h1 := Cert.LibLayout3.bcast_11c_abc_apply bcast_S1x1x256_S128x512x256_0_1_2
    (broadcastInDim S1x1x256 ![2] bcast_S256_S1x1x256_2 b) n l d
  have h2 := Cert.LibLayout3.bcast_c_11c_apply bcast_S256_S1x1x256_2 b 0 0 d
  exact h1.trans h2

/-- The projection of the words plus the bias is the affine map of the specification. -/
theorem preT_eq (x : FVec Ideal S128x512x300 .f32) (W : FVec Ideal S300x256 .f32) (b : FVec Ideal S256 .f32) :
    addf (Host.dotGeneral dot_S128x512x300_S300x256_S128x512x256_2_0_01_1_n_n none x W) (Stages.bias3 b)
      = Attn.arr3 (Attn.lin (Attn.cur3 x) (Attn.cur2 W) (Attn.cur1 b)) := by
  funext j
  obtain ⟨n, l, d, rfl⟩ : ∃ (n : Fin 128) (l : Fin 512) (d : Fin 256), j = ix3 n l d := ⟨j 0, j 1, j 2, eq_ix3 j⟩
  exact congrArg₂ (· + ·)
    (Cert.LibDot3.projDims_dot dot_S128x512x300_S300x256_S128x512x256_2_0_01_1_n_n_wf none x W n l d)
    (bias3_apply b n l d)

/-- The projection of the regions plus the bias, likewise. -/
theorem preI_eq (x : FVec Ideal S128x512x1024 .f32) (W : FVec Ideal S1024x256 .f32) (b : FVec Ideal S256 .f32) :
    addf (Host.dotGeneral dot_S128x512x1024_S1024x256_S128x512x256_2_0_01_1_n_n none x W) (Stages.bias3 b)
      = Attn.arr3 (Attn.lin (Attn.cur3 x) (Attn.cur2 W) (Attn.cur1 b)) := by
  funext j
  obtain ⟨n, l, d, rfl⟩ : ∃ (n : Fin 128) (l : Fin 512) (d : Fin 256), j = ix3 n l d := ⟨j 0, j 1, j 2, eq_ix3 j⟩
  exact congrArg₂ (· + ·)
    (Cert.LibDot3.projDims_dot dot_S128x512x1024_S1024x256_S128x512x256_2_0_01_1_n_n_wf none x W n l d)
    (bias3_apply b n l d)

theorem featT_eq (x : FVec Ideal S128x512x300 .f32) (W : FVec Ideal S300x256 .f32) (b : FVec Ideal S256 .f32) :
    Stages.featT (F := Ideal) x W b = Attn.arr3 (Attn.feat (Attn.cur3 x) (Attn.cur2 W) (Attn.cur1 b)) := by
  unfold Stages.featT
  rw [preT_eq]
  exact l2_eq _

theorem featI_eq (x : FVec Ideal S128x512x1024 .f32) (W : FVec Ideal S1024x256 .f32) (b : FVec Ideal S256 .f32) :
    Stages.featI (F := Ideal) x W b = Attn.arr3 (Attn.feat (Attn.cur3 x) (Attn.cur2 W) (Attn.cur1 b)) := by
  unfold Stages.featI
  rw [preI_eq]
  exact l2_eq _

/-! ## The scores -/

theorem select_congr {c c' : BitVec 1} {a b b' : EReal} (hc : c = c') (hb : b = b') :
    Scalar.select c a b = Scalar.select c' a b' := by subst hc hb; rfl

/-- The leaky rectifier, entry by entry. -/
theorem leaky_apply (a : FVec Ideal S128x512x512 .f32) (n : Fin 128) (l r : Fin 512) :
    Stages.leaky (F := Ideal) a (ix3 n l r) = Attn.leakyGe (a (ix3 n l r)) := by
  have h0 : broadcastInDim S128x512x512 ![] bcast_S_S128x512x512 (constant (F := Ideal) S_ .f32 0x00000000#32) (ix3 n l r) = 0 :=
    (Cert.LibLayout3.bcast_scalar_apply _ bcast_S_S128x512x512 _ _).trans (zero_const _)
  have hs : broadcastInDim S128x512x512 ![] bcast_S_S128x512x512 (constant (F := Ideal) S_ .f32 0x3DCCCCCD#32) (ix3 n l r)
      = Attn.slope := Cert.LibLayout3.bcast_scalar_apply _ bcast_S_S128x512x512 _ _
  exact select_congr (congrArg (Ideal.cmp .oge (a (ix3 n l r))) h0) (congrArg (· * a (ix3 n l r)) hs)

/-- The scaled, rectified inner products of the feature rows. -/
theorem score_eq (p q : Fin 128 → Fin 512 → Fin 256 → EReal) :
    Stages.score (F := Ideal) (Attn.arr3 p) (Attn.arr3 q) = Attn.arr3 (Attn.scoreGe p q) := by
  funext j
  obtain ⟨n, l, r, rfl⟩ : ∃ (n : Fin 128) (l : Fin 512) (r : Fin 512), j = ix3 n l r := ⟨j 0, j 1, j 2, eq_ix3 j⟩
  have hl : broadcastInDim S128x512x512 ![] bcast_S_S128x512x512 (constant (F := Ideal) S_ .f32 0x41100000#32) (ix3 n l r)
      = Attn.lam := Cert.LibLayout3.bcast_scalar_apply _ bcast_S_S128x512x512 _ _
  have hd := Cert.LibDot3.simDims_dot (φ₁ := .f32) (φ₂ := .f32) dot_S128x512x256_S128x512x256_S128x512x512_2_2_1_1_0_0_wf none
    (Attn.arr3 p) (Attn.arr3 q) n l r
  have hk := leaky_apply (Host.dotGeneral (φ₁ := .f32) (φ₂ := .f32) dot_S128x512x256_S128x512x256_S128x512x512_2_2_1_1_0_0 none
    (Attn.arr3 p) (Attn.arr3 q)) n l r
  exact congrArg₂ (· * ·) hl (hk.trans (congrArg Attn.leakyGe hd))

/-! ## The two softmaxes -/

/-- The comparison with -∞ once more. -/
theorem maxInf_apply (R : FVec Ideal S128x512 .f32) (n : Fin 128) (l : Fin 512) :
    maximumf (broadcastInDim S128x512 ![] bcast_S_S128x512 (constant (F := Ideal) S_ .f32 0xFF800000#32)) R (ix2 n l)
      = max Attn.ninf (R (ix2 n l)) := by
  have h1 := Cert.LibLayout3.bcast_scalar_apply _ bcast_S_S128x512 (constant (F := Ideal) S_ .f32 0xFF800000#32) (ix2 n l)
  exact congrArg (fun t => max t (R (ix2 n l))) h1

/-- The maximum along the regions, folded from -∞ and compared with -∞ once more. -/
theorem rowMax_apply (z : Fin 128 → Fin 512 → Fin 512 → EReal) (n : Fin 128) (l : Fin 512) :
    maximumf (broadcastInDim S128x512 ![] bcast_S_S128x512 (constant (F := Ideal) S_ .f32 0xFF800000#32))
      (Host.reduce FloatOps.maximumf (Attn.arr3 z : FVec Ideal S128x512x512 .f32) (constant (F := Ideal) S_ .f32 0xFF800000#32)
        reducesTo_S128x512x512_S128x512_d2 h_S_) (ix2 n l) = Attn.max1 z n l := by
  have h2 := Cert.LibOps3.hostMax_axis2_apply (Attn.arr3 z : FVec Ideal S128x512x512 .f32)
    (constant (F := Ideal) S_ .f32 0xFF800000#32) reducesTo_S128x512x512_S128x512_d2 (by decide) h_S_ n l
  refine (maxInf_apply _ n l).trans ?_
  rw [h2]
  rfl

/-- The maximum along the words. -/
theorem colMax_apply (z : Fin 128 → Fin 512 → Fin 512 → EReal) (n : Fin 128) (r : Fin 512) :
    maximumf (broadcastInDim S128x512 ![] bcast_S_S128x512 (constant (F := Ideal) S_ .f32 0xFF800000#32))
      (Host.reduce FloatOps.maximumf (Attn.arr3 z : FVec Ideal S128x512x512 .f32) (constant (F := Ideal) S_ .f32 0xFF800000#32)
        reducesTo_S128x512x512_S128x512_d1 h_S_) (ix2 n r) = Attn.max2 z n r := by
  have h2 := Cert.LibOps3.hostMax_axis1_apply (Attn.arr3 z : FVec Ideal S128x512x512 .f32)
    (constant (F := Ideal) S_ .f32 0xFF800000#32) reducesTo_S128x512x512_S128x512_d1 (by decide) h_S_ n r
  refine (maxInf_apply _ n r).trans ?_
  rw [h2]
  rfl

/-- The exponential of an entry minus the value M (n, l) of its row. -/
theorem exp1_apply (z : FVec Ideal S128x512x512 .f32) (M : FVec Ideal S128x512 .f32) (n : Fin 128) (l r : Fin 512) :
    Host.exp (subf z (broadcastInDim S128x512x512 ![0, 1, 2] bcast_S128x512x1_S128x512x512_0_1_2
      (broadcastInDim S128x512x1 ![0, 1] bcast_S128x512_S128x512x1_0_1 M))) (ix3 n l r)
      = Ideal.exp (z (ix3 n l r) - M (ix2 n l)) := by
  have h1 := Cert.LibLayout3.bcast_ab1_abc_apply bcast_S128x512x1_S128x512x512_0_1_2
    (broadcastInDim S128x512x1 ![0, 1] bcast_S128x512_S128x512x1_0_1 M) n l r
  have h2 := Cert.LibLayout3.bcast_ab_ab1_apply bcast_S128x512_S128x512x1_0_1 M n l 0
  exact congrArg (fun t => Ideal.exp (z (ix3 n l r) - t)) (h1.trans h2)

/-- The exponential of an entry minus the value M (n, r) of its column. -/
theorem exp2_apply (z : FVec Ideal S128x512x512 .f32) (M : FVec Ideal S128x512 .f32) (n : Fin 128) (l r : Fin 512) :
    Host.exp (subf z (broadcastInDim S128x512x512 ![0, 1, 2] bcast_S128x1x512_S128x512x512_0_1_2
      (broadcastInDim S128x1x512 ![0, 2] bcast_S128x512_S128x1x512_0_2 M))) (ix3 n l r)
      = Ideal.exp (z (ix3 n l r) - M (ix2 n r)) := by
  have h1 := Cert.LibLayout3.bcast_a1c_abc_apply bcast_S128x1x512_S128x512x512_0_1_2
    (broadcastInDim S128x1x512 ![0, 2] bcast_S128x512_S128x1x512_0_2 M) n l r
  have h2 := Cert.LibLayout3.bcast_ac_a1c_apply bcast_S128x512_S128x1x512_0_2 M n 0 r
  exact congrArg (fun t => Ideal.exp (z (ix3 n l r) - t)) (h1.trans h2)

/-- The same with the subtracted value given by an equation. -/
theorem exp1_of (z : FVec Ideal S128x512x512 .f32) (M : FVec Ideal S128x512 .f32) (m : EReal) (n : Fin 128) (l r : Fin 512)
    (hM : M (ix2 n l) = m) :
    Host.exp (subf z (broadcastInDim S128x512x512 ![0, 1, 2] bcast_S128x512x1_S128x512x512_0_1_2
      (broadcastInDim S128x512x1 ![0, 1] bcast_S128x512_S128x512x1_0_1 M))) (ix3 n l r)
      = Ideal.exp (z (ix3 n l r) - m) := by
  rw [exp1_apply, hM]

theorem exp2_of (z : FVec Ideal S128x512x512 .f32) (M : FVec Ideal S128x512 .f32) (m : EReal) (n : Fin 128) (l r : Fin 512)
    (hM : M (ix2 n r) = m) :
    Host.exp (subf z (broadcastInDim S128x512x512 ![0, 1, 2] bcast_S128x1x512_S128x512x512_0_1_2
      (broadcastInDim S128x1x512 ![0, 2] bcast_S128x512_S128x1x512_0_2 M))) (ix3 n l r)
      = Ideal.exp (z (ix3 n l r) - m) := by
  rw [exp2_apply, hM]

/-- An entry divided by the sum of its row. -/
theorem div1_apply (e : FVec Ideal S128x512x512 .f32) (n : Fin 128) (l r : Fin 512) :
    Host.divf e (broadcastInDim S128x512x512 ![0, 1, 2] bcast_S128x512x1_S128x512x512_0_1_2
      (broadcastInDim S128x512x1 ![0, 1] bcast_S128x512_S128x512x1_0_1
        (Host.reduceAdd e (constant (F := Ideal) S_ .f32 0x00000000#32) reducesTo_S128x512x512_S128x512_d2 h_S_))) (ix3 n l r)
      = Ideal.div (e (ix3 n l r)) (∑ k : Fin 512, e (ix3 n l k)) := by
  have h1 := Cert.LibLayout3.bcast_ab1_abc_apply bcast_S128x512x1_S128x512x512_0_1_2
    (broadcastInDim S128x512x1 ![0, 1] bcast_S128x512_S128x512x1_0_1
      (Host.reduceAdd e (constant (F := Ideal) S_ .f32 0x00000000#32) reducesTo_S128x512x512_S128x512_d2 h_S_)) n l r
  have h2 := Cert.LibLayout3.bcast_ab_ab1_apply bcast_S128x512_S128x512x1_0_1
    (Host.reduceAdd e (constant (F := Ideal) S_ .f32 0x00000000#32) reducesTo_S128x512x512_S128x512_d2 h_S_) n l 0
  have h3 := Cert.LibOps3.hostSum_axis2_apply e (constant (F := Ideal) S_ .f32 0x00000000#32)
    reducesTo_S128x512x512_S128x512_d2 (by decide) h_S_ n l
  rw [zero_const, zero_add] at h3
  exact congrArg (Ideal.div (e (ix3 n l r))) (h1.trans (h2.trans h3))

/-- An entry divided by the sum of its column. -/
theorem div2_apply (e : FVec Ideal S128x512x512 .f32) (n : Fin 128) (l r : Fin 512) :
    Host.divf e (broadcastInDim S128x512x512 ![0, 1, 2] bcast_S128x1x512_S128x512x512_0_1_2
      (broadcastInDim S128x1x512 ![0, 2] bcast_S128x512_S128x1x512_0_2
        (Host.reduceAdd e (constant (F := Ideal) S_ .f32 0x00000000#32) reducesTo_S128x512x512_S128x512_d1 h_S_))) (ix3 n l r)
      = Ideal.div (e (ix3 n l r)) (∑ k : Fin 512, e (ix3 n k r)) := by
  have h1 := Cert.LibLayout3.bcast_a1c_abc_apply bcast_S128x1x512_S128x512x512_0_1_2
    (broadcastInDim S128x1x512 ![0, 2] bcast_S128x512_S128x1x512_0_2
      (Host.reduceAdd e (constant (F := Ideal) S_ .f32 0x00000000#32) reducesTo_S128x512x512_S128x512_d1 h_S_)) n l r
  have h2 := Cert.LibLayout3.bcast_ac_a1c_apply bcast_S128x512_S128x1x512_0_2
    (Host.reduceAdd e (constant (F := Ideal) S_ .f32 0x00000000#32) reducesTo_S128x512x512_S128x512_d1 h_S_) n 0 r
  have h3 := Cert.LibOps3.hostSum_axis1_apply e (constant (F := Ideal) S_ .f32 0x00000000#32)
    reducesTo_S128x512x512_S128x512_d1 (by decide) h_S_ n r
  rw [zero_const, zero_add] at h3
  exact congrArg (Ideal.div (e (ix3 n l r))) (h1.trans (h2.trans h3))

/-- The softmax along the regions, the row maximum subtracted. -/
theorem smax1_eq (z : Fin 128 → Fin 512 → Fin 512 → EReal) :
    Stages.smax1 (F := Ideal) (Attn.arr3 z) = Attn.arr3 (Attn.soft1s z) := by
  funext j
  obtain ⟨n, l, r, rfl⟩ : ∃ (n : Fin 128) (l : Fin 512) (r : Fin 512), j = ix3 n l r := ⟨j 0, j 1, j 2, eq_ix3 j⟩
  have hE : ∀ k : Fin 512, _ = Ideal.exp (Attn.arr3 z (ix3 n l k) - Attn.max1 z n l) := fun k =>
    exp1_of (Attn.arr3 z) _ (Attn.max1 z n l) n l k (rowMax_apply z n l)
  refine (div1_apply _ n l r).trans ?_
  rw [hE r, Finset.sum_congr rfl (fun k _ => hE k)]
  rfl

/-- The softmax along the words, the column maximum subtracted. -/
theorem smax2_eq (z : Fin 128 → Fin 512 → Fin 512 → EReal) :
    Stages.smax2 (F := Ideal) (Attn.arr3 z) = Attn.arr3 (Attn.soft2s z) := by
  funext j
  obtain ⟨n, l, r, rfl⟩ : ∃ (n : Fin 128) (l : Fin 512) (r : Fin 512), j = ix3 n l r := ⟨j 0, j 1, j 2, eq_ix3 j⟩
  have hE : ∀ k : Fin 512, _ = Ideal.exp (Attn.arr3 z (ix3 n k r) - Attn.max2 z n r) := fun k =>
    exp2_of (Attn.arr3 z) _ (Attn.max2 z n r) n k r (colMax_apply z n r)
  refine (div2_apply _ n l r).trans ?_
  rw [hE l, Finset.sum_congr rfl (fun k _ => hE k)]
  rfl

/-! ## The attention-weighted sums and the cosine -/

/-- The weighted sum over the regions. -/
theorem att1_eq (S : Fin 128 → Fin 512 → Fin 512 → EReal) (q : Fin 128 → Fin 512 → Fin 256 → EReal) :
    Host.dotGeneral (F := Ideal) (φ₁ := .f32) (φ₂ := .f32) dot_S128x512x512_S128x512x256_S128x512x256_2_1_1_2_0_0 none
      (Attn.arr3 S) (Attn.arr3 q) = Attn.arr3 (Attn.att1 S q) := by
  funext j
  obtain ⟨n, l, d, rfl⟩ : ∃ (n : Fin 128) (l : Fin 512) (d : Fin 256), j = ix3 n l d := ⟨j 0, j 1, j 2, eq_ix3 j⟩
  exact Cert.LibDot3.mixDims_dot (φ₁ := .f32) (φ₂ := .f32) dot_S128x512x512_S128x512x256_S128x512x256_2_1_1_2_0_0_wf none
    (Attn.arr3 S) (Attn.arr3 q) n l d

/-- The weighted sum over the words. -/
theorem att2_eq (S : Fin 128 → Fin 512 → Fin 512 → EReal) (p : Fin 128 → Fin 512 → Fin 256 → EReal) :
    Host.dotGeneral (F := Ideal) (φ₁ := .f32) (φ₂ := .f32) dot_S128x512x512_S128x512x256_S128x512x256_1_1_2_2_0_0 none
      (Attn.arr3 S) (Attn.arr3 p) = Attn.arr3 (Attn.att2 S p) := by
  funext j
  obtain ⟨n, r, d, rfl⟩ : ∃ (n : Fin 128) (r : Fin 512) (d : Fin 256), j = ix3 n r d := ⟨j 0, j 1, j 2, eq_ix3 j⟩
  exact Cert.LibDot3.mixTDims_dot (φ₁ := .f32) (φ₂ := .f32) dot_S128x512x512_S128x512x256_S128x512x256_1_1_2_2_0_0_wf none
    (Attn.arr3 S) (Attn.arr3 p) n r d

/-- The cosine along the feature axis, with ε in the denominator. -/
theorem cosv_eq (u v : Fin 128 → Fin 512 → Fin 256 → EReal) :
    Stages.cosv (F := Ideal) (Attn.arr3 u) (Attn.arr3 v) = Attn.arr2 (Attn.cosv u v) := by
  funext j
  obtain ⟨n, l, rfl⟩ : ∃ (n : Fin 128) (l : Fin 512), j = ix2 n l := ⟨j 0, j 1, eq_ix2 j⟩
  have hs := Cert.LibOps3.hostSum_axis2_apply (mulf (Attn.arr3 u : FVec Ideal S128x512x256 .f32) (Attn.arr3 v))
    (constant (F := Ideal) S_ .f32 0x00000000#32) reducesTo_S128x512x256_S128x512_d2 (by decide) h_S_ n l
  rw [zero_const, zero_add] at hs
  have he : broadcastInDim S128x512 ![] bcast_S_S128x512 (constant (F := Ideal) S_ .f32 0x322BCC77#32) (ix2 n l) = Attn.eps :=
    Cert.LibLayout3.bcast_scalar_apply _ bcast_S_S128x512 _ _
  exact congrArg₂ Ideal.div hs
    (congrArg₂ (· + ·) (congrArg₂ (· * ·) (norm0_apply (Attn.arr3 u) n l) (norm0_apply (Attn.arr3 v) n l)) he)

/-! ## The two relevance arrays, the mean and the result -/

theorem rel1_fun (p q : Fin 128 → Fin 512 → Fin 256 → EReal) :
    Stages.rel1 (F := Ideal) (Attn.arr3 p) (Attn.arr3 q) = Attn.arr2 (Attn.relR1 p q) := by
  unfold Stages.rel1
  rw [score_eq, smax1_eq, att1_eq, cosv_eq]
  rfl

theorem rel2_fun (p q : Fin 128 → Fin 512 → Fin 256 → EReal) :
    Stages.rel2 (F := Ideal) (Attn.arr3 p) (Attn.arr3 q) = Attn.arr2 (Attn.relR2 p q) := by
  unfold Stages.rel2
  rw [score_eq, smax2_eq, att2_eq, cosv_eq]
  rfl

theorem rel1_eq (p q : FVec Ideal S128x512x256 .f32) :
    Stages.rel1 (F := Ideal) p q = Attn.arr2 (Attn.relR1 (Attn.cur3 p) (Attn.cur3 q)) := by
  have h := rel1_fun (Attn.cur3 p) (Attn.cur3 q)
  rwa [Attn.arr3_cur3, Attn.arr3_cur3] at h

theorem rel2_eq (p q : FVec Ideal S128x512x256 .f32) :
    Stages.rel2 (F := Ideal) p q = Attn.arr2 (Attn.relR2 (Attn.cur3 p) (Attn.cur3 q)) := by
  have h := rel2_fun (Attn.cur3 p) (Attn.cur3 q)
  rwa [Attn.arr3_cur3, Attn.arr3_cur3] at h

/-- The mean over the 512 positions. -/
theorem mean_fun (c : Fin 128 → Fin 512 → EReal) :
    Stages.mean (F := Ideal) (Attn.arr2 c) = Attn.arr1 (Attn.mean c) := by
  funext j
  obtain ⟨n, rfl⟩ : ∃ n : Fin 128, j = ix1 n := ⟨j 0, eq_ix1 j⟩
  have hs := Cert.LibGram.hostLaneSum_apply (Attn.arr2 c : FVec Ideal S128x512 .f32)
    (constant (F := Ideal) S_ .f32 0x00000000#32) reducesTo_S128x512_S128_d1 (by decide) h_S_ n
  rw [zero_const, zero_add] at hs
  have hc : broadcastInDim S128 ![] bcast_S_S128 (constant (F := Ideal) S_ .f32 0x44000000#32) (ix1 n) = Attn.cnt :=
    Cert.LibLayout3.bcast_scalar_apply _ bcast_S_S128 _ _
  exact congrArg₂ Ideal.div hs hc

theorem mean_eq (c : FVec Ideal S128x512 .f32) : Stages.mean (F := Ideal) c = Attn.arr1 (Attn.mean (Attn.cur2 c)) := by
  have h := mean_fun (Attn.cur2 c)
  rwa [Attn.arr2_cur2] at h

/-- The reference's result is the specification's function of the six arguments. -/
theorem out_eq (text : FVec Ideal S128x512x300 .f32) (image : FVec Ideal S128x512x1024 .f32) (Wt : FVec Ideal S300x256 .f32)
    (bt : FVec Ideal S256 .f32) (Wi : FVec Ideal S1024x256 .f32) (bi : FVec Ideal S256 .f32) :
    Stages.out (F := Ideal) text image Wt bt Wi bi = Attn.GR text image Wt bt Wi bi := by
  unfold Stages.out
  rw [featT_eq, featI_eq, rel1_fun, rel2_fun, mean_fun, mean_fun]
  rfl

end Cert.ReferenceIdeal.Read

end
-- ==== Proof.LibTwoHop.lean ====
import Mathlib.Data.EReal.Operations
import Mathlib.Algebra.BigOperators.Group.Finset.Sigma
import Mathlib.Algebra.BigOperators.Ring.Finset
import Mathlib.Tactic.Ring

/-!
# Commuting a graph propagation with a feature projection, over the extended reals

A graph propagation sends an array `v` indexed by nodes to the array whose value at a node `n`
is the sum, over the edges `e` landing on `n`, of `c e * v (src e)`.  A projection sends a
row `x n ·` of features to the single number `∑ k, x n k * w k`.  The first acts on the node
axis, the second on the feature axis, so over the real numbers they commute: it is the
interchange of two finite sums together with associativity and distributivity.

Over the extended reals `EReal = ℝ ∪ {⊥, ⊤}` multiplication does not distribute over addition
when infinities are present (for instance `⊤ * (1 + (-1)) = 0` whereas `⊤ * 1 + ⊤ * (-1)` is
`⊤ + ⊥ = ⊥`).  The law is therefore stated for data all of whose entries are real numbers.
Then each side is the coercion of a real number, and the two real numbers are equal by the
usual algebra of finite sums.
-/

open scoped BigOperators

namespace Cert.Lib.TwoHop

/-- An extended real that is a real number. -/
def IsReal (a : EReal) : Prop := ∃ r : ℝ, a = (r : EReal)

/-- Zero is a real number. -/
theorem IsReal.zero : IsReal 0 := ⟨0, EReal.coe_zero.symm⟩

/-- The coercion of a real number is a real number. -/
theorem IsReal.coe (r : ℝ) : IsReal (r : EReal) := ⟨r, rfl⟩

/-- The sum of two real numbers is a real number: `↑r + ↑s = ↑(r + s)`. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number: `↑r * ↑s = ↑(r * s)`. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A finite sum of real numbers is a real number (induction on the index set, using that zero
is real and that the sum of two reals is real). -/
theorem IsReal.sum {ι : Type*} (s : Finset ι) (f : ι → EReal) (h : ∀ i ∈ s, IsReal (f i)) :
    IsReal (∑ i ∈ s, f i) := by
  classical
  revert h
  refine Finset.induction_on s ?_ ?_
  · intro _
    rw [Finset.sum_empty]
    exact IsReal.zero
  · intro a t ha ih h
    rw [Finset.sum_insert ha]
    exact IsReal.add (h a (Finset.mem_insert_self a t))
      (ih fun i hi => h i (Finset.mem_insert_of_mem hi))

/-- An extended real is a real number exactly when it is neither `⊤` nor `⊥`. -/
theorem isReal_iff (a : EReal) : IsReal a ↔ a ≠ ⊤ ∧ a ≠ ⊥ := by
  constructor
  · rintro ⟨r, rfl⟩
    exact ⟨EReal.coe_ne_top r, EReal.coe_ne_bot r⟩
  · rintro ⟨h1, h2⟩
    exact ⟨a.toReal, (EReal.coe_toReal h1 h2).symm⟩

/-- |a| < ⊤, in the form max a (−a) < ⊤, says a is real. -/
theorem isReal_of_abs_lt_top {a : EReal} (h : max a (-a) < ⊤) : IsReal a := by
  rw [max_lt_iff] at h
  refine (isReal_iff a).2 ⟨ne_of_lt h.1, ?_⟩
  intro hb
  have h2 : -a < ⊤ := h.2
  rw [hb, EReal.neg_bot] at h2
  exact lt_irrefl _ h2

/-- The coercion `ℝ → EReal` commutes with finite sums (induction on the index set, using
`↑0 = 0` and `↑(r + s) = ↑r + ↑s`). -/
theorem coe_finset_sum {ι : Type*} (s : Finset ι) (f : ι → ℝ) :
    ((∑ i ∈ s, f i : ℝ) : EReal) = ∑ i ∈ s, (f i : EReal) := by
  classical
  refine Finset.induction_on s ?_ ?_
  · rw [Finset.sum_empty, Finset.sum_empty]
    exact EReal.coe_zero
  · intro a t ha ih
    rw [Finset.sum_insert ha, Finset.sum_insert ha, EReal.coe_add, ih]

/-- The real-number form of the one-hop law: interchange the two finite sums and reassociate
the products, `(∑ e, c e * x (src e) k) * w k` summed over `k` equals
`c e * ∑ k, x (src e) k * w k` summed over `e`. -/
theorem one_hop_real {ι ν δ : Type*} [Fintype δ] (T : Finset ι) (src : ι → ν) (c : ι → ℝ)
    (x : ν → δ → ℝ) (w : δ → ℝ) :
    ∑ k, (∑ e ∈ T, c e * x (src e) k) * w k = ∑ e ∈ T, c e * (∑ k, x (src e) k * w k) := by
  simp only [Finset.sum_mul, Finset.mul_sum]
  rw [Finset.sum_comm]
  refine Finset.sum_congr rfl fun e _ => Finset.sum_congr rfl fun k _ => ?_
  ring

/-- ONE HOP: the projection of a propagated array is the propagation of the projected array. -/
theorem one_hop {ι ν δ : Type*} [Fintype δ] (S : ν → Finset ι) (src : ι → ν) (c : ι → EReal)
    (x : ν → δ → EReal) (w : δ → EReal)
    (hc : ∀ e, IsReal (c e)) (hx : ∀ n k, IsReal (x n k)) (hw : ∀ k, IsReal (w k)) (n : ν) :
    ∑ k, (∑ e ∈ S n, c e * x (src e) k) * w k = ∑ e ∈ S n, c e * (∑ k, x (src e) k * w k) := by
  -- name the real numbers behind the entries
  choose cr hcr using hc
  choose xr hxr using hx
  choose wr hwr using hw
  -- the identity between real numbers, transported along the coercion
  have key := congrArg (fun r : ℝ => (r : EReal)) (one_hop_real (S n) src cr xr wr)
  -- push the coercion through the sums and products: both sides become the stated ones
  simp only [coe_finset_sum, EReal.coe_mul] at key
  simp only [hcr, hxr, hwr]
  exact key

/-- TWO HOPS: the same law through two propagations. -/
theorem two_hop {ι ν δ : Type*} [Fintype δ] (S : ν → Finset ι) (src : ι → ν) (c : ι → EReal)
    (x : ν → δ → EReal) (w : δ → EReal)
    (hc : ∀ e, IsReal (c e)) (hx : ∀ n k, IsReal (x n k)) (hw : ∀ k, IsReal (w k)) (n : ν) :
    ∑ k, (∑ e ∈ S n, c e * (∑ e' ∈ S (src e), c e' * x (src e') k)) * w k
      = ∑ e ∈ S n, c e * (∑ e' ∈ S (src e), c e' * (∑ k, x (src e') k * w k)) := by
  -- the once-propagated array is again real-valued
  have hy : ∀ m k, IsReal (∑ e' ∈ S m, c e' * x (src e') k) := fun m k =>
    IsReal.sum _ _ fun e' _ => IsReal.mul (hc e') (hx (src e') k)
  -- outer hop: apply the one-hop law to the once-propagated array
  have h1 := one_hop S src c (fun m k => ∑ e' ∈ S m, c e' * x (src e') k) w hc hy hw n
  refine h1.trans ?_
  -- inner hop: at each source node apply the one-hop law to the original array
  refine Finset.sum_congr rfl fun e _ => ?_
  rw [one_hop S src c x w hc hx hw (src e)]

end Cert.Lib.TwoHop
-- ==== Proof.LibSoftmaxLaw.lean ====
/-
  A softmax-weighted sum over the extended reals, normalised in two orders.

  For a row `v` of scores in `ℝ ∪ {⊥}` (an entry `⊥` is a masked one) with at least one entry that is not `⊥`, let
  `M` be the row's maximum and `w s = exp (v s - M)` its weights: each `w s` is a real in `[0, 1]`, a masked entry's
  weight is `0`, and the entry at which the maximum is attained has weight `1`, so the weights' sum `L` is a real
  `≥ 1`. For real factors `c s`, dividing the weighted sum by `L` is then the sum of the weights each divided by `L`:
      (∑ s, w s · c s) / L = ∑ s, (w s / L) · c s ,
  the real identity `(∑ p·c) · L⁻¹ = ∑ (p · L⁻¹) · c`. (Without an unmasked entry every weight is `exp (⊥ - ⊥) = 0`,
  `L = 0`, and the two sides are different junk values of `0 / 0`: the hypothesis is needed.)
-/
import Idealize.ShloMosaic.PureOps.Ideal
import Mathlib.Data.EReal.Basic
import Mathlib.Algebra.BigOperators.Field
import Mathlib.Data.Finset.Fold

noncomputable section

namespace Cert.SoftmaxLaw

open Idealize.ShloMosaic

variable {ι : Type} [Fintype ι]

/-- A row's maximum, folded from `⊥`. -/
def rowMax (v : ι → EReal) : EReal := (Finset.univ : Finset ι).fold max ⊥ v

/-- A row's softmax weights before normalisation: `exp (v s - max v)`. -/
def wgt (v : ι → EReal) (s : ι) : EReal := Ideal.exp (v s - rowMax v)

/-- A finite sum of reals, taken in the extended reals, is the real sum. -/
theorem coe_sum (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- A maximum folded from `⊥` over a finite set is `⊥` or is attained on the set. -/
theorem fold_max_attained (t : Finset ι) (v : ι → EReal) :
    t.fold max ⊥ v = ⊥ ∨ ∃ x ∈ t, v x = t.fold max ⊥ v := by
  classical
  induction t using Finset.induction_on with
  | empty => left; simp
  | insert a t ha ih =>
    rw [Finset.fold_insert ha]
    rcases le_total (v a) (t.fold max ⊥ v) with h | h
    · rw [max_eq_right h]
      rcases ih with h0 | ⟨x, hx, hxe⟩
      · left; exact h0
      · right; exact ⟨x, Finset.mem_insert_of_mem hx, hxe⟩
    · rw [max_eq_left h]
      right; exact ⟨a, Finset.mem_insert_self a t, rfl⟩

/-- Dividing the weighted sum by the weights' sum is summing the normalised weights' products. -/
theorem div_sum_eq_sum_div (v c : ι → EReal) (hv : ∀ s, v s ≠ ⊤) (hex : ∃ s, v s ≠ ⊥)
    (hc : ∀ s, c s ≠ ⊤ ∧ c s ≠ ⊥) :
    Ideal.div (∑ s, wgt v s * c s) (∑ s, wgt v s) = ∑ s, Ideal.div (wgt v s) (∑ s', wgt v s') * c s := by
  classical
  obtain ⟨s₁, hs₁⟩ := hex
  -- the maximum bounds every entry, is not `⊤`, is not `⊥`, and is attained
  have hle : ∀ s, v s ≤ rowMax v := fun s =>
    (Finset.le_fold_max (v s)).mpr (Or.inr ⟨s, Finset.mem_univ s, le_rfl⟩)
  have hMtop : rowMax v ≠ ⊤ := lt_top_iff_ne_top.mp
    ((Finset.fold_max_lt ⊤).mpr ⟨bot_lt_top, fun x _ => lt_top_iff_ne_top.mpr (hv x)⟩)
  have hMbot : rowMax v ≠ ⊥ := fun h => hs₁ (le_bot_iff.mp (h ▸ hle s₁))
  obtain ⟨s₀, -, hs₀⟩ : ∃ x ∈ (Finset.univ : Finset ι), v x = rowMax v := by
    rcases fold_max_attained Finset.univ v with h | h
    · exact absurd h hMbot
    · exact h
  obtain ⟨Mr, hMr⟩ : ∃ Mr : ℝ, (Mr : EReal) = rowMax v :=
    ⟨(rowMax v).toReal, EReal.coe_toReal hMtop hMbot⟩
  -- every weight is a nonnegative real, and the weight at the maximum is `1`
  have hw : ∀ s, ∃ p : ℝ, wgt v s = (p : EReal) ∧ 0 ≤ p ∧ (v s = rowMax v → p = 1) := by
    intro s
    have hvs := hv s
    simp only [wgt, ← hMr]
    generalize v s = x at hvs ⊢
    induction x using EReal.rec with
    | bot =>
      refine ⟨0, ?_, le_rfl, fun h => absurd h (EReal.bot_ne_coe Mr)⟩
      rw [EReal.bot_sub, Ideal.exp_bot, EReal.coe_zero]
    | coe r =>
      refine ⟨Real.exp (r - Mr), ?_, (Real.exp_pos _).le, fun h => ?_⟩
      · rw [← EReal.coe_sub, Ideal.exp_coe]
      · rw [EReal.coe_eq_coe_iff.mp h, sub_self, Real.exp_zero]
    | top => exact absurd rfl hvs
  choose p hp hp0 hp1 using hw
  -- the weights' sum is a real `≥ 1`
  have hsumw : ∑ s, wgt v s = ((∑ s, p s : ℝ) : EReal) := by
    rw [← coe_sum]; exact Finset.sum_congr rfl (fun s _ => hp s)
  have hLpos : (0 : ℝ) < ∑ s, p s := by
    have h1 : p s₀ ≤ ∑ s, p s :=
      Finset.single_le_sum (fun i _ => hp0 i) (Finset.mem_univ s₀)
    rw [hp1 s₀ hs₀] at h1
    linarith
  have hL : (∑ s, p s) ≠ 0 := ne_of_gt hLpos
  -- the factors are reals
  have hcr : ∀ s, ∃ r : ℝ, c s = (r : EReal) := fun s =>
    ⟨(c s).toReal, (EReal.coe_toReal (hc s).1 (hc s).2).symm⟩
  choose cr hcr using hcr
  calc Ideal.div (∑ s, wgt v s * c s) (∑ s, wgt v s)
      = (∑ s, ((p s * cr s : ℝ) : EReal)) * ((1 / (∑ s, p s) : ℝ) : EReal) := by
        rw [hsumw, Ideal.div_coe hL]
        congr 1
        exact Finset.sum_congr rfl (fun s _ => by rw [hp s, hcr s, EReal.coe_mul])
    _ = (((∑ s, p s * cr s) * (1 / (∑ s, p s)) : ℝ) : EReal) := by
        rw [coe_sum, EReal.coe_mul]
    _ = ((∑ s, p s * (1 / (∑ s', p s')) * cr s : ℝ) : EReal) := by
        congr 1
        rw [Finset.sum_mul]
        exact Finset.sum_congr rfl (fun s _ => by ring)
    _ = ∑ s, ((p s * (1 / (∑ s', p s')) * cr s : ℝ) : EReal) := (coe_sum _ _).symm
    _ = ∑ s, Ideal.div (wgt v s) (∑ s', wgt v s') * c s := by
        refine Finset.sum_congr rfl (fun s _ => ?_)
        rw [hsumw, Ideal.div_coe hL, hp s, hcr s, EReal.coe_mul, EReal.coe_mul]

end Cert.SoftmaxLaw

end
-- ==== Proof.SpecLaw.lean ====
/-
  The one law that joins the two programs, and where it needs real numbers.

  The kernel takes `exp z / ∑ exp z`; the reference first subtracts the row's maximum `M`:
  `exp (z - M) / ∑ exp (z - M)`.  For real scores these are equal, since `exp (z - M) = exp z · exp (-M)` and the
  common factor `exp (-M) > 0` cancels.  Over the extended reals the cancellation fails at infinite scores, so the law
  is stated for real-valued rows; the scores ARE real when the six inputs are, because every step from the inputs to
  the scores (finite sums of products, a square root of a sum of squares, a quotient by a positive number, the
  leaky-relu) keeps real numbers real.

  The two leaky-relus (`a > 0` against `a ≥ 0` as the test) differ only at `a = 0`, where both give `0`.
-/
import proofs.«150999_j3109556323149_2_alg».proof.Proof.Spec
import proofs.«150999_j3109556323149_2_alg».proof.Proof.LibTwoHop
import proofs.«150999_j3109556323149_2_alg».proof.Proof.LibSoftmaxLaw
import Mathlib.Analysis.SpecialFunctions.Exp
import Mathlib.Analysis.SpecialFunctions.Sqrt

open scoped BigOperators

noncomputable section

namespace Attn

open Idealize.ShloMosaic Cert.Lib.TwoHop

/-! ## The leaky-relus -/

theorem leaky_eq (a : EReal) : leakyGt a = leakyGe a := by
  unfold leakyGt leakyGe Scalar.select Ideal.cmp
  rcases lt_trichotomy (0 : EReal) a with h | h | h
  · simp [h, h.le]
  · subst h; simp
  · simp [not_lt.2 h.le, not_le.2 h]

theorem scoreGt_eq {N : Nat} (p q : Fin N → Fin 512 → Fin 256 → EReal) : scoreGt p q = scoreGe p q := by
  funext n l r
  simp only [scoreGt, scoreGe, leaky_eq]

/-! ## The literals are real numbers -/

theorem eps_pos : ∃ r : ℝ, 0 < r ∧ eps = (r : EReal) := by
  refine ⟨(2 ^ 23 + 2870391 : ℕ) * (2 : ℝ) ^ ((100 : ℤ) - 127 - 23), by positivity, ?_⟩
  simp [eps, Ideal.ofBits, Ideal.ieee]

theorem slope_real : IsReal slope := by
  refine ⟨(2 ^ 23 + 5033165 : ℕ) * (2 : ℝ) ^ ((123 : ℤ) - 127 - 23), ?_⟩
  simp [slope, Ideal.ofBits, Ideal.ieee]

theorem lam_real : IsReal lam := by
  refine ⟨(2 ^ 23 + 1048576 : ℕ) * (2 : ℝ) ^ ((130 : ℤ) - 127 - 23), ?_⟩
  simp [lam, Ideal.ofBits, Ideal.ieee]

theorem ninf_eq : ninf = ⊥ := by
  simp [ninf, Ideal.ofBits, Ideal.ieee]

/-! ## Softmax does not see a common shift -/

section Shift

variable {ι : Type} [Fintype ι] [Nonempty ι]

/-- The maximum of a row of real numbers, folded from `⊥`, is a real number. -/
theorem fold_max_real (x : ι → ℝ) : ∃ M : ℝ, (Finset.univ : Finset ι).fold max (⊥ : EReal) (fun k => (x k : EReal)) = (M : EReal) := by
  rcases Cert.SoftmaxLaw.fold_max_attained (Finset.univ : Finset ι) (fun k => (x k : EReal)) with h | ⟨k, -, hk⟩
  · exfalso
    obtain ⟨k⟩ := ‹Nonempty ι›
    have hle : ((x k : ℝ) : EReal) ≤ (Finset.univ : Finset ι).fold max ⊥ (fun k => (x k : EReal)) :=
      (Finset.le_fold_max _).mpr (Or.inr ⟨k, Finset.mem_univ k, le_rfl⟩)
    rw [h] at hle
    exact EReal.coe_ne_bot _ (le_bot_iff.mp hle)
  · exact ⟨x k, hk.symm⟩

/-- For a row of real scores, the softmax taken after subtracting the row's maximum is the plain softmax. -/
theorem softmax_shift (z : ι → EReal) (hz : ∀ k, IsReal (z k)) (r : ι) :
    Ideal.div (Ideal.exp (z r - max ninf ((Finset.univ : Finset ι).fold max ninf z)))
        (∑ k, Ideal.exp (z k - max ninf ((Finset.univ : Finset ι).fold max ninf z)))
      = Ideal.div (Ideal.exp (z r)) (∑ k, Ideal.exp (z k)) := by
  choose x hx using hz
  have hzx : z = fun k => (x k : EReal) := funext hx
  subst hzx
  obtain ⟨M, hM⟩ := fold_max_real x
  rw [ninf_eq, hM, max_eq_right bot_le]
  have e1 : ∀ k, Ideal.exp (((x k : ℝ) : EReal) - (M : EReal)) = ((Real.exp (x k - M) : ℝ) : EReal) := fun k => by
    rw [← EReal.coe_sub]; exact Ideal.exp_coe _
  have e2 : ∀ k, Ideal.exp ((x k : ℝ) : EReal) = ((Real.exp (x k) : ℝ) : EReal) := fun k => Ideal.exp_coe _
  simp only [e1, e2]
  rw [Cert.SoftmaxLaw.coe_sum, Cert.SoftmaxLaw.coe_sum]
  have hpos1 : (0 : ℝ) < ∑ k, Real.exp (x k - M) := Finset.sum_pos (fun k _ => Real.exp_pos _) Finset.univ_nonempty
  have hpos2 : (0 : ℝ) < ∑ k, Real.exp (x k) := Finset.sum_pos (fun k _ => Real.exp_pos _) Finset.univ_nonempty
  rw [Ideal.div_coe hpos1.ne', Ideal.div_coe hpos2.ne', ← EReal.coe_mul, ← EReal.coe_mul]
  congr 1
  have hs : ∑ k, Real.exp (x k - M) = (∑ k, Real.exp (x k)) / Real.exp M := by
    rw [Finset.sum_div]; exact Finset.sum_congr rfl fun k _ => Real.exp_sub _ _
  rw [hs, Real.exp_sub]
  have hM0 : Real.exp M ≠ 0 := (Real.exp_pos M).ne'
  field_simp

end Shift

end Attn

end
-- ==== Proof.SpecLaw2.lean ====
/-
  From real inputs to equal results.

  Real inputs give real features: the projection is a finite sum of products plus a bias entry; its row's sum of
  squares is a nonnegative real, the square root of that a nonnegative real, adding ε a positive real, and a real
  divided by a positive real is a real.  Real features give real scores (a finite sum of products, the leaky-relu, a
  factor 9).  For real scores the softmax with the maximum subtracted is the plain softmax (`softmax_shift`), along
  either axis; the two leaky-relus agree; so the kernel's and the reference's relevance arrays, and their results, are
  equal.
-/
import proofs.«150999_j3109556323149_2_alg».proof.Proof.SpecLaw

open scoped BigOperators

noncomputable section

namespace Attn

open Idealize.ShloMosaic Cert.Lib.TwoHop

theorem isReal_div_pos {a : EReal} (ha : IsReal a) {r : ℝ} (hr : 0 < r) : IsReal (Ideal.div a (r : EReal)) := by
  rw [Ideal.div_coe hr.ne']
  exact IsReal.mul ha (IsReal.coe _)

/-- The square root of a sum of squares of real numbers is a nonnegative real number. -/
theorem sqrt_sumsq_real {ι : Type} [Fintype ι] (y : ι → EReal) (hy : ∀ k, IsReal (y k)) :
    ∃ s : ℝ, 0 ≤ s ∧ Ideal.sqrt (∑ k, y k * y k) = (s : EReal) := by
  choose v hv using hy
  have h : ∑ k, y k * y k = ((∑ k, v k * v k : ℝ) : EReal) := by
    rw [← Cert.SoftmaxLaw.coe_sum]
    exact Finset.sum_congr rfl fun k _ => by rw [hv k, EReal.coe_mul]
  rw [h, Ideal.sqrt_coe, if_neg (not_lt.2 (Finset.sum_nonneg fun k _ => mul_self_nonneg _))]
  exact ⟨Real.sqrt _, Real.sqrt_nonneg _, rfl⟩

variable {N K : Nat}

theorem lin_real (x : Fin N → Fin 512 → Fin K → EReal) (W : Fin K → Fin 256 → EReal) (b : Fin 256 → EReal)
    (hx : ∀ n l e, IsReal (x n l e)) (hW : ∀ e d, IsReal (W e d)) (hb : ∀ d, IsReal (b d)) (n : Fin N) (l : Fin 512) (d : Fin 256) :
    IsReal (lin x W b n l d) :=
  IsReal.add (IsReal.sum _ _ fun e _ => IsReal.mul (hx n l e) (hW e d)) (hb d)

theorem unit_real (y : Fin N → Fin 512 → Fin 256 → EReal) (hy : ∀ n l d, IsReal (y n l d)) (n : Fin N) (l : Fin 512) (d : Fin 256) :
    IsReal (unit y n l d) := by
  obtain ⟨s, hs0, hs⟩ := sqrt_sumsq_real (fun k => y n l k) (hy n l)
  obtain ⟨e, he0, he⟩ := eps_pos
  unfold unit
  rw [hs, he, ← EReal.coe_add]
  exact isReal_div_pos (hy n l d) (add_pos_of_nonneg_of_pos hs0 he0)

theorem feat_real (x : Fin N → Fin 512 → Fin K → EReal) (W : Fin K → Fin 256 → EReal) (b : Fin 256 → EReal)
    (hx : ∀ n l e, IsReal (x n l e)) (hW : ∀ e d, IsReal (W e d)) (hb : ∀ d, IsReal (b d)) (n : Fin N) (l : Fin 512) (d : Fin 256) :
    IsReal (feat x W b n l d) :=
  unit_real _ (lin_real x W b hx hW hb) n l d

theorem leakyGe_real {a : EReal} (ha : IsReal a) : IsReal (leakyGe a) := by
  unfold leakyGe Scalar.select
  split
  · exact ha
  · exact IsReal.mul slope_real ha

theorem scoreGe_real (p q : Fin N → Fin 512 → Fin 256 → EReal) (hp : ∀ n l d, IsReal (p n l d)) (hq : ∀ n l d, IsReal (q n l d))
    (n : Fin N) (l r : Fin 512) : IsReal (scoreGe p q n l r) :=
  IsReal.mul lam_real (leakyGe_real (IsReal.sum _ _ fun d _ => IsReal.mul (hp n l d) (hq n r d)))

theorem soft1s_eq (z : Fin N → Fin 512 → Fin 512 → EReal) (hz : ∀ n l r, IsReal (z n l r)) : soft1s z = soft1 z := by
  funext n l r
  exact softmax_shift (fun k => z n l k) (hz n l) r

theorem soft2s_eq (z : Fin N → Fin 512 → Fin 512 → EReal) (hz : ∀ n l r, IsReal (z n l r)) : soft2s z = soft2 z := by
  funext n l r
  exact softmax_shift (fun k => z n k r) (fun k => hz n k r) l

theorem relK1_eq_relR1 (p q : Fin N → Fin 512 → Fin 256 → EReal) (hp : ∀ n l d, IsReal (p n l d)) (hq : ∀ n l d, IsReal (q n l d)) :
    relK1 p q = relR1 p q := by
  unfold relK1 relR1
  rw [scoreGt_eq, soft1s_eq _ (scoreGe_real p q hp hq)]

theorem relK2_eq_relR2 (p q : Fin N → Fin 512 → Fin 256 → EReal) (hp : ∀ n l d, IsReal (p n l d)) (hq : ∀ n l d, IsReal (q n l d)) :
    relK2 p q = relR2 p q := by
  unfold relK2 relR2
  rw [scoreGt_eq, soft2s_eq _ (scoreGe_real p q hp hq)]

/-- On real inputs the kernel's and the reference's results are one function. -/
theorem GK_eq_GR (text : T300.Idx → EReal) (image : T1024.Idx → EReal) (Wt : W300.Idx → EReal) (bt : B256.Idx → EReal)
    (Wi : W1024.Idx → EReal) (bi : B256.Idx → EReal)
    (h0 : ∀ i, IsReal (text i)) (h1 : ∀ i, IsReal (image i)) (h2 : ∀ i, IsReal (Wt i)) (h3 : ∀ i, IsReal (bt i))
    (h4 : ∀ i, IsReal (Wi i)) (h5 : ∀ i, IsReal (bi i)) :
    GK text image Wt bt Wi bi = GR text image Wt bt Wi bi := by
  have hF := feat_real (cur3 text) (cur2 Wt) (cur1 bt) (fun n l e => h0 _) (fun e d => h2 _) (fun d => h3 _)
  have hI := feat_real (cur3 image) (cur2 Wi) (cur1 bi) (fun n l e => h1 _) (fun e d => h4 _) (fun d => h5 _)
  unfold GK GR
  rw [relK1_eq_relR1 _ _ hF hI, relK2_eq_relR2 _ _ hF hI]

end Attn

end
-- ==== Proof.LibRealIdeal.lean ====
import Idealize.ShloMosaic.PureOps.Ideal
import Idealize.ShloMosaic.Lib.ValueIdx
import proofs.«150999_j3109556323149_2_alg».proof.Proof.LibTwoHop

/-!
# Real-valuedness of a few array operations over the extended reals

When every float is read as an extended real, an array is a function from its index set to
`EReal`.  This file records which of the operations met here keep an array real-valued (every
entry the coercion of a real number), and how a finiteness test `|a| < +∞` is read as
"`a` is a real number":

* the words of `0.0` and `1.0` denote the real numbers 0 and 1;
* an accumulating scatter is, entry by entry, an operand entry plus a finite sum of update
  entries, hence real when operand and updates are;
* a gather only moves entries;
* `deg ↦ where(deg > 0, deg^(-1/2), 0)` is real on real `deg`: for `deg > 0` the reciprocal
  square root is the real number `(√deg)⁻¹`, and otherwise the guard selects `0`;
* `max a (-a) < ⊤` excludes `a = ⊤` and `a = ⊥`, so `a` is a real number.
-/

open scoped BigOperators

noncomputable section

namespace Cert.Lib.RealIdeal

open Idealize.ShloMosaic Cert.Lib.TwoHop

/-- The word of `+0.0` denotes the extended real `0`. -/
theorem ofBits_zero_word : Ideal.ofBits .f32 0x00000000#32 = 0 := by
  simp [Ideal.ofBits, Ideal.ieee]

/-- The word of `+∞` (all-ones exponent, zero significand, sign `+`) denotes `⊤`. -/
theorem ofBits_inf_word : Ideal.ofBits .f32 0x7F800000#32 = ⊤ := by
  simp [Ideal.ofBits, Ideal.ieee]

/-- The word of `1.0` (exponent field equal to the bias, zero significand) denotes `1`. -/
theorem ofBits_one_word : Ideal.ofBits .f32 0x3F800000#32 = 1 := by
  simp [Ideal.ofBits, Ideal.ieee, -EReal.coe_mul]; norm_num

/-- A one-bit word built from a decidable proposition is `1` exactly when the proposition
holds. -/
theorem ofBool_decide_eq_one (p : Prop) [Decidable p] : BitVec.ofBool (decide p) = 1#1 ↔ p := by
  by_cases hp : p <;> simp [hp]

/-- The float zero is a real number. -/
theorem isReal_zero_word : IsReal (Ideal.ofBits .f32 0x00000000#32) := by
  rw [ofBits_zero_word]; exact IsReal.zero

/-- The float one is a real number. -/
theorem isReal_one_word : IsReal (Ideal.ofBits .f32 0x3F800000#32) := by
  rw [ofBits_one_word]; exact ⟨1, EReal.coe_one.symm⟩

/-- a sum-scatter of real updates into a real operand is real (any dimension numbers): each
result entry is the operand entry plus the finite sum of the update entries landing on it. -/
theorem isReal_scatterAdd {s si su : Shape} {w : Nat} {φ : FTy} (d : ScatterDims s si su)
    (x : FVec Ideal s φ) (idx : IVec si w) (upd : FVec Ideal su φ)
    (hx : ∀ i, IsReal (x i)) (hu : ∀ j, IsReal (upd j)) (i : s.Idx) :
    IsReal (Host.scatterAdd (F := Ideal) d x idx upd i) := by
  show IsReal (x i + ∑ j ∈ Finset.univ.filter (fun j => d.resultIdx? j idx = some i), upd j)
  exact IsReal.add (hx i) (IsReal.sum _ _ fun j _ => hu j)

/-- a gather only moves elements: each result entry is one of the operand's entries. -/
theorem isReal_gather {s si t : Shape} {w : Nat} (d : GatherDims s si t) (x : s.Idx → EReal)
    (idx : IVec si w) (hx : ∀ i, IsReal (x i)) (j : t.Idx) : IsReal (Host.gather d x idx j) :=
  hx (d.operandIdx j idx)

/-- deg ↦ where(deg > 0, deg^(-1/2), 0) is real on reals: rsqrt of a positive real is a real,
and elsewhere the guard picks 0. -/
theorem isReal_guarded_rsqrt {s : Shape} (deg z0 z1 : FVec Ideal s .f32) (hdeg : ∀ i, IsReal (deg i))
    (h0 : ∀ i, z0 i = Ideal.ofBits .f32 0x00000000#32)
    (h1 : ∀ i, z1 i = Ideal.ofBits .f32 0x00000000#32) (i : s.Idx) :
    IsReal (select (cmpf (F := Ideal) (φ := .f32) .ogt deg z0) (Host.rsqrt (F := Ideal) deg) z1 i) := by
  obtain ⟨r, hr⟩ := hdeg i
  -- read the three operations at the index `i`
  show IsReal (if BitVec.ofBool (decide (z0 i < deg i)) = 1#1 then Ideal.rsqrt (deg i) else z1 i)
  rw [h0 i, h1 i, ofBits_zero_word, hr]
  by_cases hpos : 0 < r
  · -- a positive real: the guard holds and the reciprocal square root is `(√r)⁻¹`
    rw [if_pos ((ofBool_decide_eq_one _).2 (EReal.coe_pos.2 hpos)), Ideal.rsqrt_coe, if_neg (not_lt.2 hpos.le), if_neg hpos.ne']
    exact IsReal.coe _
  · -- otherwise the guard fails and the value is `0`
    rw [if_neg (fun h => hpos (EReal.coe_pos.1 ((ofBool_decide_eq_one _).1 h)))]
    exact IsReal.zero

/-- the finiteness test |a| < +inf (0x7F800000 is +inf) says a is real. -/
theorem isReal_of_abs_lt_inf {s : Shape} (a inf : FVec Ideal s .f32)
    (hinf : ∀ i, inf i = Ideal.ofBits .f32 0x7F800000#32) (i : s.Idx)
    (h : cmpf (F := Ideal) (φ := .f32) .olt (Host.absf (F := Ideal) a) inf i = 1#1) : IsReal (a i) := by
  -- read the comparison at the index `i`: it is the bit of `max (a i) (-(a i)) < inf i`
  have h' : BitVec.ofBool (decide (max (a i) (-(a i)) < inf i)) = 1#1 := h
  rw [hinf i, ofBits_inf_word, ofBool_decide_eq_one] at h'
  exact isReal_of_abs_lt_top h'

end Cert.Lib.RealIdeal

end
-- ==== Proof.Finite.lean ====
/-
  The finiteness precondition, read back: every entry of the six arguments is a real number.

  The precondition compares, entry by entry, `|a| < +∞` for each of the six arrays, takes the conjunction of each
  array's comparisons over all its entries, and joins the six results by `and`.  If the result is 1, each of the six
  conjunctions is 1, so each comparison is 1 at every entry, and `|a| < +∞` excludes `a = ⊤` and `a = ⊥`.
-/
import proofs.«150999_j3109556323149_2_alg».proof.Pre_finite_inputs
import proofs.«150999_j3109556323149_2_alg».proof.Proof.Gen.Pre_finite_inputs
import proofs.«150999_j3109556323149_2_alg».proof.Proof.LibRealIdeal
import proofs.«150999_j3109556323149_2_alg».proof.Proof.LibLayout3
import Idealize.ShloMosaic.Lib.ReduceAll

noncomputable section

namespace Cert.Finite

open Idealize.ShloMosaic Idealize.ShloMosaic.ValueIdx

/-- The scalar shape has one index. -/
instance : Subsingleton Cert.Pre_finite_inputs.S_.Idx := ⟨fun a b => funext fun d => d.elim0⟩

/-- One array's test: if the conjunction over all entries of `|a| < +∞` (the `+∞` word spread over the array's shape) is 1,
    every entry of `a` is a real number. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf (F := Ideal) (φ := .f32) .olt (Host.absf (F := Ideal) a)
            (broadcastInDim s ![] hb (constant (F := Ideal) Cert.Pre_finite_inputs.S_ .f32 0x7F800000#32)))
          (constantI Cert.Pre_finite_inputs.S_ 1 1#1) hr hu ix0 = 1#1)
    (i : s.Idx) : Cert.Lib.TwoHop.IsReal (a i) :=
  Cert.Lib.RealIdeal.isReal_of_abs_lt_inf a _
    (fun j => (Cert.LibLayout3.bcast_scalar_apply _ hb _ j).trans (constant_apply _ _)) i
    (Host.reduce_andi_all _ _ hr hu ix0 e i)

/-- The printed precondition holding says every entry of each of the six arguments is a real number. -/
theorem real_of_fn (a0 : FVec Ideal Cert.Pre_finite_inputs.S128x512x300 .f32) (a1 : FVec Ideal Cert.Pre_finite_inputs.S128x512x1024 .f32) (a2 : FVec Ideal Cert.Pre_finite_inputs.S300x256 .f32) (a3 : FVec Ideal Cert.Pre_finite_inputs.S256 .f32) (a4 : FVec Ideal Cert.Pre_finite_inputs.S1024x256 .f32) (a5 : FVec Ideal Cert.Pre_finite_inputs.S256 .f32)
    (h : Cert.Pre_finite_inputs.fn (F := Ideal) a0 a1 a2 a3 a4 a5 = fun _ => 1#1) :
    (∀ i, Cert.Lib.TwoHop.IsReal (a0 i)) ∧ (∀ i, Cert.Lib.TwoHop.IsReal (a1 i)) ∧ (∀ i, Cert.Lib.TwoHop.IsReal (a2 i)) ∧ (∀ i, Cert.Lib.TwoHop.IsReal (a3 i)) ∧ (∀ i, Cert.Lib.TwoHop.IsReal (a4 i)) ∧ (∀ i, Cert.Lib.TwoHop.IsReal (a5 i)) := by
  -- the result at its one index, as the conjunction of the six arrays' tests
  have h0 := congrFun h ix0
  dsimp only [Cert.Pre_finite_inputs.fn, Cert.Pre_finite_inputs.fn_part1, andi] at h0
  -- a conjunction that is 1 has both sides 1
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨real_of_all a0 _ _ _ e0, real_of_all a1 _ _ _ e1, real_of_all a2 _ _ _ e2, real_of_all a3 _ _ _ e3,
    real_of_all a4 _ _ _ e4, real_of_all a5 _ _ _ e5⟩

end Cert.Finite

end
-- ==== Proof.lean ====
/-
  The certificate of a bidirectional image–text attention kernel against its jnp reference.

  Both programs project the word features `text` [128, 512, 300] and the region features `image` [128, 512, 1024] to
  256 dimensions, add a bias and divide each row by its Euclidean norm plus ε; take the similarity of every word with
  every region, a leaky-relu of it, times 9; softmax that along the regions and along the words; form the two
  attention-weighted sums; take the cosine (with ε in the denominator) of each word with its attended image vector and
  of each region with its attended text vector; average the two families of cosines over their 512 positions and add
  the two averages: one number per batch row.

  The kernel does this in three launches, each tiled over the batch axis only (blocks of 8, 4 and 8 batch rows), and
  takes the softmaxes as `exp z / ∑ exp z`; the reference works on whole arrays and subtracts the row's (column's)
  maximum before exponentiating.  Since every step treats batch rows independently, each launch's output array is the
  specification's function of the whole input arrays (`Cert.KernelIdeal.Val.run`); the reference's run ends at the
  specification's function with the maximum subtracted (`Cert.ReferenceIdeal.Hand.run`, `Cert.ReferenceIdeal.Read.out_eq`);
  and for finite inputs every score is a real number, for which the two softmaxes are equal (`Attn.GK_eq_GR`).  The
  precondition — every input finite — is used exactly there.

  The word-level kernel is its idealization's own text (the ideal pass rewrote no operation), so `preserves` asks
  nothing; the three frames are the generated frames and the reference's run with its result dropped.
-/
import proofs.«150999_j3109556323149_2_alg».proof.Defs
import proofs.«150999_j3109556323149_2_alg».proof.Proof.Gen.Kernel
import proofs.«150999_j3109556323149_2_alg».proof.Proof.Gen.Kernel.Frame
import proofs.«150999_j3109556323149_2_alg».proof.Proof.Gen.KernelIdeal
import proofs.«150999_j3109556323149_2_alg».proof.Proof.Gen.KernelIdeal.Frame
import proofs.«150999_j3109556323149_2_alg».proof.Proof.Gen.ReferenceIdeal
import proofs.«150999_j3109556323149_2_alg».proof.Proof.Gen.Pre_finite_inputs
import proofs.«150999_j3109556323149_2_alg».proof.Proof.KValue
import proofs.«150999_j3109556323149_2_alg».proof.Proof.RefRun
import proofs.«150999_j3109556323149_2_alg».proof.Proof.RefRead
import proofs.«150999_j3109556323149_2_alg».proof.Proof.SpecLaw2
import proofs.«150999_j3109556323149_2_alg».proof.Proof.Finite

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote nothing: there is no conjunct to prove. -/
theorem preserves : Cert.preserves_Kernel_KernelIdeal := trivial

/-- From memories agreeing on the six arguments both programs end at the same result: the kernel's at `GK` of the
    arguments, the reference's at `GR` of them, and `GK = GR` on finite inputs. -/
theorem algebraic : Cert.algebraic_KernelIdeal_ReferenceIdeal := by
  intro m ρ m' ρ' hpre hagree
  refine ⟨_, Cert.KernelIdeal.Val.run m ρ, ?_⟩
  refine (θ_run Cert.ReferenceIdeal.defs _ _).mono (fun _ h c => ⟨(h c).1.trans ?_, (h c).2⟩)
    (Cert.ReferenceIdeal.Hand.run (F := Ideal) m' ρ')
  obtain ⟨a0, a1, a2, a3, a4, a5⟩ := hagree c
  obtain ⟨r0, r1, r2, r3, r4, r5⟩ := Cert.Finite.real_of_fn _ _ _ _ _ _ (hpre c)
  rw [a0, a1, a2, a3, a4, a5, Cert.ReferenceIdeal.Read.out_eq]
  exact (Attn.GK_eq_GR _ _ _ _ _ _ r0 r1 r2 r3 r4 r5).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
